-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x4096 : Shape := ⟨2, ![1024, 4096]⟩
abbrev S4096x5120 : Shape := ⟨2, ![4096, 5120]⟩
abbrev S4096 : Shape := ⟨1, ![4096]⟩
abbrev S4096x4096 : Shape := ⟨2, ![4096, 4096]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096x5120 : S_.BroadcastsInDim S4096x5120 (![] : Fin 0 → Fin S4096x5120.rank)
  reducesTo_S4096x5120_S_d0_1 : S4096x5120.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part3 {F : FTy → Type} [FloatOps F] (main_arg11 : FVec F S4096x4096 .f32) (main_arg12 : FVec F S4096 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x4096 .f32 := Host.absf main_arg11
  let main_cst_20 : FVec F S_ .f32 := constant S_ .f32 0x7F800000#32
  let main_v55 : FVec F S4096x4096 .f32 := broadcastInDim S4096x4096 ![] bcast_S_S4096x4096 main_cst_20
  let main_v56 : IVec S4096x4096 1 := cmpf .olt main_v54 main_v55
  let main_c_21 : IVec S_ 1 := constantI S_ 1 1#1
  let main_v57 : IVec S_ 1 := (fun x v => Host.reduce IntOp.andi x v reducesTo_S4096x4096_S_d0_1 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  main_v63

def fn_part2 {F : FTy → Type} [FloatOps F] (main_arg7 : FVec F S4096x5120 .f32) (main_arg8 : FVec F S4096 .f32) (main_arg9 : FVec F S4096x5120 .f32) (main_arg10 : FVec F S4096 .f32) (main_arg11 : FVec F S4096x4096 .f32) (main_arg12 : FVec F S4096 .f32) (main_v33 : IVec S_ 1) : IVec S_ 1 :=
  let main_v34 : FVec F S4096x5120 .f32 := Host.absf main_arg7
  let main_cst_12 : FVec F S_ .f32 := constant S_ .f32 0x7F800000#32
  let main_v35 : FVec F S4096x5120 .f32 := broadcastInDim S4096x5120 ![] bcast_S_S4096x5120 main_cst_12
  let main_v36 : IVec S4096x5120 1 := cmpf .olt main_v34 main_v35
  let main_c_13 : IVec S_ 1 := constantI S_ 1 1#1
  let main_v37 : IVec S_ 1 := (fun x v => Host.reduce IntOp.andi x v reducesTo_S4096x5120_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x5120 .f32 := Host.absf main_arg9
  let main_cst_16 : FVec F S_ .f32 := constant S_ .f32 0x7F800000#32
  let main_v45 : FVec F S4096x5120 .f32 := broadcastInDim S4096x5120 ![] bcast_S_S4096x5120 main_cst_16
  let main_v46 : IVec S4096x5120 1 := cmpf .olt main_v44 main_v45
  let main_c_17 : IVec S_ 1 := constantI S_ 1 1#1
  let main_v47 : IVec S_ 1 := (fun x v => Host.reduce IntOp.andi x v reducesTo_S4096x5120_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_v48 main_v49 main_v50

def fn_part1 {F : FTy → Type} [FloatOps F] (main_arg4 : FVec F S4096 .f32) (main_arg5 : FVec F S4096x5120 .f32) (main_arg6 : FVec F S4096 .f32) (main_arg7 : FVec F S4096x5120 .f32) (main_arg8 : FVec F S4096 .f32) (main_arg9 : FVec F S4096x5120 .f32) (main_arg10 : FVec F S4096 .f32) (main_arg11 : FVec F S4096x4096 .f32) (main_arg12 : FVec F S4096 .f32) (main_v13 : IVec S_ 1) (main_v16 : IVec S4096x5120 1) : IVec S_ 1 :=
  let main_c_5 : IVec S_ 1 := constantI S_ 1 1#1
  let main_v17 : IVec S_ 1 := (fun x v => Host.reduce IntOp.andi x v reducesTo_S4096x5120_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x5120 .f32 := Host.absf main_arg5
  let main_cst_8 : FVec F S_ .f32 := constant S_ .f32 0x7F800000#32
  let main_v25 : FVec F S4096x5120 .f32 := broadcastInDim S4096x5120 ![] bcast_S_S4096x5120 main_cst_8
  let main_v26 : IVec S4096x5120 1 := cmpf .olt main_v24 main_v25
  let main_c_9 : IVec S_ 1 := constantI S_ 1 1#1
  let main_v27 : IVec S_ 1 := (fun x v => Host.reduce IntOp.andi x v reducesTo_S4096x5120_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1024x1024 .f32) (main_arg1 : FVec F S1024x4096 .f32) (main_arg2 : FVec F S1024x4096 .f32) (main_arg3 : FVec F S4096x5120 .f32) (main_arg4 : FVec F S4096 .f32) (main_arg5 : FVec F S4096x5120 .f32) (main_arg6 : FVec F S4096 .f32) (main_arg7 : FVec F S4096x5120 .f32) (main_arg8 : FVec F S4096 .f32) (main_arg9 : FVec F S4096x5120 .f32) (main_arg10 : FVec F S4096 .f32) (main_arg11 : FVec F S4096x4096 .f32) (main_arg12 : FVec F S4096 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x5120 .f32 := Host.absf main_arg3
  let main_cst_4 : FVec F S_ .f32 := constant S_ .f32 0x7F800000#32
  let main_v15 : FVec F S4096x5120 .f32 := broadcastInDim S4096x5120 ![] bcast_S_S4096x5120 main_cst_4
  let main_v16 : IVec S4096x5120 1 := cmpf .olt main_v14 main_v15
  fn_part1 (F := F) main_arg4 main_arg5 main_arg6 main_arg7 main_arg8 main_arg9 main_arg10 main_arg11 main_arg12 main_v13 main_v16
-- ==== Kernel.lean ====
abbrev S1024x1024 : Shape := ⟨2, ![1024, 1024]⟩
abbrev S1024x4096 : Shape := ⟨2, ![1024, 4096]⟩
abbrev S4096x5120 : Shape := ⟨2, ![4096, 5120]⟩
abbrev S4096 : Shape := ⟨1, ![4096]⟩
abbrev S4096x4096 : Shape := ⟨2, ![4096, 4096]⟩
abbrev S1x4096 : Shape := ⟨2, ![1, 4096]⟩
abbrev S256x1024 : Shape := ⟨2, ![256, 1024]⟩
abbrev S1x256 : Shape := ⟨2, ![1, 256]⟩
abbrev S1024x256 : Shape := ⟨2, ![1024, 256]⟩
abbrev S256x256 : Shape := ⟨2, ![256, 256]⟩
abbrev S4096x256 : Shape := ⟨2, ![4096, 256]⟩
abbrev S256x4096 : Shape := ⟨2, ![256, 4096]⟩
abbrev S256 : Shape := ⟨1, ![256]⟩
abbrev S256x1 : Shape := ⟨2, ![256, 1]⟩

abbrev nBuf : Space → Nat
  | .hbm => 22
  | .vmem => 39
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S1024x4096, .f32⟩
  | .hbm, ⟨3, _⟩ => ⟨S4096x5120, .f32⟩
  | .hbm, ⟨4, _⟩ => ⟨S4096, .f32⟩
  | .hbm, ⟨5, _⟩ => ⟨S4096x5120, .f32⟩
  | .hbm, ⟨6, _⟩ => ⟨S4096, .f32⟩
  | .hbm, ⟨7, _⟩ => ⟨S4096x5120, .f32⟩
  | .hbm, ⟨8, _⟩ => ⟨S4096, .f32⟩
  | .hbm, ⟨9, _⟩ => ⟨S4096x5120, .f32⟩
  | .hbm, ⟨10, _⟩ => ⟨S4096, .f32⟩
  | .hbm, ⟨11, _⟩ => ⟨S4096x4096, .f32⟩
  | .hbm, ⟨12, _⟩ => ⟨S4096, .f32⟩
  | .hbm, ⟨13, _⟩ => ⟨S1x4096, .f32⟩
  | .hbm, ⟨14, _⟩ => ⟨S1x4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1024x4096, .f32⟩
  | .hbm, ⟨19, _⟩ => ⟨S1024x4096, .f32⟩
  | .hbm, ⟨20, _⟩ => ⟨S1024x4096, .f32⟩
  | .hbm, ⟨21, _⟩ => ⟨S1024x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S256x256, .f32⟩
  | .local _ .vmem, ⟨32, _⟩ => ⟨S256x256, .f32⟩
  | .local _ .vmem, ⟨33, _⟩ => ⟨S4096x256, .f32⟩
  | .local _ .vmem, ⟨34, _⟩ => ⟨S4096x256, .f32⟩
  | .local _ .vmem, ⟨35, _⟩ => ⟨S1x4096, .f32⟩
  | .local _ .vmem, ⟨36, _⟩ => ⟨S256x4096, .f32⟩
  | .local _ .vmem, ⟨37, _⟩ => ⟨S256x4096, .f32⟩
  | .local _ .vmem, ⟨38, _⟩ => ⟨S256x4096, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v5_2 : Ref sig .tc := ⟨.hbm, 20, rfl⟩
abbrev main_v6 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc1_stg0_0 : Ref sig .tc := ⟨.vmem, 31, rfl⟩
abbrev cc1_stg0_1 : Ref sig .tc := ⟨.vmem, 32, rfl⟩
abbrev cc1_stg1_0 : Ref sig .tc := ⟨.vmem, 33, rfl⟩
abbrev cc1_stg1_1 : Ref sig .tc := ⟨.vmem, 34, rfl⟩
abbrev cc1_stg2_0 : Ref sig .tc := ⟨.vmem, 35, rfl⟩
abbrev cc1_stg3_0 : Ref sig .tc := ⟨.vmem, 36, rfl⟩
abbrev cc1_stg3_1 : Ref sig .tc := ⟨.vmem, 37, rfl⟩
abbrev cc1_scratch0 : Ref sig .tc := ⟨.vmem, 38, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc1_sem0_0 : DmaSem sig := 27
abbrev cc1_sem0_1 : DmaSem sig := 28
abbrev cc1_sem1_0 : DmaSem sig := 29
abbrev cc1_sem1_1 : DmaSem sig := 30
abbrev cc1_sem2_0 : DmaSem sig := 31
abbrev cc1_sem3_0 : DmaSem sig := 32
abbrev cc1_sem3_1 : DmaSem sig := 33

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c4_i32 : BitVec 32 := 4#32
  let v40 : BitVec 1 := Scalar.cmpi .eq arg1 c4_i32
  let v41 : BitVec 32 := Scalar.extui v40
  let c0_i32_32 : BitVec 32 := 0#32
  let v42 : BitVec 1 := Scalar.cmpi .ne v41 c0_i32_32
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev grid1 : Pipeline.Grid := ⟨2, ![4, 16], ![false, false]⟩

def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S4096_S1x4096 : S4096.ShapeCasts S1x4096
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4096x256_S4096x256_0_0 : ∀ a, (![0, 0] : Fin 2 → Nat) a + S4096x256.size a ≤ S4096x256.size a
  h_S4096x256 : 0 < S4096x256.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  reduces_S256x4096_S256 : S256x4096.Reduces [1] S256
  shapeCasts_S256_S256x1 : S256.ShapeCasts S256x1
  broadcasts_S256x1_S256x4096 : S256x1.Broadcasts S256x4096
  dot_S1024x1024_S256x1024_S1024x256_1_1_0_0_n_n_wf : DotDims.WF S1024x1024 S256x1024 S1024x256 [1] [1] [0] [0] [] []
  dot_S256x256_S4096x256_S256x4096_1_1_0_0_n_n_wf : DotDims.WF S256x256 S4096x256 S256x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .f32 = 32 ∨ (Rect.block (s := S1024x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x5120.size a
  hwx0_2 : ∀ i : grid0.Coords, EltTy.bits .f32 = 32 ∨ (Rect.block (s := S4096x5120) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x5120.size a
  hwx0_3 : ∀ i : grid0.Coords, EltTy.bits .f32 = 32 ∨ (Rect.block (s := S4096x5120) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x5120.size a
  hwx0_4 : ∀ i : grid0.Coords, EltTy.bits .f32 = 32 ∨ (Rect.block (s := S4096x5120) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x5120.size a
  hwx0_5 : ∀ i : grid0.Coords, EltTy.bits .f32 = 32 ∨ (Rect.block (s := S4096x5120) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x4096.size a
  hwx0_6 : ∀ i : grid0.Coords, EltTy.bits .f32 = 32 ∨ (Rect.block (s := S1x4096) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x4096.size a
  hwx0_7 : ∀ i : grid0.Coords, EltTy.bits .f32 = 32 ∨ (Rect.block (s := S1x4096) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x4096.size a
  hwx0_8 : ∀ i : grid0.Coords, EltTy.bits .f32 = 32 ∨ (Rect.block (s := S1x4096) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x4096.size a
  hwx0_9 : ∀ i : grid0.Coords, EltTy.bits .f32 = 32 ∨ (Rect.block (s := S1x4096) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S1024x4096.size a
  hwx0_10 : ∀ i : grid0.Coords, EltTy.bits .f32 = 32 ∨ (Rect.block (s := S1024x4096) S1024x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S1024x4096.size a
  hwx0_11 : ∀ i : grid0.Coords, EltTy.bits .f32 = 32 ∨ (Rect.block (s := S1024x4096) S1024x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x256.size a ≤ S1024x4096.size a
  hwx0_12 : ∀ i : grid0.Coords, EltTy.bits .f32 = 32 ∨ (Rect.block (s := S1024x4096) S1024x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x256.size a ≤ S1024x4096.size a
  hwx0_13 : ∀ i : grid0.Coords, EltTy.bits .f32 = 32 ∨ (Rect.block (s := S1024x4096) S1024x256.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x256.size a ≤ S1024x4096.size a
  hwx1_0 : ∀ i : grid1.Coords, EltTy.bits .f32 = 32 ∨ (Rect.block (s := S1024x4096) S256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x4096.size a
  hwx1_1 : ∀ i : grid1.Coords, EltTy.bits .f32 = 32 ∨ (Rect.block (s := S4096x4096) S4096x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S1024x4096.size a
  hwx1_3 : ∀ i : grid1.Coords, EltTy.bits .f32 = 32 ∨ (Rect.block (s := S1024x4096) S256x4096.size (cc1_transform_3 i) (hinb1_3 i)).WholeWords (EltTy.packing .f32)

variable [Facts₀]

def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf

abbrev win0_0 : Pipeline.Window sig grid0 :=
  Pipeline.Window.ofSpec (Memref.whole main_arg0) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg2) S1024x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_0) S1024x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v5_1) S1024x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v5_2) S1024x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | 12 => fun i => !(k0_cond2 i == 1#1) | 13 => fun i => !(k0_cond2 i == 1#1) | ⟨_ + 14, h⟩ => absurd h (Nat.not_lt.2 (Nat.le_add_left _ _))

abbrev win1_0 : Pipeline.Window sig grid1 :=
  Pipeline.Window.ofSpec (Memref.whole main_v5_1) S256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S1024x1024 : Shape := ⟨2, ![1024, 1024]⟩
abbrev S1024x4096 : Shape := ⟨2, ![1024, 4096]⟩
abbrev S4096x5120 : Shape := ⟨2, ![4096, 5120]⟩
abbrev S4096 : Shape := ⟨1, ![4096]⟩
abbrev S4096x4096 : Shape := ⟨2, ![4096, 4096]⟩
abbrev S1024x5120 : Shape := ⟨2, ![1024, 5120]⟩
abbrev S16384x5120 : Shape := ⟨2, ![16384, 5120]⟩
abbrev S16384 : Shape := ⟨1, ![16384]⟩
abbrev S5120x16384 : Shape := ⟨2, ![5120, 16384]⟩
abbrev S1024x16384 : Shape := ⟨2, ![1024, 16384]⟩
abbrev S1x16384 : Shape := ⟨2, ![1, 16384]⟩
abbrev S_ : Shape := ⟨0, ![]⟩
abbrev S1x4096 : Shape := ⟨2, ![1, 4096]⟩
abbrev S1024 : Shape := ⟨1, ![1024]⟩
abbrev S1024x1 : Shape := ⟨2, ![1024, 1]⟩

abbrev nBuf : Space → Nat
  | .hbm => 75
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S1024x4096, .f32⟩
  | .hbm, ⟨3, _⟩ => ⟨S4096x5120, .f32⟩
  | .hbm, ⟨4, _⟩ => ⟨S4096, .f32⟩
  | .hbm, ⟨5, _⟩ => ⟨S4096x5120, .f32⟩
  | .hbm, ⟨6, _⟩ => ⟨S4096, .f32⟩
  | .hbm, ⟨7, _⟩ => ⟨S4096x5120, .f32⟩
  | .hbm, ⟨8, _⟩ => ⟨S4096, .f32⟩
  | .hbm, ⟨9, _⟩ => ⟨S4096x5120, .f32⟩
  | .hbm, ⟨10, _⟩ => ⟨S4096, .f32⟩
  | .hbm, ⟨11, _⟩ => ⟨S4096x4096, .f32⟩
  | .hbm, ⟨12, _⟩ => ⟨S4096, .f32⟩
  | .hbm, ⟨13, _⟩ => ⟨S1024x5120, .f32⟩
  | .hbm, ⟨14, _⟩ => ⟨S16384x5120, .f32⟩
  | .hbm, ⟨15, _⟩ => ⟨S16384, .f32⟩
  | .hbm, ⟨16, _⟩ => ⟨S5120x16384, .f32⟩
  | .hbm, ⟨17, _⟩ => ⟨S1024x16384, .f32⟩
  | .hbm, ⟨18, _⟩ => ⟨S1x16384, .f32⟩
  | .hbm, ⟨19, _⟩ => ⟨S1024x16384, .f32⟩
  | .hbm, ⟨20, _⟩ => ⟨S1024x16384, .f32⟩
  | .hbm, ⟨21, _⟩ => ⟨S1024x4096, .f32⟩
  | .hbm, ⟨22, _⟩ => ⟨S1024x4096, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S1024x4096, .f32⟩
  | .hbm, ⟨27, _⟩ => ⟨S_, .f32⟩
  | .hbm, ⟨28, _⟩ => ⟨S1024x4096, .f32⟩
  | .hbm, ⟨29, _⟩ => ⟨S1024x4096, .f32⟩
  | .hbm, ⟨30, _⟩ => ⟨S_, .f32⟩
  | .hbm, ⟨31, _⟩ => ⟨S1024x4096, .f32⟩
  | .hbm, ⟨32, _⟩ => ⟨S1024x4096, .f32⟩
  | .hbm, ⟨33, _⟩ => ⟨S1024x4096, .f32⟩
  | .hbm, ⟨34, _⟩ => ⟨S1024x4096, .f32⟩
  | .hbm, ⟨35, _⟩ => ⟨S_, .f32⟩
  | .hbm, ⟨36, _⟩ => ⟨S1024x4096, .f32⟩
  | .hbm, ⟨37, _⟩ => ⟨S1024x4096, .f32⟩
  | .hbm, ⟨38, _⟩ => ⟨S_, .f32⟩
  | .hbm, ⟨39, _⟩ => ⟨S1024x4096, .f32⟩
  | .hbm, ⟨40, _⟩ => ⟨S1024x4096, .f32⟩
  | .hbm, ⟨41, _⟩ => ⟨S1024x4096, .f32⟩
  | .hbm, ⟨42, _⟩ => ⟨S1024x4096, .f32⟩
  | .hbm, ⟨43, _⟩ => ⟨S1024x4096, .f32⟩
  | .hbm, ⟨44, _⟩ => ⟨S1024x4096, .f32⟩
  | .hbm, ⟨45, _⟩ => ⟨S1024x4096, .f32⟩
  | .hbm, ⟨46, _⟩ => ⟨S1024x4096, .f32⟩
  | .hbm, ⟨47, _⟩ => ⟨S_, .f32⟩
  | .hbm, ⟨48, _⟩ => ⟨S1024x4096, .f32⟩
  | .hbm, ⟨49, _⟩ => ⟨S1024x4096, .f32⟩
  | .hbm, ⟨50, _⟩ => ⟨S_, .f32⟩
  | .hbm, ⟨51, _⟩ => ⟨S1024x4096, .f32⟩
  | .hbm, ⟨52, _⟩ => ⟨S1024x4096, .f32⟩
  | .hbm, ⟨53, _⟩ => ⟨S1024x4096, .f32⟩
  | .hbm, ⟨54, _⟩ => ⟨S1024x4096, .f32⟩
  | .hbm, ⟨55, _⟩ => ⟨S4096x4096, .f32⟩
  | .hbm, ⟨56, _⟩ => ⟨S1024x4096, .f32⟩
  | .hbm, ⟨57, _⟩ => ⟨S1x4096, .f32⟩
  | .hbm, ⟨58, _⟩ => ⟨S1024x4096, .f32⟩
  | .hbm, ⟨59, _⟩ => ⟨S1024x4096, .f32⟩
  | .hbm, ⟨60, _⟩ => ⟨S_, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1024x1, .f32⟩
  | .hbm, ⟨66, _⟩ => ⟨S1024x4096, .f32⟩
  | .hbm, ⟨67, _⟩ => ⟨S1024x4096, .f32⟩
  | .hbm, ⟨68, _⟩ => ⟨S1024x4096, .f32⟩
  | .hbm, ⟨69, _⟩ => ⟨S_, .f32⟩
  | .hbm, ⟨70, _⟩ => ⟨S1024, .f32⟩
  | .hbm, ⟨71, _⟩ => ⟨S1024x1, .f32⟩
  | .hbm, ⟨72, _⟩ => ⟨S1024x1, .f32⟩
  | .hbm, ⟨73, _⟩ => ⟨S1024x4096, .f32⟩
  | .hbm, ⟨74, _⟩ => ⟨S1024x4096, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call0_cst : Ref sig .tc := ⟨.hbm, 60, rfl⟩
abbrev main_call0_v0 : Ref sig .tc := ⟨.hbm, 61, rfl⟩
abbrev main_call0_cst_0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_cst_1 : Ref sig .tc := ⟨.hbm, 69, rfl⟩
abbrev main_call0_v7 : Ref sig .tc := ⟨.hbm, 70, rfl⟩
abbrev main_call0_v8 : Ref sig .tc := ⟨.hbm, 71, rfl⟩
abbrev main_call0_v9 : Ref sig .tc := ⟨.hbm, 72, rfl⟩
abbrev main_call0_v10 : Ref sig .tc := ⟨.hbm, 73, rfl⟩
abbrev main_v41 : Ref sig .tc := ⟨.hbm, 74, rfl⟩

abbrev nD : Nat := 1
abbrev τ : Topo := Topo.v7x

variable {F : FTy → Type} [FloatOps F]

class Facts₀ : Prop where
  concatenates_S1024x1024_S1024x4096_S1024x5120_d1 : Shape.Concatenates [S1024x1024, S1024x4096] S1024x5120 1
  concatenates_S4096x5120_S4096x5120_S4096x5120_S4096x5120_S16384x5120_d0 : Shape.Concatenates [S4096x5120, S4096x5120, S4096x5120, S4096x5120] S16384x5120 0
  concatenates_S4096_S4096_S4096_S4096_S16384_d0 : Shape.Concatenates [S4096, S4096, S4096, S4096] S16384 0
  transposes_S16384x5120_S5120x16384_1_0 : S16384x5120.Transposes [1, 0] S5120x16384
  bcast_S16384_S1x16384_1 : S16384.BroadcastsInDim S1x16384 (![1] : Fin 1 → Fin S1x16384.rank)
  bcast_S1x16384_S1024x16384_0_1 : S1x16384.BroadcastsInDim S1024x16384 (![0, 1] : Fin 2 → Fin S1024x16384.rank)
  slices_S1024x16384_S1024x4096_0_0 : S1024x16384.Slices ![0, 0] S1024x4096
  slices_S1024x16384_S1024x4096_0_4096 : S1024x16384.Slices ![0, 4096] S1024x4096
  slices_S1024x16384_S1024x4096_0_8192 : S1024x16384.Slices ![0, 8192] S1024x4096
  slices_S1024x16384_S1024x4096_0_12288 : S1024x16384.Slices ![0, 12288] S1024x4096
  bcast_S_S1024x4096 : S_.BroadcastsInDim S1024x4096 (![] : Fin 0 → Fin S1024x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  reducesTo_S1024x4096_S1024_d1 : S1024x4096.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x4096_0_1 : S1024x1.BroadcastsInDim S1024x4096 (![0, 1] : Fin 2 → Fin S1024x4096.rank)
  dot_S1024x5120_S5120x16384_S1024x16384_1_0_0_1_n_n_wf : DotDims.WF S1024x5120 S5120x16384 S1024x16384 [1] [0] [0] [1] [] []
  dot_S1024x4096_S4096x4096_S1024x4096_1_0_0_1_n_n_wf : DotDims.WF S1024x4096 S4096x4096 S1024x4096 [1] [0] [0] [1] [] []

variable [Facts₀]

def dot_S1024x5120_S5120x16384_S1024x16384_1_0_0_1_n_n : DotDims S1024x5120 S5120x16384 S1024x16384 where
  lhsContracting := [1]
  rhsContracting := [0]
  lhsNonContracting := [0]
  rhsNonContracting := [1]
  lhsBatch := []
  rhsBatch := []
  wf := dot_S1024x5120_S5120x16384_S1024x16384_1_0_0_1_n_n_wf
def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.LibWholeBlock.lean ====
/-
  Whole-block loads and stores of a whole buffer.
-/
import Idealize.ShloMosaic.Lib.Pipeline.FrameBody
import Idealize.ShloMosaic.Lib.Pipeline.Frame
import Idealize.ShloMosaic.Lib.Pipeline.Value

noncomputable section

namespace Idealize.ShloMosaic.WholeBlock

open Idealize.ShloMosaic

variable {Val : EltTy → Type} {S : Shape} {e : EltTy} {sig : RefSig} {κ : Kind} {sp : Space}

/-- A list of stores whose LAST one goes through the whole-shape rectangle at zero offsets leaves, read back through
    the view, that store's payload: whatever the buffer held and whatever the earlier stores wrote. -/
theorem read_writes_unit_zero [∀ e, Nonempty (Val e)] (v : View sig κ sp S e) (f : v.ty.Contents Val)
    {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole-shape rectangle at zero offsets of a whole buffer holding `X` reads `X`. -/
theorem readAt_unit_zero_unread (m : Memref sig κ sp S e) (hm : m.IsWhole)
    {off : Fin S.rank → Nat} (h : off = fun _ => 0) (inb : ∀ a, off a + S.size a ≤ S.size a) (X : S.Idx → Val e) :
    m.view.readAt Val (Rect.unit off S.size inb).toLoadRect (hm.unread X) = X := by
  show View.ld (m.view.read Val (hm.unread X)) (Rect.unit off S.size inb) = X
  rw [hm.read_unread, View.ld_unit_zero h inb]

/-- The two zero offsets of a rank-2 rectangle, as the constant function. -/
theorem zero2 : (![0, 0] : Fin 2 → Nat) = fun _ => 0 := by
  funext a; match a with | ⟨0, _⟩ => rfl | ⟨1, _⟩ => rfl

end Idealize.ShloMosaic.WholeBlock

end
-- ==== Proof.K.R0Runs.lean ====
/-
  The first kernel (the four gates) at one grid point, in each of the three ways its two branches can go. The grid
  is (hidden tile, k); the four accumulator scratches are zeroed when k = 0; at every point the staged row block —
  the block of `i` when k = 0, else the block of `h` — is multiplied against the point's block of each gate's
  weights and added to that gate's accumulator; when k = 4 the biases are added, the gates are applied and the three
  output blocks (the input gate, the new hidden state, the new cell state) are stored. Each lemma says what every
  buffer the body is handed holds afterwards, as the body's own payload terms of what they held before.
-/
import proofs.«119333_j60842506715793_2_alg».proof.Proof.Gen.Kernel.Launch
import proofs.«119333_j60842506715793_2_alg».proof.Proof.Gen.Kernel.Skeleton
import proofs.«119333_j60842506715793_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«119333_j60842506715793_2_alg».proof.Proof.LibWholeBlock

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.WholeBlock

/-! ## The two branch conditions over the grid -/

/-- "k = 0", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)
/-- "k = 4". -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## The body, case by case -/

set_option maxHeartbeats 4000000 in
/-- k = 0: the four scratches are zeroed, then each gains its product; nothing else changes. -/
theorem run0_first (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole)
    (hc0 : cond0_0 i) (hc1 : ¬cond0_1 i)
    (x2 : Vec F S1024x1024 .f32) (x3 : Vec F S1024x1024 .f32) (x4 : Vec F S256x1024 .f32) (x5 : Vec F S256x1024 .f32) (x6 : Vec F S256x1024 .f32) (x7 : Vec F S256x1024 .f32) (x8 : Vec F S1x256 .f32) (x9 : Vec F S1x256 .f32) (x10 : Vec F S1x256 .f32) (x11 : Vec F S1x256 .f32) (x12 : Vec F S1024x256 .f32) (x13 : Vec F S1024x256 .f32) (x14 : Vec F S1024x256 .f32) (x15 : Vec F S1024x256 .f32) (x16 : Vec F S1024x256 .f32) (x17 : Vec F S1024x256 .f32) (x18 : Vec F S1024x256 .f32) (x19 : Vec F S1024x256 .f32)
    (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare x14
            ∗ owns (c : Thread nD τ) arg15 fullShare x15
            ∗ owns (c : Thread nD τ) arg16 fullShare (k0_pay13 i x2 x3 x4 (k0_pay6 (F := F)))
            ∗ owns (c : Thread nD τ) arg17 fullShare (k0_pay14 i x2 x3 x5 (k0_pay7 (F := F)))
            ∗ owns (c : Thread nD τ) arg18 fullShare (k0_pay1 (k0_pay10 i x2 x3) (k0_pay11 x6) (k0_pay8 (F := F)))
            ∗ owns (c : Thread nD τ) arg19 fullShare (k0_pay2 (k0_pay10 i x2 x3) (k0_pay12 x7) (k0_pay9 (F := F)))) -∗ K ⟨⟩))
      ⊢ wp frame (wpE (defs₀ (F := F)) Variants.none c none) E (cc0__lstm_gate_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__lstm_gate_kernel_eq_skeleton]; unfold cc0__lstm_gate_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr
    swap; · iexact H16
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H17]
  · iexists _; isplitr
    swap; · iexact H17
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H18]
  · iexists _; isplitr
    swap; · iexact H18
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  iexists _; isplitr
  swap; · iexact H19
  ipureintro
  try sl_unfold_run_names
  rw [read_writes_unit_zero _ _ zero2]
  simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]

set_option maxHeartbeats 4000000 in
/-- 0 < k < 4: each scratch gains its product; nothing else changes. -/
theorem run0_mid (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole)
    (hc0 : ¬cond0_0 i) (hc1 : ¬cond0_1 i)
    (x2 : Vec F S1024x1024 .f32) (x3 : Vec F S1024x1024 .f32) (x4 : Vec F S256x1024 .f32) (x5 : Vec F S256x1024 .f32) (x6 : Vec F S256x1024 .f32) (x7 : Vec F S256x1024 .f32) (x8 : Vec F S1x256 .f32) (x9 : Vec F S1x256 .f32) (x10 : Vec F S1x256 .f32) (x11 : Vec F S1x256 .f32) (x12 : Vec F S1024x256 .f32) (x13 : Vec F S1024x256 .f32) (x14 : Vec F S1024x256 .f32) (x15 : Vec F S1024x256 .f32) (x16 : Vec F S1024x256 .f32) (x17 : Vec F S1024x256 .f32) (x18 : Vec F S1024x256 .f32) (x19 : Vec F S1024x256 .f32)
    (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare x14
            ∗ owns (c : Thread nD τ) arg15 fullShare x15
            ∗ owns (c : Thread nD τ) arg16 fullShare (k0_pay13 i x2 x3 x4 x16)
            ∗ owns (c : Thread nD τ) arg17 fullShare (k0_pay14 i x2 x3 x5 x17)
            ∗ owns (c : Thread nD τ) arg18 fullShare (k0_pay1 (k0_pay10 i x2 x3) (k0_pay11 x6) x18)
            ∗ owns (c : Thread nD τ) arg19 fullShare (k0_pay2 (k0_pay10 i x2 x3) (k0_pay12 x7) x19)) -∗ K ⟨⟩))
      ⊢ wp frame (wpE (defs₀ (F := F)) Variants.none c none) E (cc0__lstm_gate_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__lstm_gate_kernel_eq_skeleton]; unfold cc0__lstm_gate_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr
    swap; · iexact H16
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H17]
  · iexists _; isplitr
    swap; · iexact H17
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H18]
  · iexists _; isplitr
    swap; · iexact H18
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  iexists _; isplitr
  swap; · iexact H19
  ipureintro
  try sl_unfold_run_names
  rw [read_writes_unit_zero _ _ zero2]
  simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]

set_option maxHeartbeats 4000000 in
/-- k = 4: each scratch gains its product; the three output blocks take the gates of the scratches plus the biases. -/
theorem run0_last (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole)
    (hc0 : ¬cond0_0 i) (hc1 : cond0_1 i)
    (x2 : Vec F S1024x1024 .f32) (x3 : Vec F S1024x1024 .f32) (x4 : Vec F S256x1024 .f32) (x5 : Vec F S256x1024 .f32) (x6 : Vec F S256x1024 .f32) (x7 : Vec F S256x1024 .f32) (x8 : Vec F S1x256 .f32) (x9 : Vec F S1x256 .f32) (x10 : Vec F S1x256 .f32) (x11 : Vec F S1x256 .f32) (x12 : Vec F S1024x256 .f32) (x13 : Vec F S1024x256 .f32) (x14 : Vec F S1024x256 .f32) (x15 : Vec F S1024x256 .f32) (x16 : Vec F S1024x256 .f32) (x17 : Vec F S1024x256 .f32) (x18 : Vec F S1024x256 .f32) (x19 : Vec F S1024x256 .f32)
    (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare (k0_pay3 (k0_pay14 i x2 x3 x5 x17) x9)
            ∗ owns (c : Thread nD τ) arg14 fullShare (k0_pay5 (k0_pay13 i x2 x3 x4 x16) x8 (k0_pay14 i x2 x3 x5 x17) x9 (k0_pay1 (k0_pay10 i x2 x3) (k0_pay11 x6) x18) x10 (k0_pay2 (k0_pay10 i x2 x3) (k0_pay12 x7) x19) x11 x12)
            ∗ owns (c : Thread nD τ) arg15 fullShare (k0_pay4 (k0_pay13 i x2 x3 x4 x16) x8 (k0_pay14 i x2 x3 x5 x17) x9 (k0_pay1 (k0_pay10 i x2 x3) (k0_pay11 x6) x18) x10 x12)
            ∗ owns (c : Thread nD τ) arg16 fullShare (k0_pay13 i x2 x3 x4 x16)
            ∗ owns (c : Thread nD τ) arg17 fullShare (k0_pay14 i x2 x3 x5 x17)
            ∗ owns (c : Thread nD τ) arg18 fullShare (k0_pay1 (k0_pay10 i x2 x3) (k0_pay11 x6) x18)
            ∗ owns (c : Thread nD τ) arg19 fullShare (k0_pay2 (k0_pay10 i x2 x3) (k0_pay12 x7) x19)) -∗ K ⟨⟩))
      ⊢ wp frame (wpE (defs₀ (F := F)) Variants.none c none) E (cc0__lstm_gate_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__lstm_gate_kernel_eq_skeleton]; unfold cc0__lstm_gate_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H14]
  · iexists _; isplitr
    swap; · iexact H14
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H15]
  · iexists _; isplitr
    swap; · iexact H15
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H16]
  · iexists _; isplitr
    swap; · iexact H16
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H17]
  · iexists _; isplitr
    swap; · iexact H17
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H18]
  · iexists _; isplitr
    swap; · iexact H18
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  iexists _; isplitr
  swap; · iexact H19
  ipureintro
  try sl_unfold_run_names
  rw [read_writes_unit_zero _ _ zero2]
  simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]

end Cert.Kernel.Hand

end
-- ==== Proof.K.R0Frame.lean ====
/-
  The first kernel (the four gates) over its whole grid, from any contents `V` of the core's buffers at the
  region's entry. What the four accumulator scratches hold after each point is a recursion on the point: at k = 0
  each gate's product of the point's blocks added to the zero splat, at every later k the product added to what the
  point before left. The three output blocks are stored at k = 4 only, from the accumulators, the bias rows and the
  block of the old cell state; at the other points their staging buffers are handed back as found. The invariant
  carried from point to point is the four scratches at the accumulators' contents beside the other scoped buffers
  and the generator register.
-/
import proofs.«119333_j60842506715793_2_alg».proof.Proof.K.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.WholeBlock

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## Where the output windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
/-- Away from k = 4 output window 11 is idle and not written back; at k = 4 it is live. -/
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel
/-- Away from k = 4 output window 12 is idle and not written back; at k = 4 it is live. -/
theorem idleAt0_12 : ∀ t : Fin cfg0.N, ¬cond0_1 (grid0.coords t) → cfg0.idle 12 (grid0.coords t) = true := by decide +kernel
theorem noFlush0_12 : ∀ t : Fin cfg0.N, ¬cond0_1 (grid0.coords t) → (cfg0.win 12).flush t = false := by decide +kernel
theorem liveAt0_12 : ∀ t : Fin cfg0.N, cond0_1 (grid0.coords t) → cfg0.idle 12 (grid0.coords t) = false := by decide +kernel
/-- Away from k = 4 output window 13 is idle and not written back; at k = 4 it is live. -/
theorem idleAt0_13 : ∀ t : Fin cfg0.N, ¬cond0_1 (grid0.coords t) → cfg0.idle 13 (grid0.coords t) = true := by decide +kernel
theorem noFlush0_13 : ∀ t : Fin cfg0.N, ¬cond0_1 (grid0.coords t) → (cfg0.win 13).flush t = false := by decide +kernel
theorem liveAt0_13 : ∀ t : Fin cfg0.N, cond0_1 (grid0.coords t) → cfg0.idle 13 (grid0.coords t) = false := by decide +kernel

/-! ## The staging memrefs and the scratches -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x256 .f32 := win0_13.stage (cfg0.slots t 13)
abbrev hs0_13 (t : Fin cfg0.N) : (ms0_13 t).IsWhole := hstage0_13 ((cfg0.slots t 13).cast nbuf0_13)
/-- The four accumulator scratches, whole scoped buffers of the kernel's own. -/
abbrev scM0_0 : Memref sig .tc .vmem S1024x256 .f32 := Memref.whole cc0_scratch0
abbrev scM0_1 : Memref sig .tc .vmem S1024x256 .f32 := Memref.whole cc0_scratch1
abbrev scM0_2 : Memref sig .tc .vmem S1024x256 .f32 := Memref.whole cc0_scratch2
abbrev scM0_3 : Memref sig .tc .vmem S1024x256 .f32 := Memref.whole cc0_scratch3

/-- The scoped buffers that are neither this kernel's staging buffers nor its scratches, each whole at some contents. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with the scratches as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ rest0 (F := F) c) ∗ (∃ r, prngReg c r)) := by
  unfold Pipeline.ΦA; rw [scopedRest0_eq]; simp only [scM0_0, scM0_1, scM0_2, scM0_3, owns_whole]; try rfl

/-! ## The accumulators after each point -/

/-- What the four scratches hold after the body at position `n` (forget, input, cell, output gate, in that order). -/
def acc0 (c : Dev nD) : (n : ℕ) → n < cfg0.N → Vec F S1024x256 .f32 × Vec F S1024x256 .f32 × Vec F S1024x256 .f32 × Vec F S1024x256 .f32
  | 0, hn => (k0_pay13 (grid0.coords ⟨0, hn⟩) (iblk0 V c 0 ⟨0, hn⟩) (iblk0 V c 1 ⟨0, hn⟩) (iblk0 V c 2 ⟨0, hn⟩) (k0_pay6 (F := F)), k0_pay14 (grid0.coords ⟨0, hn⟩) (iblk0 V c 0 ⟨0, hn⟩) (iblk0 V c 1 ⟨0, hn⟩) (iblk0 V c 3 ⟨0, hn⟩) (k0_pay7 (F := F)), k0_pay1 (k0_pay10 (grid0.coords ⟨0, hn⟩) (iblk0 V c 0 ⟨0, hn⟩) (iblk0 V c 1 ⟨0, hn⟩)) (k0_pay11 (iblk0 V c 4 ⟨0, hn⟩)) (k0_pay8 (F := F)), k0_pay2 (k0_pay10 (grid0.coords ⟨0, hn⟩) (iblk0 V c 0 ⟨0, hn⟩) (iblk0 V c 1 ⟨0, hn⟩)) (k0_pay12 (iblk0 V c 5 ⟨0, hn⟩)) (k0_pay9 (F := F)))
  | n + 1, hn =>
    if (n + 1) % 5 = 0 then (k0_pay13 (grid0.coords ⟨n + 1, hn⟩) (iblk0 V c 0 ⟨n + 1, hn⟩) (iblk0 V c 1 ⟨n + 1, hn⟩) (iblk0 V c 2 ⟨n + 1, hn⟩) (k0_pay6 (F := F)), k0_pay14 (grid0.coords ⟨n + 1, hn⟩) (iblk0 V c 0 ⟨n + 1, hn⟩) (iblk0 V c 1 ⟨n + 1, hn⟩) (iblk0 V c 3 ⟨n + 1, hn⟩) (k0_pay7 (F := F)), k0_pay1 (k0_pay10 (grid0.coords ⟨n + 1, hn⟩) (iblk0 V c 0 ⟨n + 1, hn⟩) (iblk0 V c 1 ⟨n + 1, hn⟩)) (k0_pay11 (iblk0 V c 4 ⟨n + 1, hn⟩)) (k0_pay8 (F := F)), k0_pay2 (k0_pay10 (grid0.coords ⟨n + 1, hn⟩) (iblk0 V c 0 ⟨n + 1, hn⟩) (iblk0 V c 1 ⟨n + 1, hn⟩)) (k0_pay12 (iblk0 V c 5 ⟨n + 1, hn⟩)) (k0_pay9 (F := F)))
    else (k0_pay13 (grid0.coords ⟨n + 1, hn⟩) (iblk0 V c 0 ⟨n + 1, hn⟩) (iblk0 V c 1 ⟨n + 1, hn⟩) (iblk0 V c 2 ⟨n + 1, hn⟩) (acc0 c n (Nat.lt_of_succ_lt hn)).1, k0_pay14 (grid0.coords ⟨n + 1, hn⟩) (iblk0 V c 0 ⟨n + 1, hn⟩) (iblk0 V c 1 ⟨n + 1, hn⟩) (iblk0 V c 3 ⟨n + 1, hn⟩) (acc0 c n (Nat.lt_of_succ_lt hn)).2.1, k0_pay1 (k0_pay10 (grid0.coords ⟨n + 1, hn⟩) (iblk0 V c 0 ⟨n + 1, hn⟩) (iblk0 V c 1 ⟨n + 1, hn⟩)) (k0_pay11 (iblk0 V c 4 ⟨n + 1, hn⟩)) (acc0 c n (Nat.lt_of_succ_lt hn)).2.2.1, k0_pay2 (k0_pay10 (grid0.coords ⟨n + 1, hn⟩) (iblk0 V c 0 ⟨n + 1, hn⟩) (iblk0 V c 1 ⟨n + 1, hn⟩)) (k0_pay12 (iblk0 V c 5 ⟨n + 1, hn⟩)) (acc0 c n (Nat.lt_of_succ_lt hn)).2.2.2)

/-- At k = 0 the accumulators restart from the zero splat. -/
theorem acc0_first (c : Dev nD) (t : Fin cfg0.N) (h0 : t.val % 5 = 0) :
    acc0 V c t.val t.isLt = (k0_pay13 (grid0.coords t) (iblk0 V c 0 t) (iblk0 V c 1 t) (iblk0 V c 2 t) (k0_pay6 (F := F)), k0_pay14 (grid0.coords t) (iblk0 V c 0 t) (iblk0 V c 1 t) (iblk0 V c 3 t) (k0_pay7 (F := F)), k0_pay1 (k0_pay10 (grid0.coords t) (iblk0 V c 0 t) (iblk0 V c 1 t)) (k0_pay11 (iblk0 V c 4 t)) (k0_pay8 (F := F)), k0_pay2 (k0_pay10 (grid0.coords t) (iblk0 V c 0 t) (iblk0 V c 1 t)) (k0_pay12 (iblk0 V c 5 t)) (k0_pay9 (F := F))) := by
  obtain ⟨n, hn⟩ := t
  cases n with
  | zero => rfl
  | succ n => exact if_pos h0

/-- At a later k they add to what the point before left. -/
theorem acc0_next (c : Dev nD) (t : Fin cfg0.N) (h0 : ¬t.val % 5 = 0) :
    acc0 V c t.val t.isLt = (k0_pay13 (grid0.coords t) (iblk0 V c 0 t) (iblk0 V c 1 t) (iblk0 V c 2 t) (acc0 V c (t.val - 1) (Nat.lt_of_le_of_lt (Nat.sub_le _ _) t.isLt)).1, k0_pay14 (grid0.coords t) (iblk0 V c 0 t) (iblk0 V c 1 t) (iblk0 V c 3 t) (acc0 V c (t.val - 1) (Nat.lt_of_le_of_lt (Nat.sub_le _ _) t.isLt)).2.1, k0_pay1 (k0_pay10 (grid0.coords t) (iblk0 V c 0 t) (iblk0 V c 1 t)) (k0_pay11 (iblk0 V c 4 t)) (acc0 V c (t.val - 1) (Nat.lt_of_le_of_lt (Nat.sub_le _ _) t.isLt)).2.2.1, k0_pay2 (k0_pay10 (grid0.coords t) (iblk0 V c 0 t) (iblk0 V c 1 t)) (k0_pay12 (iblk0 V c 5 t)) (acc0 V c (t.val - 1) (Nat.lt_of_le_of_lt (Nat.sub_le _ _) t.isLt)).2.2.2) := by
  obtain ⟨n, hn⟩ := t
  cases n with
  | zero => exact absurd (Nat.zero_mod _) h0
  | succ n => exact if_neg h0

/-- The invariant before position `n`: before the first point the class's; afterwards the scratches at what the point
    before left, the other scoped buffers at some contents, the generator register at some state. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn).1 ∗ owns (c : Thread nD τ) scM0_1 fullShare (acc0 V c n hn).2.1 ∗ owns (c : Thread nD τ) scM0_2 fullShare (acc0 V c n hn).2.2.1 ∗ owns (c : Thread nD τ) scM0_3 fullShare (acc0 V c n hn).2.2.2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (acc0 V c n hn).1 ∗ owns (c : Thread nD τ) scM0_1 fullShare (acc0 V c n hn).2.1 ∗ owns (c : Thread nD τ) scM0_2 fullShare (acc0 V c n hn).2.2.1 ∗ owns (c : Thread nD τ) scM0_3 fullShare (acc0 V c n hn).2.2.2 ∗ rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (acc0 V c (n - 1) (by omega)).1 ∗ owns (c : Thread nD τ) scM0_1 fullShare (acc0 V c (n - 1) (by omega)).2.1 ∗ owns (c : Thread nD τ) scM0_2 fullShare (acc0 V c (n - 1) (by omega)).2.2.1 ∗ owns (c : Thread nD τ) scM0_3 fullShare (acc0 V c (n - 1) (by omega)).2.2.2 ∗ rest0 (F := F) c) ∗ (∃ r, prngReg c r)) := by
  cases n with
  | zero => exact absurd rfl hz
  | succ n => rfl

/-! ## The proof data -/

/-- The arrays as the region finds them; after the body each input's buffer at its block, the outputs' at the gates
    of the accumulators plus the biases (what the body stores at k = 4; at the other points the windows are idle and
    this is not consulted); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => k0_pay3 (acc0 V c t.val t.isLt).2.1 (iblk0 V c 7 t)
    | ⟨12, _⟩ => k0_pay5 (acc0 V c t.val t.isLt).1 (iblk0 V c 6 t) (acc0 V c t.val t.isLt).2.1 (iblk0 V c 7 t) (acc0 V c t.val t.isLt).2.2.1 (iblk0 V c 8 t) (acc0 V c t.val t.isLt).2.2.2 (iblk0 V c 9 t) (iblk0 V c 10 t)
    | ⟨13, _⟩ => k0_pay4 (acc0 V c t.val t.isLt).1 (iblk0 V c 6 t) (acc0 V c t.val t.isLt).2.1 (iblk0 V c 7 t) (acc0 V c t.val t.isLt).2.2.1 (iblk0 V c 8 t) (iblk0 V c 10 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = k0_pay3 (acc0 V c t.val t.isLt).2.1 (iblk0 V c 7 t) := by dsimp only [dat0]
theorem after0_12 (c : Dev nD) (t : Fin cfg0.N) : (dat0 V c).after 12 t = k0_pay5 (acc0 V c t.val t.isLt).1 (iblk0 V c 6 t) (acc0 V c t.val t.isLt).2.1 (iblk0 V c 7 t) (acc0 V c t.val t.isLt).2.2.1 (iblk0 V c 8 t) (acc0 V c t.val t.isLt).2.2.2 (iblk0 V c 9 t) (iblk0 V c 10 t) := by dsimp only [dat0]
theorem after0_13 (c : Dev nD) (t : Fin cfg0.N) : (dat0 V c).after 13 t = k0_pay4 (acc0 V c t.val t.isLt).1 (iblk0 V c 6 t) (acc0 V c t.val t.isLt).2.1 (iblk0 V c 7 t) (acc0 V c t.val t.isLt).2.2.1 (iblk0 V c 8 t) (iblk0 V c 10 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t)

set_option maxHeartbeats 16000000 in
/-- The body at any point: the inputs' buffers hold their blocks; the closed forms say which case the point is in;
    the invariant hands the body the scratches at what the point before left (at anything at the first point) and takes
    them back at this point's accumulators. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).owesAt () t.succ = (dat0 V c).owesAt () t.castSucc from rfl]
  rw [show (dat0 V c).Φ t.succ = PhiS0 V c (t.val + 1) t.isLt from rfl, PhiS0_succ]
  have hN : t.val < 80 := lt_of_lt_of_eq t.isLt (show cfg0.N = 80 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  rw [show (dat0 V c).leavesExact 10 t = owns (c : Thread nD τ) (ms0_10 t) fullShare ((dat0 V c).after 10 t) from by
    unfold Dat.leavesExact; rw [liveAt0_10 t], after0_10]
  by_cases h0 : t.val % 5 = 0
  · have h1 : ¬t.val % 5 = 4 := by omega
    have hc0 : cond0_0 (grid0.coords t) := (hcond0_0 t).mpr h0
    have hc1 : ¬cond0_1 (grid0.coords t) := fun h => h1 ((hcond0_1 t).mp h)
    rw [Dat.leavesExact_idle (dat0 V c) 11 t (idleAt0_11 t hc1) (noFlush0_11 t hc1)]
    rw [Dat.leavesExact_idle (dat0 V c) 12 t (idleAt0_12 t hc1) (noFlush0_12 t hc1)]
    rw [Dat.leavesExact_idle (dat0 V c) 13 t (idleAt0_13 t hc1) (noFlush0_13 t hc1)]
    rw [acc0_first V c t h0]
    by_cases hz : t.val = 0
    · rw [PhiS0_castSucc V c t, PhiS0_zero V c _ _ hz, PhiA0_eq]
      iintro ⟨⟨⟨⟨%ds0, HS0⟩, ⟨%ds1, HS1⟩, ⟨%ds2, HS2⟩, ⟨%ds3, HS3⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run0_first c (grid0.coords t) _ _ _ _ _ _ _ _ _ _ _ _ _ _ _ _ _ _ _ _ _ _ _ _ _ _ _ _ _ (Memref.isWhole_whole _) _ (Memref.isWhole_whole _) _ (Memref.isWhole_whole _) _ (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _ _ _ ds0 ds1 ds2 ds3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, HS0, HS1, HS2, HS3⟩
      isplitl [HS0 HS1 HS2 HS3 HR Hg]
      · isplitl [HS0 HS1 HS2 HS3 HR]
        · isplitl [HS0]; · iexact HS0
          isplitl [HS1]; · iexact HS1
          isplitl [HS2]; · iexact HS2
          isplitl [HS3]; · iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      iexists _; iexact H13
    · rw [PhiS0_castSucc V c t, PhiS0_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run0_first c (grid0.coords t) _ _ _ _ _ _ _ _ _ _ _ _ _ _ _ _ _ _ _ _ _ _ _ _ _ _ _ _ _ (Memref.isWhole_whole _) _ (Memref.isWhole_whole _) _ (Memref.isWhole_whole _) _ (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, HS0, HS1, HS2, HS3⟩
      isplitl [HS0 HS1 HS2 HS3 HR Hg]
      · isplitl [HS0 HS1 HS2 HS3 HR]
        · isplitl [HS0]; · iexact HS0
          isplitl [HS1]; · iexact HS1
          isplitl [HS2]; · iexact HS2
          isplitl [HS3]; · iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      iexists _; iexact H13
  · have hz : t.val ≠ 0 := fun e => h0 (by rw [e])
    have hc0 : ¬cond0_0 (grid0.coords t) := fun h => h0 ((hcond0_0 t).mp h)
    rw [acc0_next V c t h0]
    rw [PhiS0_castSucc V c t, PhiS0_pos V c _ _ hz]
    by_cases h1 : t.val % 5 = 4
    · have hc1 : cond0_1 (grid0.coords t) := (hcond0_1 t).mpr h1
      rw [show (dat0 V c).leavesExact 11 t = owns (c : Thread nD τ) (ms0_11 t) fullShare ((dat0 V c).after 11 t) from by
        unfold Dat.leavesExact; rw [liveAt0_11 t hc1], after0_11, acc0_next V c t h0]
      rw [show (dat0 V c).leavesExact 12 t = owns (c : Thread nD τ) (ms0_12 t) fullShare ((dat0 V c).after 12 t) from by
        unfold Dat.leavesExact; rw [liveAt0_12 t hc1], after0_12, acc0_next V c t h0]
      rw [show (dat0 V c).leavesExact 13 t = owns (c : Thread nD τ) (ms0_13 t) fullShare ((dat0 V c).after 13 t) from by
        unfold Dat.leavesExact; rw [liveAt0_13 t hc1], after0_13, acc0_next V c t h0]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run0_last c (grid0.coords t) _ _ _ _ _ _ _ _ _ _ _ _ _ _ _ _ _ _ _ _ _ _ _ _ _ _ _ _ _ (Memref.isWhole_whole _) _ (Memref.isWhole_whole _) _ (Memref.isWhole_whole _) _ (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, HS0, HS1, HS2, HS3⟩
      isplitl [HS0 HS1 HS2 HS3 HR Hg]
      · isplitl [HS0 HS1 HS2 HS3 HR]
        · isplitl [HS0]; · iexact HS0
          isplitl [HS1]; · iexact HS1
          isplitl [HS2]; · iexact HS2
          isplitl [HS3]; · iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · have hc1 : ¬cond0_1 (grid0.coords t) := fun h => h1 ((hcond0_1 t).mp h)
      rw [Dat.leavesExact_idle (dat0 V c) 11 t (idleAt0_11 t hc1) (noFlush0_11 t hc1)]
      rw [Dat.leavesExact_idle (dat0 V c) 12 t (idleAt0_12 t hc1) (noFlush0_12 t hc1)]
      rw [Dat.leavesExact_idle (dat0 V c) 13 t (idleAt0_13 t hc1) (noFlush0_13 t hc1)]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run0_mid c (grid0.coords t) _ _ _ _ _ _ _ _ _ _ _ _ _ _ _ _ _ _ _ _ _ _ _ _ _ _ _ _ _ (Memref.isWhole_whole _) _ (Memref.isWhole_whole _) _ (Memref.isWhole_whole _) _ (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, HS0, HS1, HS2, HS3⟩
      isplitl [HS0 HS1 HS2 HS3 HR Hg]
      · isplitl [HS0 HS1 HS2 HS3 HR]
        · isplitl [HS0]; · iexact HS0
          isplitl [HS1]; · iexact HS1
          isplitl [HS2]; · iexact HS2
          isplitl [HS3]; · iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      iexists _; iexact H13

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratches' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 80 := N_0; omega), PhiA0_eq]
  iintro ⟨⟨HS0, HS1, HS2, HS3, HR⟩, Hg⟩
  isplitl [HS0 HS1 HS2 HS3 HR]
  · isplitl [HS0]; · iexists _; iexact HS0
    isplitl [HS1]; · iexists _; iexact HS1
    isplitl [HS2]; · iexists _; iexact HS2
    isplitl [HS3]; · iexists _; iexact HS3
    iexact HR
  iexact Hg

end Cert.Kernel.Hand

end
-- ==== Proof.K.R1Runs.lean ====
/-
  The second kernel (the output layer) at one grid point, in each of the three ways its two branches can go.
  The grid is (row tile, k); the accumulator scratch is zeroed when k = 0, a product of the two staged blocks is
  added to it at every point, and when k = 15 the bias is added and the row-wise log-softmax is stored into the
  output block. Each lemma says what every buffer the body is handed holds afterwards, as the body's own
  payload terms of what they held before.
-/
import proofs.«119333_j60842506715793_2_alg».proof.Proof.Gen.Kernel.Launch
import proofs.«119333_j60842506715793_2_alg».proof.Proof.Gen.Kernel.Skeleton
import proofs.«119333_j60842506715793_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«119333_j60842506715793_2_alg».proof.Proof.LibWholeBlock

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.WholeBlock

/-! ## The two branch conditions over the grid -/

/-- "k = 0", as the body computes it from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "k = 15". -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## The body, case by case -/

set_option maxHeartbeats 1000000 in
/-- k = 0: the scratch is zeroed, then gains the product of the two blocks; nothing else changes. -/
theorem run1_first (c : Dev nD) (i : grid1.Coords) (arg2 : Memref sig .tc .vmem S256x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole)
    (hc0 : cond1_0 i) (hc1 : ¬cond1_1 i)
    (x0 : Vec F S256x256 .f32) (x1 : Vec F S4096x256 .f32) (x2 : Vec F S1x4096 .f32) (x3 : Vec F S256x4096 .f32) (xs : Vec F S256x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay2 x0 x1 (k1_pay1 (F := F)))) -∗ K ⟨⟩))
      ⊢ wp frame (wpE (defs₀ (F := F)) Variants.none c none) E (cc1__output_kernel i arg2 harg2 arg3 harg3 arg4 harg4 arg5 harg5 arg6 harg6) K := by
  simp only [cc1__output_kernel_eq_skeleton]; unfold cc1__output_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_run_names
  rw [read_writes_unit_zero _ _ zero2]
  simp only [readAt_unit_zero_unread arg2 harg2 zero2, readAt_unit_zero_unread arg3 harg3 zero2, readAt_unit_zero_unread arg4 harg4 zero2, readAt_unit_zero_unread arg6 harg6 zero2, View.readCov_unit_zero arg6.view zero2]

set_option maxHeartbeats 1000000 in
/-- 0 < k < 15: the scratch gains the product of the two blocks; nothing else changes. -/
theorem run1_mid (c : Dev nD) (i : grid1.Coords) (arg2 : Memref sig .tc .vmem S256x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole)
    (hc0 : ¬cond1_0 i) (hc1 : ¬cond1_1 i)
    (x0 : Vec F S256x256 .f32) (x1 : Vec F S4096x256 .f32) (x2 : Vec F S1x4096 .f32) (x3 : Vec F S256x4096 .f32) (xs : Vec F S256x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay2 x0 x1 xs)) -∗ K ⟨⟩))
      ⊢ wp frame (wpE (defs₀ (F := F)) Variants.none c none) E (cc1__output_kernel i arg2 harg2 arg3 harg3 arg4 harg4 arg5 harg5 arg6 harg6) K := by
  simp only [cc1__output_kernel_eq_skeleton]; unfold cc1__output_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  try sl_unfold_run_names
  rw [read_writes_unit_zero _ _ zero2]
  simp only [readAt_unit_zero_unread arg2 harg2 zero2, readAt_unit_zero_unread arg3 harg3 zero2, readAt_unit_zero_unread arg4 harg4 zero2, readAt_unit_zero_unread arg6 harg6 zero2, View.readCov_unit_zero arg6.view zero2]

set_option maxHeartbeats 1000000 in
/-- k = 15: the scratch gains the product; the output block takes the log-softmax of the scratch plus the bias. -/
theorem run1_last (c : Dev nD) (i : grid1.Coords) (arg2 : Memref sig .tc .vmem S256x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole)
    (hc0 : ¬cond1_0 i) (hc1 : cond1_1 i)
    (x0 : Vec F S256x256 .f32) (x1 : Vec F S4096x256 .f32) (x2 : Vec F S1x4096 .f32) (x3 : Vec F S256x4096 .f32) (xs : Vec F S256x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 x1 xs) x2) ∗ owns (c : Thread nD τ) arg6 fullShare (k1_pay2 x0 x1 xs)) -∗ K ⟨⟩))
      ⊢ wp frame (wpE (defs₀ (F := F)) Variants.none c none) E (cc1__output_kernel i arg2 harg2 arg3 harg3 arg4 harg4 arg5 harg5 arg6 harg6) K := by
  simp only [cc1__output_kernel_eq_skeleton]; unfold cc1__output_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg6 harg6 zero2, View.readCov_unit_zero arg6.view zero2]
  iexists _; isplitr
  swap; · iexact HS
  ipureintro
  try sl_unfold_run_names
  rw [read_writes_unit_zero _ _ zero2]
  simp only [readAt_unit_zero_unread arg2 harg2 zero2, readAt_unit_zero_unread arg3 harg3 zero2, readAt_unit_zero_unread arg4 harg4 zero2, readAt_unit_zero_unread arg6 harg6 zero2, View.readCov_unit_zero arg6.view zero2]

end Cert.Kernel.Hand

end
-- ==== Proof.K.R1Frame.lean ====
/-
  The second kernel (the output layer) over its whole grid, from any contents `V` of the core's buffers at the
  region's entry. What the accumulator scratch holds after each point is a recursion on the point: at k = 0 the
  product of the point's two blocks added to the zero splat, at every later k the product added to what the
  point before left. The output block is stored at k = 15 only, from the accumulator and the bias row; at the
  other points its staging buffer is handed back as found. The invariant carried from point to point is the
  scratch at the accumulator's contents beside the other scoped buffers and the generator register.
-/
import proofs.«119333_j60842506715793_2_alg».proof.Proof.K.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.WholeBlock

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 15 the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At k = 15 it is live. -/
theorem liveAt1_3 : ∀ t : Fin cfg1.N, cond1_1 (grid1.coords t) → cfg1.idle 3 (grid1.coords t) = false := by decide +kernel

/-! ## The staging memrefs and the scratch -/

abbrev ms1_0 (t : Fin cfg1.N) : Memref sig .tc .vmem S256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x4096 .f32 := win1_3.stage (cfg1.slots t 3)
abbrev hs1_3 (t : Fin cfg1.N) : (ms1_3 t).IsWhole := hstage1_3 ((cfg1.slots t 3).cast nbuf1_3)
/-- The accumulator scratch, a whole scoped buffer of the kernel's own. -/
abbrev scM1 : Memref sig .tc .vmem S256x4096 .f32 := Memref.whole cc1_scratch0

/-- The class invariant with the scratch as a memref owned at some contents, the other scoped buffers unopened. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The accumulator after each point -/

/-- What the scratch holds after the body at position `n`. -/
def acc1 (c : Dev nD) : (n : ℕ) → n < cfg1.N → Vec F S256x4096 .f32
  | 0, hn => k1_pay2 (iblk1 V c 0 ⟨0, hn⟩) (iblk1 V c 1 ⟨0, hn⟩) (k1_pay1 (F := F))
  | n + 1, hn =>
    if (n + 1) % 16 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At k = 0 the accumulator restarts from the zero splat. -/
theorem acc1_first (c : Dev nD) (t : Fin cfg1.N) (h0 : t.val % 16 = 0) :
    acc1 V c t.val t.isLt = k1_pay2 (iblk1 V c 0 t) (iblk1 V c 1 t) (k1_pay1 (F := F)) := by
  obtain ⟨n, hn⟩ := t
  cases n with
  | zero => rfl
  | succ n => exact if_pos h0

/-- At a later k it adds to what the point before left. -/
theorem acc1_next (c : Dev nD) (t : Fin cfg1.N) (h0 : ¬t.val % 16 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact if_neg h0

/-- The invariant before position `n`: before the first point the class's; afterwards the scratch at what the point
    before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block, the output's at the
    log-softmax of the accumulator plus the bias (what the body stores at k = 15; at the other points the window is
    idle and this is not consulted); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which case the point is in;
    the invariant hands the body the scratch at what the point before left (at anything at the first point) and takes it
    back at this point's accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 16 = 0
  · have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [acc1_first V c t h0]
    by_cases hz : t.val = 0
    · rw [PhiS1_castSucc V c t, PhiS1_zero V c _ _ hz, PhiA1_eq]
      iintro ⟨⟨⟨⟨%ds, HS⟩, HR⟩, Hg⟩, Ho, ⟨%d0, H0⟩, ⟨%d1, H1⟩, ⟨%d2, H2⟩, ⟨%d3, H3⟩⟩
      iapply (run1_first c (grid1.coords t) _ _ _ _ _ _ _ _ _ (Memref.isWhole_whole _) hc0 hc1 (iblk1 V c 0 t) (iblk1 V c 1 t) (iblk1 V c 2 t) _ ds Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (run1_first c (grid1.coords t) _ _ _ _ _ _ _ _ _ (Memref.isWhole_whole _) hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond1_0 (grid1.coords t) := fun h => h0 ((hcond1_0 t).mp h)
    rw [acc1_next V c t h0]
    rw [PhiS1_castSucc V c t, PhiS1_pos V c _ _ hz]
    by_cases h1 : t.val % 16 = 15
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, acc1_next V c t h0]
      iintro ⟨⟨⟨HS, HR⟩, Hg⟩, Ho, ⟨%d0, H0⟩, ⟨%d1, H1⟩, ⟨%d2, H2⟩, ⟨%d3, H3⟩⟩
      iapply (run1_last c (grid1.coords t) _ _ _ _ _ _ _ _ _ (Memref.isWhole_whole _) hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨⟨HS, HR⟩, Hg⟩, Ho, ⟨%d0, H0⟩, ⟨%d1, H1⟩, ⟨%d2, H2⟩, ⟨%d3, H3⟩⟩
      iapply (run1_mid c (grid1.coords t) _ _ _ _ _ _ _ _ _ (Memref.isWhole_whole _) hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, HR⟩, Hg⟩
  isplitl [HS HR]
  · isplitl [HS]; · iexists _; iexact HS
    iexact HR
  iexact Hg

end Cert.Kernel.Hand

end
-- ==== Proof.K.Run.lean ====
/-
  The whole kernel program at the word level: five reshapes of the bias vectors on the host, the gate kernel, the output
  kernel. The contents of the core's unscoped buffers at each boundary are a fold from the launch memory: after the
  reshapes; after the first kernel, whose three result arrays hold what its write-backs leave; after the second,
  whose result array holds what its write-backs leave. Every weakly fair execution terminates with every unscoped
  buffer at the last of these.
-/
import proofs.«119333_j60842506715793_2_alg».proof.Proof.K.R0Frame
import proofs.«119333_j60842506715793_2_alg».proof.Proof.K.R1Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev E0 : Dev nD → Valuation τ sig (Elt F) := fun c b => m (c, b)
/-- After the reshapes (the first kernel's entry). -/
abbrev E1 : Dev nD → Valuation τ sig (Elt F) := fun c => StableHlo.after hostOps0 (E0 m c)
/-- The same read at the TensorCore's references. -/
abbrev T1 : (c : Dev nD) → (b : Ref sig .tc) → Buf (Elt F) ((c : Thread nD τ).loc b) := fun c b => E1 m c b
/-- At the first kernel's exit: its arrays at what the pipeline leaves, every other buffer as entered. -/
def E2 (c : Dev nD) : Valuation τ sig (Elt F) :=
  Pipeline.withArrays spec0 c (E1 m c) fun w => (dat0 (T1 m) c).arrAt w cfg0.N
theorem E2_arr (c : Dev nD) (w : Fin cfg0.W) :
    E2 m c (Proc.devRef .tc (Pipeline.arrRef spec0 w)) = (dat0 (T1 m) c).arrAt w cfg0.N := by
  unfold E2; exact Pipeline.withArrays_arr spec0 launch0.win.arr_inj c _ _ w
theorem E2_of_ne (c : Dev nD) (b : Ref sig .tc) (hb : ∀ w, Pipeline.arrRef spec0 w ≠ b) :
    E2 m c (Proc.devRef .tc b) = E1 m c (Proc.devRef .tc b) := by
  unfold E2; exact Pipeline.withArrays_of_ne spec0 c _ _ b hb
abbrev T2 : (c : Dev nD) → (b : Ref sig .tc) → Buf (Elt F) ((c : Thread nD τ).loc b) := fun c b => E2 m c b
theorem hF0 (c : Dev nD) (w : Fin cfg0.W) : (dat0 (T1 m) c).arrAt w cfg0.N = T2 m c (Pipeline.arrRef spec0 w) :=
  (E2_arr m c w).symm
theorem hrest0 (c : Dev nD) : ∀ b, b ∉ Finset.univ.image (Pipeline.arrRef spec0) → T2 m c b = T1 m c b :=
  fun b hb => E2_of_ne m c b fun w e => hb (Finset.mem_image.mpr ⟨w, Finset.mem_univ _, e⟩)
/-- At the second kernel's exit. -/
def E3 (c : Dev nD) : Valuation τ sig (Elt F) :=
  Pipeline.withArrays spec1 c (E2 m c) fun w => (dat1 (T2 m) c).arrAt w cfg1.N
theorem E3_arr (c : Dev nD) (w : Fin cfg1.W) :
    E3 m c (Proc.devRef .tc (Pipeline.arrRef spec1 w)) = (dat1 (T2 m) c).arrAt w cfg1.N := by
  unfold E3; exact Pipeline.withArrays_arr spec1 launch1.win.arr_inj c _ _ w
theorem E3_of_ne (c : Dev nD) (b : Ref sig .tc) (hb : ∀ w, Pipeline.arrRef spec1 w ≠ b) :
    E3 m c (Proc.devRef .tc b) = E2 m c (Proc.devRef .tc b) := by
  unfold E3; exact Pipeline.withArrays_of_ne spec1 c _ _ b hb
abbrev T3 : (c : Dev nD) → (b : Ref sig .tc) → Buf (Elt F) ((c : Thread nD τ).loc b) := fun c b => E3 m c b
theorem hF1 (c : Dev nD) (w : Fin cfg1.W) : (dat1 (T2 m) c).arrAt w cfg1.N = T3 m c (Pipeline.arrRef spec1 w) :=
  (E3_arr m c w).symm
theorem hrest1 (c : Dev nD) : ∀ b, b ∉ Finset.univ.image (Pipeline.arrRef spec1) → T3 m c b = T2 m c b :=
  fun b hb => E3_of_ne m c b fun w e => hb (Finset.mem_image.mpr ⟨w, Finset.mem_univ _, e⟩)

/-! ## The proof data family and the thread state -/

/-- No pipeline has a prefetched table. -/
abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (T1 m) c
  | ⟨1, _⟩ => fun c => dat1 (T2 m) c
abbrev 𝒱h : Variants := Variants.none
abbrev Lh : GSem nD τ sig → Finset Unit := fun _ => ∅
abbrev lvh : GSem nD τ sig → Unit → ℕ := fun _ _ => 0
/-- What rides beside the buffers through every segment: the generator register at some state, nothing owed. -/
abbrev Rh (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh
/-- The reshapes allocate no buffer. -/
theorem hostOps0_fresh' : (hostOps0 : List (HloOp τ sig (Elt F))).Forall fun op => op.fresh = ∅ := by
  simp only [List.Forall]; repeat' constructor
/-- The last thread state without the `owes`. -/
abbrev Tend (c : Dev nD) : sProp 𝕄 := iprop(StableHlo.held (c : Thread nD τ) (Pipeline.ucRefs τ sig) (E3 m c) ∗ ∃ r, prngReg c r)

/-! ## The regions as segments -/

-- the library lemmas are stated over the pinned configuration, which unifies with the printed one only when unification may
-- unfold plain definitions in a metavariable's type
set_option backward.isDefEq.respectTransparency.types false in
/-- Region 0 over the thread state: entered from every unscoped buffer at `E1`, left at `E2`. Its arrays are
    split out of the unscoped buffers and put back at the exit contents; the generator register and the scoped buffers go
    into the invariant before the first point and come back from the one after the last; nothing is owed; the kernel
    has no semaphore of its own. -/
def reg0 : Pipeline.RegionSeg (pcfgs (F := F)) padm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ Lh lvh 0 fun _ _ => rfl
  pre c := iprop(StableHlo.held (c : Thread nD τ) (Pipeline.ucRefs τ sig) (E1 m c) ∗ Rh c)
  post c := iprop(StableHlo.held (c : Thread nD τ) (Pipeline.ucRefs τ sig) (E2 m c) ∗ Rh c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec0 c by
      unfold Pipeline.ΦA
      iintro ⟨Hp, -, Hr⟩
      isplitl [Hr]; · iexact Hr
      iexact Hp).trans (hin0 (T1 m) c)
  hout c := by
    exact (hout0 (T1 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library lemmas are stated over the pinned configuration, which unifies with the printed one only when unification may
-- unfold plain definitions in a metavariable's type
set_option backward.isDefEq.respectTransparency.types false in
/-- Region 1 over the thread state: entered from every unscoped buffer at `E2`, left at `E3`. Its arrays are
    split out of the unscoped buffers and put back at the exit contents; the generator register and the scoped buffers go
    into the invariant before the first point and come back from the one after the last; nothing is owed; the kernel
    has no semaphore of its own. -/
def reg1 : Pipeline.RegionSeg (pcfgs (F := F)) padm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (T2 m) c).loose
  hwaits := Pipeline.hwaits_of_owed_zero _ _ _ _ Lh lvh 1 fun _ _ => rfl
  pre c := iprop(StableHlo.held (c : Thread nD τ) (Pipeline.ucRefs τ sig) (E2 m c) ∗ Rh c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (T2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec1 c by
      unfold Pipeline.ΦA
      iintro ⟨Hp, -, Hr⟩
      isplitl [Hr]; · iexact Hr
      iexact Hp).trans (hin1 (T2 m) c)
  hout c := by
    exact (hout1 (T2 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (T2 m c) (T3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev psegs : List (Pipeline.Seg (pcfgs (F := F)) padm (pdats m) () defs₀ 𝒱h Lh lvh) :=
  [ .host (hseg hostOps0 hostOps0_sub hostOps0_fresh' (E0 m)),
    .region (reg0 m),
    .region (reg1 m) ]
theorem main_run (c : Dev nD) : main (F := F) c = Pipeline.Seg.run (psegs m) := (main_chain c).trans (by chain_rfl)

set_option backward.isDefEq.respectTransparency.types false in
/-- From any memory with zero counters every weakly fair execution of @main terminates, nothing faulting, and every
    final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E3 m c b) :=
  Pipeline.θ_run_regions_kit (pcfgs (F := F)) padm (pdats m) () cellOf_inj emb₁ defs₀ 𝒱h Lh lvh m ρ main (psegs m)
    (fun c Q => by rw [main_run m c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ Rh c)) (Tₙ := Tend m)
    (hch := ⟨fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E3 m c b)
    (hfin := fun c s' => by
      iintro ⟨⟨Hh, -⟩, HSI⟩
      unfold StableHlo.held
      imodintro
      iapply (pointsTo_read_all (Pipeline.ucRefs τ sig) (fun b => (((c : Thread nD τ)).1, b)) (E3 m c) s')
      isplitl [Hh] <;> iassumption)
    (hQ := fun s h c => h c)

end Cert.Kernel.Hand

end
-- ==== Proof.K.Args.lean ====
/-
  What the frame claims read off the run: every argument array ends as launched. No reshape writes an argument, and a
  region either stages it through an input window (whose array the pipeline leaves as it found it) or bypasses it. The
  three results of the first kernel pass through the second region unchanged as well.
-/
import proofs.«119333_j60842506715793_2_alg».proof.Proof.K.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem E3_main_arg0 (c : Dev nD) : E3 m c (Proc.devRef .tc main_arg0) = m ((c : Thread nD τ).loc main_arg0) :=
  calc E3 m c (Proc.devRef .tc main_arg0)
    _ = E2 m c (Proc.devRef .tc main_arg0) := E3_of_ne m c main_arg0 (by decide)
    _ = E1 m c (Proc.devRef .tc main_arg0) := (E2_arr m c 0).trans (((dat0 (T1 m) c).arrAt_in 0 rfl _).trans (A_eq0 (T1 m) c 0))
    _ = E0 m c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl

theorem E3_main_arg1 (c : Dev nD) : E3 m c (Proc.devRef .tc main_arg1) = m ((c : Thread nD τ).loc main_arg1) :=
  calc E3 m c (Proc.devRef .tc main_arg1)
    _ = E2 m c (Proc.devRef .tc main_arg1) := E3_of_ne m c main_arg1 (by decide)
    _ = E1 m c (Proc.devRef .tc main_arg1) := (E2_arr m c 1).trans (((dat0 (T1 m) c).arrAt_in 1 rfl _).trans (A_eq0 (T1 m) c 1))
    _ = E0 m c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

theorem E3_main_arg2 (c : Dev nD) : E3 m c (Proc.devRef .tc main_arg2) = m ((c : Thread nD τ).loc main_arg2) :=
  calc E3 m c (Proc.devRef .tc main_arg2)
    _ = E2 m c (Proc.devRef .tc main_arg2) := E3_of_ne m c main_arg2 (by decide)
    _ = E1 m c (Proc.devRef .tc main_arg2) := (E2_arr m c 10).trans (((dat0 (T1 m) c).arrAt_in 10 rfl _).trans (A_eq0 (T1 m) c 10))
    _ = E0 m c (Proc.devRef .tc main_arg2) := StableHlo.after_of_forall_not_mem (b := Proc.devRef .tc main_arg2) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg2) := rfl

theorem E3_main_arg3 (c : Dev nD) : E3 m c (Proc.devRef .tc main_arg3) = m ((c : Thread nD τ).loc main_arg3) :=
  calc E3 m c (Proc.devRef .tc main_arg3)
    _ = E2 m c (Proc.devRef .tc main_arg3) := E3_of_ne m c main_arg3 (by decide)
    _ = E1 m c (Proc.devRef .tc main_arg3) := (E2_arr m c 2).trans (((dat0 (T1 m) c).arrAt_in 2 rfl _).trans (A_eq0 (T1 m) c 2))
    _ = E0 m c (Proc.devRef .tc main_arg3) := StableHlo.after_of_forall_not_mem (b := Proc.devRef .tc main_arg3) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg3) := rfl

theorem E3_main_arg4 (c : Dev nD) : E3 m c (Proc.devRef .tc main_arg4) = m ((c : Thread nD τ).loc main_arg4) :=
  calc E3 m c (Proc.devRef .tc main_arg4)
    _ = E2 m c (Proc.devRef .tc main_arg4) := E3_of_ne m c main_arg4 (by decide)
    _ = E1 m c (Proc.devRef .tc main_arg4) := E2_of_ne m c main_arg4 (by decide)
    _ = E0 m c (Proc.devRef .tc main_arg4) := StableHlo.after_of_forall_not_mem (b := Proc.devRef .tc main_arg4) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg4) := rfl

theorem E3_main_arg5 (c : Dev nD) : E3 m c (Proc.devRef .tc main_arg5) = m ((c : Thread nD τ).loc main_arg5) :=
  calc E3 m c (Proc.devRef .tc main_arg5)
    _ = E2 m c (Proc.devRef .tc main_arg5) := E3_of_ne m c main_arg5 (by decide)
    _ = E1 m c (Proc.devRef .tc main_arg5) := (E2_arr m c 3).trans (((dat0 (T1 m) c).arrAt_in 3 rfl _).trans (A_eq0 (T1 m) c 3))
    _ = E0 m c (Proc.devRef .tc main_arg5) := StableHlo.after_of_forall_not_mem (b := Proc.devRef .tc main_arg5) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg5) := rfl

theorem E3_main_arg6 (c : Dev nD) : E3 m c (Proc.devRef .tc main_arg6) = m ((c : Thread nD τ).loc main_arg6) :=
  calc E3 m c (Proc.devRef .tc main_arg6)
    _ = E2 m c (Proc.devRef .tc main_arg6) := E3_of_ne m c main_arg6 (by decide)
    _ = E1 m c (Proc.devRef .tc main_arg6) := E2_of_ne m c main_arg6 (by decide)
    _ = E0 m c (Proc.devRef .tc main_arg6) := StableHlo.after_of_forall_not_mem (b := Proc.devRef .tc main_arg6) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg6) := rfl

theorem E3_main_arg7 (c : Dev nD) : E3 m c (Proc.devRef .tc main_arg7) = m ((c : Thread nD τ).loc main_arg7) :=
  calc E3 m c (Proc.devRef .tc main_arg7)
    _ = E2 m c (Proc.devRef .tc main_arg7) := E3_of_ne m c main_arg7 (by decide)
    _ = E1 m c (Proc.devRef .tc main_arg7) := (E2_arr m c 4).trans (((dat0 (T1 m) c).arrAt_in 4 rfl _).trans (A_eq0 (T1 m) c 4))
    _ = E0 m c (Proc.devRef .tc main_arg7) := StableHlo.after_of_forall_not_mem (b := Proc.devRef .tc main_arg7) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg7) := rfl

theorem E3_main_arg8 (c : Dev nD) : E3 m c (Proc.devRef .tc main_arg8) = m ((c : Thread nD τ).loc main_arg8) :=
  calc E3 m c (Proc.devRef .tc main_arg8)
    _ = E2 m c (Proc.devRef .tc main_arg8) := E3_of_ne m c main_arg8 (by decide)
    _ = E1 m c (Proc.devRef .tc main_arg8) := E2_of_ne m c main_arg8 (by decide)
    _ = E0 m c (Proc.devRef .tc main_arg8) := StableHlo.after_of_forall_not_mem (b := Proc.devRef .tc main_arg8) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg8) := rfl

theorem E3_main_arg9 (c : Dev nD) : E3 m c (Proc.devRef .tc main_arg9) = m ((c : Thread nD τ).loc main_arg9) :=
  calc E3 m c (Proc.devRef .tc main_arg9)
    _ = E2 m c (Proc.devRef .tc main_arg9) := E3_of_ne m c main_arg9 (by decide)
    _ = E1 m c (Proc.devRef .tc main_arg9) := (E2_arr m c 5).trans (((dat0 (T1 m) c).arrAt_in 5 rfl _).trans (A_eq0 (T1 m) c 5))
    _ = E0 m c (Proc.devRef .tc main_arg9) := StableHlo.after_of_forall_not_mem (b := Proc.devRef .tc main_arg9) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg9) := rfl

theorem E3_main_arg10 (c : Dev nD) : E3 m c (Proc.devRef .tc main_arg10) = m ((c : Thread nD τ).loc main_arg10) :=
  calc E3 m c (Proc.devRef .tc main_arg10)
    _ = E2 m c (Proc.devRef .tc main_arg10) := E3_of_ne m c main_arg10 (by decide)
    _ = E1 m c (Proc.devRef .tc main_arg10) := E2_of_ne m c main_arg10 (by decide)
    _ = E0 m c (Proc.devRef .tc main_arg10) := StableHlo.after_of_forall_not_mem (b := Proc.devRef .tc main_arg10) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg10) := rfl

theorem E3_main_arg11 (c : Dev nD) : E3 m c (Proc.devRef .tc main_arg11) = m ((c : Thread nD τ).loc main_arg11) :=
  calc E3 m c (Proc.devRef .tc main_arg11)
    _ = E2 m c (Proc.devRef .tc main_arg11) := (E3_arr m c 1).trans (((dat1 (T2 m) c).arrAt_in 1 rfl _).trans (A_eq1 (T2 m) c 1))
    _ = E1 m c (Proc.devRef .tc main_arg11) := E2_of_ne m c main_arg11 (by decide)
    _ = E0 m c (Proc.devRef .tc main_arg11) := StableHlo.after_of_forall_not_mem (b := Proc.devRef .tc main_arg11) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg11) := rfl

theorem E3_main_arg12 (c : Dev nD) : E3 m c (Proc.devRef .tc main_arg12) = m ((c : Thread nD τ).loc main_arg12) :=
  calc E3 m c (Proc.devRef .tc main_arg12)
    _ = E2 m c (Proc.devRef .tc main_arg12) := E3_of_ne m c main_arg12 (by decide)
    _ = E1 m c (Proc.devRef .tc main_arg12) := E2_of_ne m c main_arg12 (by decide)
    _ = E0 m c (Proc.devRef .tc main_arg12) := StableHlo.after_of_forall_not_mem (b := Proc.devRef .tc main_arg12) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg12) := rfl

/-- The first kernel's results as the second region leaves them: the input gate and the cell state bypass it; the hidden
    state is its first input window's array, which the pipeline leaves as found. -/
theorem E3_main_v5_0 (c : Dev nD) : E3 m c (Proc.devRef .tc main_v5_0) = E2 m c (Proc.devRef .tc main_v5_0) := E3_of_ne m c main_v5_0 (by decide)
theorem E3_main_v5_2 (c : Dev nD) : E3 m c (Proc.devRef .tc main_v5_2) = E2 m c (Proc.devRef .tc main_v5_2) := E3_of_ne m c main_v5_2 (by decide)
theorem E3_main_v5_1 (c : Dev nD) : E3 m c (Proc.devRef .tc main_v5_1) = E2 m c (Proc.devRef .tc main_v5_1) :=
  (E3_arr m c 0).trans (((dat1 (T2 m) c).arrAt_in 0 rfl _).trans (A_eq1 (T2 m) c 0))

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: from any memory with zero counters every weakly fair execution of @main terminates, nothing faulting, and
    every final state has the thirteen argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (E3_main_arg0 m c),
     (h c _ (mem_uc main_arg1 (by decide))).trans (E3_main_arg1 m c),
     (h c _ (mem_uc main_arg2 (by decide))).trans (E3_main_arg2 m c),
     (h c _ (mem_uc main_arg3 (by decide))).trans (E3_main_arg3 m c),
     (h c _ (mem_uc main_arg4 (by decide))).trans (E3_main_arg4 m c),
     (h c _ (mem_uc main_arg5 (by decide))).trans (E3_main_arg5 m c),
     (h c _ (mem_uc main_arg6 (by decide))).trans (E3_main_arg6 m c),
     (h c _ (mem_uc main_arg7 (by decide))).trans (E3_main_arg7 m c),
     (h c _ (mem_uc main_arg8 (by decide))).trans (E3_main_arg8 m c),
     (h c _ (mem_uc main_arg9 (by decide))).trans (E3_main_arg9 m c),
     (h c _ (mem_uc main_arg10 (by decide))).trans (E3_main_arg10 m c),
     (h c _ (mem_uc main_arg11 (by decide))).trans (E3_main_arg11 m c),
     (h c _ (mem_uc main_arg12 (by decide))).trans (E3_main_arg12 m c)⟩)
    (run_all m ρ)

end Cert.Kernel.Hand

end
-- ==== Proof.KI.R0Runs.lean ====
/-
  The first kernel (the four gates) at one grid point, in each of the three ways its two branches can go. The grid
  is (hidden tile, k); the four accumulator scratches are zeroed when k = 0; at every point the staged row block —
  the block of `i` when k = 0, else the block of `h` — is multiplied against the point's block of each gate's
  weights and added to that gate's accumulator; when k = 4 the biases are added, the gates are applied and the three
  output blocks (the input gate, the new hidden state, the new cell state) are stored. Each lemma says what every
  buffer the body is handed holds afterwards, as the body's own payload terms of what they held before.
-/
import proofs.«119333_j60842506715793_2_alg».proof.Proof.Gen.KernelIdeal.Launch
import proofs.«119333_j60842506715793_2_alg».proof.Proof.Gen.KernelIdeal.Skeleton
import proofs.«119333_j60842506715793_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«119333_j60842506715793_2_alg».proof.Proof.LibWholeBlock

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.WholeBlock

/-! ## The two branch conditions over the grid -/

/-- "k = 0", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)
/-- "k = 4". -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## The body, case by case -/

set_option maxHeartbeats 4000000 in
/-- k = 0: the four scratches are zeroed, then each gains its product; nothing else changes. -/
theorem run0_first (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole)
    (hc0 : cond0_0 i) (hc1 : ¬cond0_1 i)
    (x2 : Vec F S1024x1024 .f32) (x3 : Vec F S1024x1024 .f32) (x4 : Vec F S256x1024 .f32) (x5 : Vec F S256x1024 .f32) (x6 : Vec F S256x1024 .f32) (x7 : Vec F S256x1024 .f32) (x8 : Vec F S1x256 .f32) (x9 : Vec F S1x256 .f32) (x10 : Vec F S1x256 .f32) (x11 : Vec F S1x256 .f32) (x12 : Vec F S1024x256 .f32) (x13 : Vec F S1024x256 .f32) (x14 : Vec F S1024x256 .f32) (x15 : Vec F S1024x256 .f32) (x16 : Vec F S1024x256 .f32) (x17 : Vec F S1024x256 .f32) (x18 : Vec F S1024x256 .f32) (x19 : Vec F S1024x256 .f32)
    (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare x14
            ∗ owns (c : Thread nD τ) arg15 fullShare x15
            ∗ owns (c : Thread nD τ) arg16 fullShare (k0_pay13 i x2 x3 x4 (k0_pay6 (F := F)))
            ∗ owns (c : Thread nD τ) arg17 fullShare (k0_pay14 i x2 x3 x5 (k0_pay7 (F := F)))
            ∗ owns (c : Thread nD τ) arg18 fullShare (k0_pay1 (k0_pay10 i x2 x3) (k0_pay11 x6) (k0_pay8 (F := F)))
            ∗ owns (c : Thread nD τ) arg19 fullShare (k0_pay2 (k0_pay10 i x2 x3) (k0_pay12 x7) (k0_pay9 (F := F)))) -∗ K ⟨⟩))
      ⊢ wp frame (wpE (defs₀ (F := F)) Variants.none c none) E (cc0__lstm_gate_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__lstm_gate_kernel_eq_skeleton]; unfold cc0__lstm_gate_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr
    swap; · iexact H16
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H17]
  · iexists _; isplitr
    swap; · iexact H17
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H18]
  · iexists _; isplitr
    swap; · iexact H18
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  iexists _; isplitr
  swap; · iexact H19
  ipureintro
  try sl_unfold_run_names
  rw [read_writes_unit_zero _ _ zero2]
  simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]

set_option maxHeartbeats 4000000 in
/-- 0 < k < 4: each scratch gains its product; nothing else changes. -/
theorem run0_mid (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole)
    (hc0 : ¬cond0_0 i) (hc1 : ¬cond0_1 i)
    (x2 : Vec F S1024x1024 .f32) (x3 : Vec F S1024x1024 .f32) (x4 : Vec F S256x1024 .f32) (x5 : Vec F S256x1024 .f32) (x6 : Vec F S256x1024 .f32) (x7 : Vec F S256x1024 .f32) (x8 : Vec F S1x256 .f32) (x9 : Vec F S1x256 .f32) (x10 : Vec F S1x256 .f32) (x11 : Vec F S1x256 .f32) (x12 : Vec F S1024x256 .f32) (x13 : Vec F S1024x256 .f32) (x14 : Vec F S1024x256 .f32) (x15 : Vec F S1024x256 .f32) (x16 : Vec F S1024x256 .f32) (x17 : Vec F S1024x256 .f32) (x18 : Vec F S1024x256 .f32) (x19 : Vec F S1024x256 .f32)
    (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare x13
            ∗ owns (c : Thread nD τ) arg14 fullShare x14
            ∗ owns (c : Thread nD τ) arg15 fullShare x15
            ∗ owns (c : Thread nD τ) arg16 fullShare (k0_pay13 i x2 x3 x4 x16)
            ∗ owns (c : Thread nD τ) arg17 fullShare (k0_pay14 i x2 x3 x5 x17)
            ∗ owns (c : Thread nD τ) arg18 fullShare (k0_pay1 (k0_pay10 i x2 x3) (k0_pay11 x6) x18)
            ∗ owns (c : Thread nD τ) arg19 fullShare (k0_pay2 (k0_pay10 i x2 x3) (k0_pay12 x7) x19)) -∗ K ⟨⟩))
      ⊢ wp frame (wpE (defs₀ (F := F)) Variants.none c none) E (cc0__lstm_gate_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__lstm_gate_kernel_eq_skeleton]; unfold cc0__lstm_gate_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  isplitl [H14]
  · iexists _; isplitr; · ipureintro; exact harg14.read_unread _
    iexact H14
  isplitl [H15]
  · iexists _; isplitr; · ipureintro; exact harg15.read_unread _
    iexact H15
  isplitl [H16]
  · iexists _; isplitr
    swap; · iexact H16
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H17]
  · iexists _; isplitr
    swap; · iexact H17
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H18]
  · iexists _; isplitr
    swap; · iexact H18
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  iexists _; isplitr
  swap; · iexact H19
  ipureintro
  try sl_unfold_run_names
  rw [read_writes_unit_zero _ _ zero2]
  simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]

set_option maxHeartbeats 4000000 in
/-- k = 4: each scratch gains its product; the three output blocks take the gates of the scratches plus the biases. -/
theorem run0_last (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1024x256 .f32) (harg12 : arg12.IsWhole) (arg13 : Memref sig .tc .vmem S1024x256 .f32) (harg13 : arg13.IsWhole) (arg14 : Memref sig .tc .vmem S1024x256 .f32) (harg14 : arg14.IsWhole) (arg15 : Memref sig .tc .vmem S1024x256 .f32) (harg15 : arg15.IsWhole) (arg16 : Memref sig .tc .vmem S1024x256 .f32) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole)
    (hc0 : ¬cond0_0 i) (hc1 : cond0_1 i)
    (x2 : Vec F S1024x1024 .f32) (x3 : Vec F S1024x1024 .f32) (x4 : Vec F S256x1024 .f32) (x5 : Vec F S256x1024 .f32) (x6 : Vec F S256x1024 .f32) (x7 : Vec F S256x1024 .f32) (x8 : Vec F S1x256 .f32) (x9 : Vec F S1x256 .f32) (x10 : Vec F S1x256 .f32) (x11 : Vec F S1x256 .f32) (x12 : Vec F S1024x256 .f32) (x13 : Vec F S1024x256 .f32) (x14 : Vec F S1024x256 .f32) (x15 : Vec F S1024x256 .f32) (x16 : Vec F S1024x256 .f32) (x17 : Vec F S1024x256 .f32) (x18 : Vec F S1024x256 .f32) (x19 : Vec F S1024x256 .f32)
    (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare x12
        ∗ owns (c : Thread nD τ) arg13 fullShare x13
        ∗ owns (c : Thread nD τ) arg14 fullShare x14
        ∗ owns (c : Thread nD τ) arg15 fullShare x15
        ∗ owns (c : Thread nD τ) arg16 fullShare x16
        ∗ owns (c : Thread nD τ) arg17 fullShare x17
        ∗ owns (c : Thread nD τ) arg18 fullShare x18
        ∗ owns (c : Thread nD τ) arg19 fullShare x19
        ∗ (iprop(owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare x12
            ∗ owns (c : Thread nD τ) arg13 fullShare (k0_pay3 (k0_pay14 i x2 x3 x5 x17) x9)
            ∗ owns (c : Thread nD τ) arg14 fullShare (k0_pay5 (k0_pay13 i x2 x3 x4 x16) x8 (k0_pay14 i x2 x3 x5 x17) x9 (k0_pay1 (k0_pay10 i x2 x3) (k0_pay11 x6) x18) x10 (k0_pay2 (k0_pay10 i x2 x3) (k0_pay12 x7) x19) x11 x12)
            ∗ owns (c : Thread nD τ) arg15 fullShare (k0_pay4 (k0_pay13 i x2 x3 x4 x16) x8 (k0_pay14 i x2 x3 x5 x17) x9 (k0_pay1 (k0_pay10 i x2 x3) (k0_pay11 x6) x18) x10 x12)
            ∗ owns (c : Thread nD τ) arg16 fullShare (k0_pay13 i x2 x3 x4 x16)
            ∗ owns (c : Thread nD τ) arg17 fullShare (k0_pay14 i x2 x3 x5 x17)
            ∗ owns (c : Thread nD τ) arg18 fullShare (k0_pay1 (k0_pay10 i x2 x3) (k0_pay11 x6) x18)
            ∗ owns (c : Thread nD τ) arg19 fullShare (k0_pay2 (k0_pay10 i x2 x3) (k0_pay12 x7) x19)) -∗ K ⟨⟩))
      ⊢ wp frame (wpE (defs₀ (F := F)) Variants.none c none) E (cc0__lstm_gate_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__lstm_gate_kernel_eq_skeleton]; unfold cc0__lstm_gate_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg16.eq_unread hf16
  obtain rfl := harg17.eq_unread hf17
  obtain rfl := harg18.eq_unread hf18
  obtain rfl := harg19.eq_unread hf19
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H14]
  · iexists _; isplitr
    swap; · iexact H14
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H15]
  · iexists _; isplitr
    swap; · iexact H15
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H16]
  · iexists _; isplitr
    swap; · iexact H16
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H17]
  · iexists _; isplitr
    swap; · iexact H17
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  isplitl [H18]
  · iexists _; isplitr
    swap; · iexact H18
    ipureintro
    try sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]
  iexists _; isplitr
  swap; · iexact H19
  ipureintro
  try sl_unfold_run_names
  rw [read_writes_unit_zero _ _ zero2]
  simp only [readAt_unit_zero_unread arg2 harg2 zero2, readAt_unit_zero_unread arg3 harg3 zero2, readAt_unit_zero_unread arg4 harg4 zero2, readAt_unit_zero_unread arg5 harg5 zero2, readAt_unit_zero_unread arg6 harg6 zero2, readAt_unit_zero_unread arg7 harg7 zero2, readAt_unit_zero_unread arg8 harg8 zero2, readAt_unit_zero_unread arg9 harg9 zero2, readAt_unit_zero_unread arg10 harg10 zero2, readAt_unit_zero_unread arg11 harg11 zero2, readAt_unit_zero_unread arg12 harg12 zero2, readAt_unit_zero_unread arg13 harg13 zero2, readAt_unit_zero_unread arg14 harg14 zero2, readAt_unit_zero_unread arg15 harg15 zero2, readAt_unit_zero_unread arg16 harg16 zero2, readAt_unit_zero_unread arg17 harg17 zero2, readAt_unit_zero_unread arg18 harg18 zero2, readAt_unit_zero_unread arg19 harg19 zero2, View.readCov_unit_zero arg13.view zero2, View.readCov_unit_zero arg14.view zero2, View.readCov_unit_zero arg15.view zero2, View.readCov_unit_zero arg16.view zero2, View.readCov_unit_zero arg17.view zero2, View.readCov_unit_zero arg18.view zero2, View.readCov_unit_zero arg19.view zero2]

end Cert.KernelIdeal.Hand

end
-- ==== Proof.KI.R0Frame.lean ====
/-
  The first kernel (the four gates) over its whole grid, from any contents `V` of the core's buffers at the
  region's entry. What the four accumulator scratches hold after each point is a recursion on the point: at k = 0
  each gate's product of the point's blocks added to the zero splat, at every later k the product added to what the
  point before left. The three output blocks are stored at k = 4 only, from the accumulators, the bias rows and the
  block of the old cell state; at the other points their staging buffers are handed back as found. The invariant
  carried from point to point is the four scratches at the accumulators' contents beside the other scoped buffers
  and the generator register.
-/
import proofs.«119333_j60842506715793_2_alg».proof.Proof.KI.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.WholeBlock

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## Where the output windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
/-- Away from k = 4 output window 11 is idle and not written back; at k = 4 it is live. -/
theorem idleAt0_11 : ∀ t : Fin cfg0.N, ¬cond0_1 (grid0.coords t) → cfg0.idle 11 (grid0.coords t) = true := by decide +kernel
theorem noFlush0_11 : ∀ t : Fin cfg0.N, ¬cond0_1 (grid0.coords t) → (cfg0.win 11).flush t = false := by decide +kernel
theorem liveAt0_11 : ∀ t : Fin cfg0.N, cond0_1 (grid0.coords t) → cfg0.idle 11 (grid0.coords t) = false := by decide +kernel
/-- Away from k = 4 output window 12 is idle and not written back; at k = 4 it is live. -/
theorem idleAt0_12 : ∀ t : Fin cfg0.N, ¬cond0_1 (grid0.coords t) → cfg0.idle 12 (grid0.coords t) = true := by decide +kernel
theorem noFlush0_12 : ∀ t : Fin cfg0.N, ¬cond0_1 (grid0.coords t) → (cfg0.win 12).flush t = false := by decide +kernel
theorem liveAt0_12 : ∀ t : Fin cfg0.N, cond0_1 (grid0.coords t) → cfg0.idle 12 (grid0.coords t) = false := by decide +kernel
/-- Away from k = 4 output window 13 is idle and not written back; at k = 4 it is live. -/
theorem idleAt0_13 : ∀ t : Fin cfg0.N, ¬cond0_1 (grid0.coords t) → cfg0.idle 13 (grid0.coords t) = true := by decide +kernel
theorem noFlush0_13 : ∀ t : Fin cfg0.N, ¬cond0_1 (grid0.coords t) → (cfg0.win 13).flush t = false := by decide +kernel
theorem liveAt0_13 : ∀ t : Fin cfg0.N, cond0_1 (grid0.coords t) → cfg0.idle 13 (grid0.coords t) = false := by decide +kernel

/-! ## The staging memrefs and the scratches -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1024x256 .f32 := win0_13.stage (cfg0.slots t 13)
abbrev hs0_13 (t : Fin cfg0.N) : (ms0_13 t).IsWhole := hstage0_13 ((cfg0.slots t 13).cast nbuf0_13)
/-- The four accumulator scratches, whole scoped buffers of the kernel's own. -/
abbrev scM0_0 : Memref sig .tc .vmem S1024x256 .f32 := Memref.whole cc0_scratch0
abbrev scM0_1 : Memref sig .tc .vmem S1024x256 .f32 := Memref.whole cc0_scratch1
abbrev scM0_2 : Memref sig .tc .vmem S1024x256 .f32 := Memref.whole cc0_scratch2
abbrev scM0_3 : Memref sig .tc .vmem S1024x256 .f32 := Memref.whole cc0_scratch3

/-- The scoped buffers that are neither this kernel's staging buffers nor its scratches, each whole at some contents. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The class invariant with the scratches as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ rest0 (F := F) c) ∗ (∃ r, prngReg c r)) := by
  unfold Pipeline.ΦA; rw [scopedRest0_eq]; simp only [scM0_0, scM0_1, scM0_2, scM0_3, owns_whole]; try rfl

/-! ## The accumulators after each point -/

/-- What the four scratches hold after the body at position `n` (forget, input, cell, output gate, in that order). -/
def acc0 (c : Dev nD) : (n : ℕ) → n < cfg0.N → Vec F S1024x256 .f32 × Vec F S1024x256 .f32 × Vec F S1024x256 .f32 × Vec F S1024x256 .f32
  | 0, hn => (k0_pay13 (grid0.coords ⟨0, hn⟩) (iblk0 V c 0 ⟨0, hn⟩) (iblk0 V c 1 ⟨0, hn⟩) (iblk0 V c 2 ⟨0, hn⟩) (k0_pay6 (F := F)), k0_pay14 (grid0.coords ⟨0, hn⟩) (iblk0 V c 0 ⟨0, hn⟩) (iblk0 V c 1 ⟨0, hn⟩) (iblk0 V c 3 ⟨0, hn⟩) (k0_pay7 (F := F)), k0_pay1 (k0_pay10 (grid0.coords ⟨0, hn⟩) (iblk0 V c 0 ⟨0, hn⟩) (iblk0 V c 1 ⟨0, hn⟩)) (k0_pay11 (iblk0 V c 4 ⟨0, hn⟩)) (k0_pay8 (F := F)), k0_pay2 (k0_pay10 (grid0.coords ⟨0, hn⟩) (iblk0 V c 0 ⟨0, hn⟩) (iblk0 V c 1 ⟨0, hn⟩)) (k0_pay12 (iblk0 V c 5 ⟨0, hn⟩)) (k0_pay9 (F := F)))
  | n + 1, hn =>
    if (n + 1) % 5 = 0 then (k0_pay13 (grid0.coords ⟨n + 1, hn⟩) (iblk0 V c 0 ⟨n + 1, hn⟩) (iblk0 V c 1 ⟨n + 1, hn⟩) (iblk0 V c 2 ⟨n + 1, hn⟩) (k0_pay6 (F := F)), k0_pay14 (grid0.coords ⟨n + 1, hn⟩) (iblk0 V c 0 ⟨n + 1, hn⟩) (iblk0 V c 1 ⟨n + 1, hn⟩) (iblk0 V c 3 ⟨n + 1, hn⟩) (k0_pay7 (F := F)), k0_pay1 (k0_pay10 (grid0.coords ⟨n + 1, hn⟩) (iblk0 V c 0 ⟨n + 1, hn⟩) (iblk0 V c 1 ⟨n + 1, hn⟩)) (k0_pay11 (iblk0 V c 4 ⟨n + 1, hn⟩)) (k0_pay8 (F := F)), k0_pay2 (k0_pay10 (grid0.coords ⟨n + 1, hn⟩) (iblk0 V c 0 ⟨n + 1, hn⟩) (iblk0 V c 1 ⟨n + 1, hn⟩)) (k0_pay12 (iblk0 V c 5 ⟨n + 1, hn⟩)) (k0_pay9 (F := F)))
    else (k0_pay13 (grid0.coords ⟨n + 1, hn⟩) (iblk0 V c 0 ⟨n + 1, hn⟩) (iblk0 V c 1 ⟨n + 1, hn⟩) (iblk0 V c 2 ⟨n + 1, hn⟩) (acc0 c n (Nat.lt_of_succ_lt hn)).1, k0_pay14 (grid0.coords ⟨n + 1, hn⟩) (iblk0 V c 0 ⟨n + 1, hn⟩) (iblk0 V c 1 ⟨n + 1, hn⟩) (iblk0 V c 3 ⟨n + 1, hn⟩) (acc0 c n (Nat.lt_of_succ_lt hn)).2.1, k0_pay1 (k0_pay10 (grid0.coords ⟨n + 1, hn⟩) (iblk0 V c 0 ⟨n + 1, hn⟩) (iblk0 V c 1 ⟨n + 1, hn⟩)) (k0_pay11 (iblk0 V c 4 ⟨n + 1, hn⟩)) (acc0 c n (Nat.lt_of_succ_lt hn)).2.2.1, k0_pay2 (k0_pay10 (grid0.coords ⟨n + 1, hn⟩) (iblk0 V c 0 ⟨n + 1, hn⟩) (iblk0 V c 1 ⟨n + 1, hn⟩)) (k0_pay12 (iblk0 V c 5 ⟨n + 1, hn⟩)) (acc0 c n (Nat.lt_of_succ_lt hn)).2.2.2)

/-- At k = 0 the accumulators restart from the zero splat. -/
theorem acc0_first (c : Dev nD) (t : Fin cfg0.N) (h0 : t.val % 5 = 0) :
    acc0 V c t.val t.isLt = (k0_pay13 (grid0.coords t) (iblk0 V c 0 t) (iblk0 V c 1 t) (iblk0 V c 2 t) (k0_pay6 (F := F)), k0_pay14 (grid0.coords t) (iblk0 V c 0 t) (iblk0 V c 1 t) (iblk0 V c 3 t) (k0_pay7 (F := F)), k0_pay1 (k0_pay10 (grid0.coords t) (iblk0 V c 0 t) (iblk0 V c 1 t)) (k0_pay11 (iblk0 V c 4 t)) (k0_pay8 (F := F)), k0_pay2 (k0_pay10 (grid0.coords t) (iblk0 V c 0 t) (iblk0 V c 1 t)) (k0_pay12 (iblk0 V c 5 t)) (k0_pay9 (F := F))) := by
  obtain ⟨n, hn⟩ := t
  cases n with
  | zero => rfl
  | succ n => exact if_pos h0

/-- At a later k they add to what the point before left. -/
theorem acc0_next (c : Dev nD) (t : Fin cfg0.N) (h0 : ¬t.val % 5 = 0) :
    acc0 V c t.val t.isLt = (k0_pay13 (grid0.coords t) (iblk0 V c 0 t) (iblk0 V c 1 t) (iblk0 V c 2 t) (acc0 V c (t.val - 1) (Nat.lt_of_le_of_lt (Nat.sub_le _ _) t.isLt)).1, k0_pay14 (grid0.coords t) (iblk0 V c 0 t) (iblk0 V c 1 t) (iblk0 V c 3 t) (acc0 V c (t.val - 1) (Nat.lt_of_le_of_lt (Nat.sub_le _ _) t.isLt)).2.1, k0_pay1 (k0_pay10 (grid0.coords t) (iblk0 V c 0 t) (iblk0 V c 1 t)) (k0_pay11 (iblk0 V c 4 t)) (acc0 V c (t.val - 1) (Nat.lt_of_le_of_lt (Nat.sub_le _ _) t.isLt)).2.2.1, k0_pay2 (k0_pay10 (grid0.coords t) (iblk0 V c 0 t) (iblk0 V c 1 t)) (k0_pay12 (iblk0 V c 5 t)) (acc0 V c (t.val - 1) (Nat.lt_of_le_of_lt (Nat.sub_le _ _) t.isLt)).2.2.2) := by
  obtain ⟨n, hn⟩ := t
  cases n with
  | zero => exact absurd (Nat.zero_mod _) h0
  | succ n => exact if_neg h0

/-- The invariant before position `n`: before the first point the class's; afterwards the scratches at what the point
    before left, the other scoped buffers at some contents, the generator register at some state. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn).1 ∗ owns (c : Thread nD τ) scM0_1 fullShare (acc0 V c n hn).2.1 ∗ owns (c : Thread nD τ) scM0_2 fullShare (acc0 V c n hn).2.2.1 ∗ owns (c : Thread nD τ) scM0_3 fullShare (acc0 V c n hn).2.2.2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare (acc0 V c n hn).1 ∗ owns (c : Thread nD τ) scM0_1 fullShare (acc0 V c n hn).2.1 ∗ owns (c : Thread nD τ) scM0_2 fullShare (acc0 V c n hn).2.2.1 ∗ owns (c : Thread nD τ) scM0_3 fullShare (acc0 V c n hn).2.2.2 ∗ rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0_0 fullShare (acc0 V c (n - 1) (by omega)).1 ∗ owns (c : Thread nD τ) scM0_1 fullShare (acc0 V c (n - 1) (by omega)).2.1 ∗ owns (c : Thread nD τ) scM0_2 fullShare (acc0 V c (n - 1) (by omega)).2.2.1 ∗ owns (c : Thread nD τ) scM0_3 fullShare (acc0 V c (n - 1) (by omega)).2.2.2 ∗ rest0 (F := F) c) ∗ (∃ r, prngReg c r)) := by
  cases n with
  | zero => exact absurd rfl hz
  | succ n => rfl

/-! ## The proof data -/

/-- The arrays as the region finds them; after the body each input's buffer at its block, the outputs' at the gates
    of the accumulators plus the biases (what the body stores at k = 4; at the other points the windows are idle and
    this is not consulted); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => k0_pay3 (acc0 V c t.val t.isLt).2.1 (iblk0 V c 7 t)
    | ⟨12, _⟩ => k0_pay5 (acc0 V c t.val t.isLt).1 (iblk0 V c 6 t) (acc0 V c t.val t.isLt).2.1 (iblk0 V c 7 t) (acc0 V c t.val t.isLt).2.2.1 (iblk0 V c 8 t) (acc0 V c t.val t.isLt).2.2.2 (iblk0 V c 9 t) (iblk0 V c 10 t)
    | ⟨13, _⟩ => k0_pay4 (acc0 V c t.val t.isLt).1 (iblk0 V c 6 t) (acc0 V c t.val t.isLt).2.1 (iblk0 V c 7 t) (acc0 V c t.val t.isLt).2.2.1 (iblk0 V c 8 t) (iblk0 V c 10 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = k0_pay3 (acc0 V c t.val t.isLt).2.1 (iblk0 V c 7 t) := by dsimp only [dat0]
theorem after0_12 (c : Dev nD) (t : Fin cfg0.N) : (dat0 V c).after 12 t = k0_pay5 (acc0 V c t.val t.isLt).1 (iblk0 V c 6 t) (acc0 V c t.val t.isLt).2.1 (iblk0 V c 7 t) (acc0 V c t.val t.isLt).2.2.1 (iblk0 V c 8 t) (acc0 V c t.val t.isLt).2.2.2 (iblk0 V c 9 t) (iblk0 V c 10 t) := by dsimp only [dat0]
theorem after0_13 (c : Dev nD) (t : Fin cfg0.N) : (dat0 V c).after 13 t = k0_pay4 (acc0 V c t.val t.isLt).1 (iblk0 V c 6 t) (acc0 V c t.val t.isLt).2.1 (iblk0 V c 7 t) (acc0 V c t.val t.isLt).2.2.1 (iblk0 V c 8 t) (iblk0 V c 10 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d))
    ∗ (∃ d, owns (c : Thread nD τ) (ms0_10 t) fullShare ((dat0 V c).before 10 t d))
    ∗ (∃ d, owns (c : Thread nD τ) (ms0_11 t) fullShare ((dat0 V c).before 11 t d))
    ∗ (∃ d, owns (c : Thread nD τ) (ms0_12 t) fullShare ((dat0 V c).before 12 t d))
    ∗ (∃ d, owns (c : Thread nD τ) (ms0_13 t) fullShare ((dat0 V c).before 13 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t
    ∗ (dat0 V c).leavesExact 11 t
    ∗ (dat0 V c).leavesExact 12 t
    ∗ (dat0 V c).leavesExact 13 t)

set_option maxHeartbeats 16000000 in
/-- The body at any point: the inputs' buffers hold their blocks; the closed forms say which case the point is in;
    the invariant hands the body the scratches at what the point before left (at anything at the first point) and takes
    them back at this point's accumulators. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).owesAt () t.succ = (dat0 V c).owesAt () t.castSucc from rfl]
  rw [show (dat0 V c).Φ t.succ = PhiS0 V c (t.val + 1) t.isLt from rfl, PhiS0_succ]
  have hN : t.val < 80 := lt_of_lt_of_eq t.isLt (show cfg0.N = 80 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  rw [show (dat0 V c).leavesExact 7 t = owns (c : Thread nD τ) (ms0_7 t) fullShare ((dat0 V c).after 7 t) from by
    unfold Dat.leavesExact; rw [liveAt0_7 t], after0_7]
  rw [show (dat0 V c).leavesExact 8 t = owns (c : Thread nD τ) (ms0_8 t) fullShare ((dat0 V c).after 8 t) from by
    unfold Dat.leavesExact; rw [liveAt0_8 t], after0_8]
  rw [show (dat0 V c).leavesExact 9 t = owns (c : Thread nD τ) (ms0_9 t) fullShare ((dat0 V c).after 9 t) from by
    unfold Dat.leavesExact; rw [liveAt0_9 t], after0_9]
  rw [show (dat0 V c).leavesExact 10 t = owns (c : Thread nD τ) (ms0_10 t) fullShare ((dat0 V c).after 10 t) from by
    unfold Dat.leavesExact; rw [liveAt0_10 t], after0_10]
  by_cases h0 : t.val % 5 = 0
  · have h1 : ¬t.val % 5 = 4 := by omega
    have hc0 : cond0_0 (grid0.coords t) := (hcond0_0 t).mpr h0
    have hc1 : ¬cond0_1 (grid0.coords t) := fun h => h1 ((hcond0_1 t).mp h)
    rw [Dat.leavesExact_idle (dat0 V c) 11 t (idleAt0_11 t hc1) (noFlush0_11 t hc1)]
    rw [Dat.leavesExact_idle (dat0 V c) 12 t (idleAt0_12 t hc1) (noFlush0_12 t hc1)]
    rw [Dat.leavesExact_idle (dat0 V c) 13 t (idleAt0_13 t hc1) (noFlush0_13 t hc1)]
    rw [acc0_first V c t h0]
    by_cases hz : t.val = 0
    · rw [PhiS0_castSucc V c t, PhiS0_zero V c _ _ hz, PhiA0_eq]
      iintro ⟨⟨⟨⟨%ds0, HS0⟩, ⟨%ds1, HS1⟩, ⟨%ds2, HS2⟩, ⟨%ds3, HS3⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run0_first c (grid0.coords t) _ _ _ _ _ _ _ _ _ _ _ _ _ _ _ _ _ _ _ _ _ _ _ _ _ _ _ _ _ (Memref.isWhole_whole _) _ (Memref.isWhole_whole _) _ (Memref.isWhole_whole _) _ (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _ _ _ ds0 ds1 ds2 ds3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, HS0, HS1, HS2, HS3⟩
      isplitl [HS0 HS1 HS2 HS3 HR Hg]
      · isplitl [HS0 HS1 HS2 HS3 HR]
        · isplitl [HS0]; · iexact HS0
          isplitl [HS1]; · iexact HS1
          isplitl [HS2]; · iexact HS2
          isplitl [HS3]; · iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      iexists _; iexact H13
    · rw [PhiS0_castSucc V c t, PhiS0_pos V c _ _ hz]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run0_first c (grid0.coords t) _ _ _ _ _ _ _ _ _ _ _ _ _ _ _ _ _ _ _ _ _ _ _ _ _ _ _ _ _ (Memref.isWhole_whole _) _ (Memref.isWhole_whole _) _ (Memref.isWhole_whole _) _ (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, HS0, HS1, HS2, HS3⟩
      isplitl [HS0 HS1 HS2 HS3 HR Hg]
      · isplitl [HS0 HS1 HS2 HS3 HR]
        · isplitl [HS0]; · iexact HS0
          isplitl [HS1]; · iexact HS1
          isplitl [HS2]; · iexact HS2
          isplitl [HS3]; · iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      iexists _; iexact H13
  · have hz : t.val ≠ 0 := fun e => h0 (by rw [e])
    have hc0 : ¬cond0_0 (grid0.coords t) := fun h => h0 ((hcond0_0 t).mp h)
    rw [acc0_next V c t h0]
    rw [PhiS0_castSucc V c t, PhiS0_pos V c _ _ hz]
    by_cases h1 : t.val % 5 = 4
    · have hc1 : cond0_1 (grid0.coords t) := (hcond0_1 t).mpr h1
      rw [show (dat0 V c).leavesExact 11 t = owns (c : Thread nD τ) (ms0_11 t) fullShare ((dat0 V c).after 11 t) from by
        unfold Dat.leavesExact; rw [liveAt0_11 t hc1], after0_11, acc0_next V c t h0]
      rw [show (dat0 V c).leavesExact 12 t = owns (c : Thread nD τ) (ms0_12 t) fullShare ((dat0 V c).after 12 t) from by
        unfold Dat.leavesExact; rw [liveAt0_12 t hc1], after0_12, acc0_next V c t h0]
      rw [show (dat0 V c).leavesExact 13 t = owns (c : Thread nD τ) (ms0_13 t) fullShare ((dat0 V c).after 13 t) from by
        unfold Dat.leavesExact; rw [liveAt0_13 t hc1], after0_13, acc0_next V c t h0]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run0_last c (grid0.coords t) _ _ _ _ _ _ _ _ _ _ _ _ _ _ _ _ _ _ _ _ _ _ _ _ _ _ _ _ _ (Memref.isWhole_whole _) _ (Memref.isWhole_whole _) _ (Memref.isWhole_whole _) _ (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, HS0, HS1, HS2, HS3⟩
      isplitl [HS0 HS1 HS2 HS3 HR Hg]
      · isplitl [HS0 HS1 HS2 HS3 HR]
        · isplitl [HS0]; · iexact HS0
          isplitl [HS1]; · iexact HS1
          isplitl [HS2]; · iexact HS2
          isplitl [HS3]; · iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · have hc1 : ¬cond0_1 (grid0.coords t) := fun h => h1 ((hcond0_1 t).mp h)
      rw [Dat.leavesExact_idle (dat0 V c) 11 t (idleAt0_11 t hc1) (noFlush0_11 t hc1)]
      rw [Dat.leavesExact_idle (dat0 V c) 12 t (idleAt0_12 t hc1) (noFlush0_12 t hc1)]
      rw [Dat.leavesExact_idle (dat0 V c) 13 t (idleAt0_13 t hc1) (noFlush0_13 t hc1)]
      iintro ⟨⟨⟨HS0, HS1, HS2, HS3, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run0_mid c (grid0.coords t) _ _ _ _ _ _ _ _ _ _ _ _ _ _ _ _ _ _ _ _ _ _ _ _ _ _ _ _ _ (Memref.isWhole_whole _) _ (Memref.isWhole_whole _) _ (Memref.isWhole_whole _) _ (Memref.isWhole_whole _) hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, HS0, HS1, HS2, HS3⟩
      isplitl [HS0 HS1 HS2 HS3 HR Hg]
      · isplitl [HS0 HS1 HS2 HS3 HR]
        · isplitl [HS0]; · iexact HS0
          isplitl [HS1]; · iexact HS1
          isplitl [HS2]; · iexact HS2
          isplitl [HS3]; · iexact HS3
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      iexists _; iexact H13

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratches' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 80 := N_0; omega), PhiA0_eq]
  iintro ⟨⟨HS0, HS1, HS2, HS3, HR⟩, Hg⟩
  isplitl [HS0 HS1 HS2 HS3 HR]
  · isplitl [HS0]; · iexists _; iexact HS0
    isplitl [HS1]; · iexists _; iexact HS1
    isplitl [HS2]; · iexists _; iexact HS2
    isplitl [HS3]; · iexists _; iexact HS3
    iexact HR
  iexact Hg

end Cert.KernelIdeal.Hand

end
-- ==== Proof.KI.R1Runs.lean ====
/-
  The second kernel (the output layer) at one grid point, in each of the three ways its two branches can go.
  The grid is (row tile, k); the accumulator scratch is zeroed when k = 0, a product of the two staged blocks is
  added to it at every point, and when k = 15 the bias is added and the row-wise log-softmax is stored into the
  output block. Each lemma says what every buffer the body is handed holds afterwards, as the body's own
  payload terms of what they held before.
-/
import proofs.«119333_j60842506715793_2_alg».proof.Proof.Gen.KernelIdeal.Launch
import proofs.«119333_j60842506715793_2_alg».proof.Proof.Gen.KernelIdeal.Skeleton
import proofs.«119333_j60842506715793_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«119333_j60842506715793_2_alg».proof.Proof.LibWholeBlock

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.WholeBlock

/-! ## The two branch conditions over the grid -/

/-- "k = 0", as the body computes it from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "k = 15". -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## The body, case by case -/

set_option maxHeartbeats 1000000 in
/-- k = 0: the scratch is zeroed, then gains the product of the two blocks; nothing else changes. -/
theorem run1_first (c : Dev nD) (i : grid1.Coords) (arg2 : Memref sig .tc .vmem S256x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole)
    (hc0 : cond1_0 i) (hc1 : ¬cond1_1 i)
    (x0 : Vec F S256x256 .f32) (x1 : Vec F S4096x256 .f32) (x2 : Vec F S1x4096 .f32) (x3 : Vec F S256x4096 .f32) (xs : Vec F S256x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay2 x0 x1 (k1_pay1 (F := F)))) -∗ K ⟨⟩))
      ⊢ wp frame (wpE (defs₀ (F := F)) Variants.none c none) E (cc1__output_kernel i arg2 harg2 arg3 harg3 arg4 harg4 arg5 harg5 arg6 harg6) K := by
  simp only [cc1__output_kernel_eq_skeleton]; unfold cc1__output_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  sl_unfold_run_names
  rw [read_writes_unit_zero _ _ zero2]
  simp only [readAt_unit_zero_unread arg2 harg2 zero2, readAt_unit_zero_unread arg3 harg3 zero2, readAt_unit_zero_unread arg4 harg4 zero2, readAt_unit_zero_unread arg6 harg6 zero2, View.readCov_unit_zero arg6.view zero2]

set_option maxHeartbeats 1000000 in
/-- 0 < k < 15: the scratch gains the product of the two blocks; nothing else changes. -/
theorem run1_mid (c : Dev nD) (i : grid1.Coords) (arg2 : Memref sig .tc .vmem S256x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole)
    (hc0 : ¬cond1_0 i) (hc1 : ¬cond1_1 i)
    (x0 : Vec F S256x256 .f32) (x1 : Vec F S4096x256 .f32) (x2 : Vec F S1x4096 .f32) (x3 : Vec F S256x4096 .f32) (xs : Vec F S256x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (k1_pay2 x0 x1 xs)) -∗ K ⟨⟩))
      ⊢ wp frame (wpE (defs₀ (F := F)) Variants.none c none) E (cc1__output_kernel i arg2 harg2 arg3 harg3 arg4 harg4 arg5 harg5 arg6 harg6) K := by
  simp only [cc1__output_kernel_eq_skeleton]; unfold cc1__output_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  try sl_unfold_run_names
  rw [read_writes_unit_zero _ _ zero2]
  simp only [readAt_unit_zero_unread arg2 harg2 zero2, readAt_unit_zero_unread arg3 harg3 zero2, readAt_unit_zero_unread arg4 harg4 zero2, readAt_unit_zero_unread arg6 harg6 zero2, View.readCov_unit_zero arg6.view zero2]

set_option maxHeartbeats 1000000 in
/-- k = 15: the scratch gains the product; the output block takes the log-softmax of the scratch plus the bias. -/
theorem run1_last (c : Dev nD) (i : grid1.Coords) (arg2 : Memref sig .tc .vmem S256x256 .f32) (harg2 : arg2.IsWhole) (arg3 : Memref sig .tc .vmem S4096x256 .f32) (harg3 : arg3.IsWhole) (arg4 : Memref sig .tc .vmem S1x4096 .f32) (harg4 : arg4.IsWhole) (arg5 : Memref sig .tc .vmem S256x4096 .f32) (harg5 : arg5.IsWhole) (arg6 : Memref sig .tc .vmem S256x4096 .f32) (harg6 : arg6.IsWhole)
    (hc0 : ¬cond1_0 i) (hc1 : cond1_1 i)
    (x0 : Vec F S256x256 .f32) (x1 : Vec F S4096x256 .f32) (x2 : Vec F S1x4096 .f32) (x3 : Vec F S256x4096 .f32) (xs : Vec F S256x4096 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 x0 x1 xs) x2) ∗ owns (c : Thread nD τ) arg6 fullShare (k1_pay2 x0 x1 xs)) -∗ K ⟨⟩))
      ⊢ wp frame (wpE (defs₀ (F := F)) Variants.none c none) E (cc1__output_kernel i arg2 harg2 arg3 harg3 arg4 harg4 arg5 harg5 arg6 harg6) K := by
  simp only [cc1__output_kernel_eq_skeleton]; unfold cc1__output_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_run_names
    rw [read_writes_unit_zero _ _ zero2]
    simp only [readAt_unit_zero_unread arg2 harg2 zero2, readAt_unit_zero_unread arg3 harg3 zero2, readAt_unit_zero_unread arg4 harg4 zero2, readAt_unit_zero_unread arg6 harg6 zero2, View.readCov_unit_zero arg6.view zero2]
  iexists _; isplitr
  swap; · iexact HS
  ipureintro
  try sl_unfold_run_names
  rw [read_writes_unit_zero _ _ zero2]
  simp only [readAt_unit_zero_unread arg2 harg2 zero2, readAt_unit_zero_unread arg3 harg3 zero2, readAt_unit_zero_unread arg4 harg4 zero2, readAt_unit_zero_unread arg6 harg6 zero2, View.readCov_unit_zero arg6.view zero2]

end Cert.KernelIdeal.Hand

end
-- ==== Proof.KI.R1Frame.lean ====
/-
  The second kernel (the output layer) over its whole grid, from any contents `V` of the core's buffers at the
  region's entry. What the accumulator scratch holds after each point is a recursion on the point: at k = 0 the
  product of the point's two blocks added to the zero splat, at every later k the product added to what the
  point before left. The output block is stored at k = 15 only, from the accumulator and the bias row; at the
  other points its staging buffer is handed back as found. The invariant carried from point to point is the
  scratch at the accumulator's contents beside the other scoped buffers and the generator register.
-/
import proofs.«119333_j60842506715793_2_alg».proof.Proof.KI.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.WholeBlock

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from k = 15 the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At k = 15 it is live. -/
theorem liveAt1_3 : ∀ t : Fin cfg1.N, cond1_1 (grid1.coords t) → cfg1.idle 3 (grid1.coords t) = false := by decide +kernel

/-! ## The staging memrefs and the scratch -/

abbrev ms1_0 (t : Fin cfg1.N) : Memref sig .tc .vmem S256x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x4096 .f32 := win1_3.stage (cfg1.slots t 3)
abbrev hs1_3 (t : Fin cfg1.N) : (ms1_3 t).IsWhole := hstage1_3 ((cfg1.slots t 3).cast nbuf1_3)
/-- The accumulator scratch, a whole scoped buffer of the kernel's own. -/
abbrev scM1 : Memref sig .tc .vmem S256x4096 .f32 := Memref.whole cc1_scratch0

/-- The class invariant with the scratch as a memref owned at some contents, the other scoped buffers unopened. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The accumulator after each point -/

/-- What the scratch holds after the body at position `n`. -/
def acc1 (c : Dev nD) : (n : ℕ) → n < cfg1.N → Vec F S256x4096 .f32
  | 0, hn => k1_pay2 (iblk1 V c 0 ⟨0, hn⟩) (iblk1 V c 1 ⟨0, hn⟩) (k1_pay1 (F := F))
  | n + 1, hn =>
    if (n + 1) % 16 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At k = 0 the accumulator restarts from the zero splat. -/
theorem acc1_first (c : Dev nD) (t : Fin cfg1.N) (h0 : t.val % 16 = 0) :
    acc1 V c t.val t.isLt = k1_pay2 (iblk1 V c 0 t) (iblk1 V c 1 t) (k1_pay1 (F := F)) := by
  obtain ⟨n, hn⟩ := t
  cases n with
  | zero => rfl
  | succ n => exact if_pos h0

/-- At a later k it adds to what the point before left. -/
theorem acc1_next (c : Dev nD) (t : Fin cfg1.N) (h0 : ¬t.val % 16 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact if_neg h0

/-- The invariant before position `n`: before the first point the class's; afterwards the scratch at what the point
    before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; after the body each input's buffer at its block, the output's at the
    log-softmax of the accumulator plus the bias (what the body stores at k = 15; at the other points the window is
    idle and this is not consulted); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the closed forms say which case the point is in;
    the invariant hands the body the scratch at what the point before left (at anything at the first point) and takes it
    back at this point's accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 16 = 0
  · have h1 : ¬t.val % 16 = 15 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [acc1_first V c t h0]
    by_cases hz : t.val = 0
    · rw [PhiS1_castSucc V c t, PhiS1_zero V c _ _ hz, PhiA1_eq]
      iintro ⟨⟨⟨⟨%ds, HS⟩, HR⟩, Hg⟩, Ho, ⟨%d0, H0⟩, ⟨%d1, H1⟩, ⟨%d2, H2⟩, ⟨%d3, H3⟩⟩
      iapply (run1_first c (grid1.coords t) _ _ _ _ _ _ _ _ _ (Memref.isWhole_whole _) hc0 hc1 (iblk1 V c 0 t) (iblk1 V c 1 t) (iblk1 V c 2 t) _ ds Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (run1_first c (grid1.coords t) _ _ _ _ _ _ _ _ _ (Memref.isWhole_whole _) hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond1_0 (grid1.coords t) := fun h => h0 ((hcond1_0 t).mp h)
    rw [acc1_next V c t h0]
    rw [PhiS1_castSucc V c t, PhiS1_pos V c _ _ hz]
    by_cases h1 : t.val % 16 = 15
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3, acc1_next V c t h0]
      iintro ⟨⟨⟨HS, HR⟩, Hg⟩, Ho, ⟨%d0, H0⟩, ⟨%d1, H1⟩, ⟨%d2, H2⟩, ⟨%d3, H3⟩⟩
      iapply (run1_last c (grid1.coords t) _ _ _ _ _ _ _ _ _ (Memref.isWhole_whole _) hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1)]
      iintro ⟨⟨⟨HS, HR⟩, Hg⟩, Ho, ⟨%d0, H0⟩, ⟨%d1, H1⟩, ⟨%d2, H2⟩, ⟨%d3, H3⟩⟩
      iapply (run1_mid c (grid1.coords t) _ _ _ _ _ _ _ _ _ (Memref.isWhole_whole _) hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS, HR⟩, Hg⟩
  isplitl [HS HR]
  · isplitl [HS]; · iexists _; iexact HS
    iexact HR
  iexact Hg

end Cert.KernelIdeal.Hand

end
-- ==== Proof.KI.Run.lean ====
/-
  The whole idealized kernel program: five reshapes of the bias vectors on the host, the gate kernel, the output
  kernel. The contents of the core's unscoped buffers at each boundary are a fold from the launch memory: after the
  reshapes; after the first kernel, whose three result arrays hold what its write-backs leave; after the second,
  whose result array holds what its write-backs leave. Every weakly fair execution terminates with every unscoped
  buffer at the last of these.
-/
import proofs.«119333_j60842506715793_2_alg».proof.Proof.KI.R0Frame
import proofs.«119333_j60842506715793_2_alg».proof.Proof.KI.R1Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev E0 : Dev nD → Valuation τ sig (Elt F) := fun c b => m (c, b)
/-- After the reshapes (the first kernel's entry). -/
abbrev E1 : Dev nD → Valuation τ sig (Elt F) := fun c => StableHlo.after hostOps0 (E0 m c)
/-- The same read at the TensorCore's references. -/
abbrev T1 : (c : Dev nD) → (b : Ref sig .tc) → Buf (Elt F) ((c : Thread nD τ).loc b) := fun c b => E1 m c b
/-- At the first kernel's exit: its arrays at what the pipeline leaves, every other buffer as entered. -/
def E2 (c : Dev nD) : Valuation τ sig (Elt F) :=
  Pipeline.withArrays spec0 c (E1 m c) fun w => (dat0 (T1 m) c).arrAt w cfg0.N
theorem E2_arr (c : Dev nD) (w : Fin cfg0.W) :
    E2 m c (Proc.devRef .tc (Pipeline.arrRef spec0 w)) = (dat0 (T1 m) c).arrAt w cfg0.N := by
  unfold E2; exact Pipeline.withArrays_arr spec0 launch0.win.arr_inj c _ _ w
theorem E2_of_ne (c : Dev nD) (b : Ref sig .tc) (hb : ∀ w, Pipeline.arrRef spec0 w ≠ b) :
    E2 m c (Proc.devRef .tc b) = E1 m c (Proc.devRef .tc b) := by
  unfold E2; exact Pipeline.withArrays_of_ne spec0 c _ _ b hb
abbrev T2 : (c : Dev nD) → (b : Ref sig .tc) → Buf (Elt F) ((c : Thread nD τ).loc b) := fun c b => E2 m c b
theorem hF0 (c : Dev nD) (w : Fin cfg0.W) : (dat0 (T1 m) c).arrAt w cfg0.N = T2 m c (Pipeline.arrRef spec0 w) :=
  (E2_arr m c w).symm
theorem hrest0 (c : Dev nD) : ∀ b, b ∉ Finset.univ.image (Pipeline.arrRef spec0) → T2 m c b = T1 m c b :=
  fun b hb => E2_of_ne m c b fun w e => hb (Finset.mem_image.mpr ⟨w, Finset.mem_univ _, e⟩)
/-- At the second kernel's exit. -/
def E3 (c : Dev nD) : Valuation τ sig (Elt F) :=
  Pipeline.withArrays spec1 c (E2 m c) fun w => (dat1 (T2 m) c).arrAt w cfg1.N
theorem E3_arr (c : Dev nD) (w : Fin cfg1.W) :
    E3 m c (Proc.devRef .tc (Pipeline.arrRef spec1 w)) = (dat1 (T2 m) c).arrAt w cfg1.N := by
  unfold E3; exact Pipeline.withArrays_arr spec1 launch1.win.arr_inj c _ _ w
theorem E3_of_ne (c : Dev nD) (b : Ref sig .tc) (hb : ∀ w, Pipeline.arrRef spec1 w ≠ b) :
    E3 m c (Proc.devRef .tc b) = E2 m c (Proc.devRef .tc b) := by
  unfold E3; exact Pipeline.withArrays_of_ne spec1 c _ _ b hb
abbrev T3 : (c : Dev nD) → (b : Ref sig .tc) → Buf (Elt F) ((c : Thread nD τ).loc b) := fun c b => E3 m c b
theorem hF1 (c : Dev nD) (w : Fin cfg1.W) : (dat1 (T2 m) c).arrAt w cfg1.N = T3 m c (Pipeline.arrRef spec1 w) :=
  (E3_arr m c w).symm
theorem hrest1 (c : Dev nD) : ∀ b, b ∉ Finset.univ.image (Pipeline.arrRef spec1) → T3 m c b = T2 m c b :=
  fun b hb => E3_of_ne m c b fun w e => hb (Finset.mem_image.mpr ⟨w, Finset.mem_univ _, e⟩)

/-! ## The proof data family and the thread state -/

/-- No pipeline has a prefetched table. -/
abbrev padm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) padm p) c
  | ⟨0, _⟩ => fun c => dat0 (T1 m) c
  | ⟨1, _⟩ => fun c => dat1 (T2 m) c
abbrev 𝒱h : Variants := Variants.none
abbrev Lh : GSem nD τ sig → Finset Unit := fun _ => ∅
abbrev lvh : GSem nD τ sig → Unit → ℕ := fun _ _ => 0
/-- What rides beside the buffers through every segment: the generator register at some state, nothing owed. -/
abbrev Rh (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh
/-- The reshapes allocate no buffer. -/
theorem hostOps0_fresh' : (hostOps0 : List (HloOp τ sig (Elt F))).Forall fun op => op.fresh = ∅ := by
  simp only [List.Forall]; repeat' constructor
/-- The last thread state without the `owes`. -/
abbrev Tend (c : Dev nD) : sProp 𝕄 := iprop(StableHlo.held (c : Thread nD τ) (Pipeline.ucRefs τ sig) (E3 m c) ∗ ∃ r, prngReg c r)

/-! ## The regions as segments -/

-- the library lemmas are stated over the pinned configuration, which unifies with the printed one only when unification may
-- unfold plain definitions in a metavariable's type
set_option backward.isDefEq.respectTransparency.types false in
/-- Region 0 over the thread state: entered from every unscoped buffer at `E1`, left at `E2`. Its arrays are
    split out of the unscoped buffers and put back at the exit contents; the generator register and the scoped buffers go
    into the invariant before the first point and come back from the one after the last; nothing is owed; the kernel
    has no semaphore of its own. -/
def reg0 : Pipeline.RegionSeg (pcfgs (F := F)) padm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (T1 m) c).loose
  hwaits := Pipeline.hwaits_of_owed_zero _ _ _ _ Lh lvh 0 fun _ _ => rfl
  pre c := iprop(StableHlo.held (c : Thread nD τ) (Pipeline.ucRefs τ sig) (E1 m c) ∗ Rh c)
  post c := iprop(StableHlo.held (c : Thread nD τ) (Pipeline.ucRefs τ sig) (E2 m c) ∗ Rh c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := Pipeline.arrays_of_unscopedBufs (p := 0) (pcfgs (F := F)) padm (pdats m) launch0.win launch0.arr_whole c
      ((pdats m 0 c).share_full fun _ => rfl) (T1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec0 c by
      unfold Pipeline.ΦA
      iintro ⟨Hp, -, Hr⟩
      isplitl [Hr]; · iexact Hr
      iexact Hp).trans (hin0 (T1 m) c)
  hout c := by
    exact (hout0 (T1 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) padm (Ix := Unit) (Name := ℕ) (U := UR sig nD τ) (Lvl := ℕ)
      launch0.win launch0.arr_whole c (pdats m) ((pdats m 0 c).share_full fun _ => rfl)
      (T1 m c) (T2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library lemmas are stated over the pinned configuration, which unifies with the printed one only when unification may
-- unfold plain definitions in a metavariable's type
set_option backward.isDefEq.respectTransparency.types false in
/-- Region 1 over the thread state: entered from every unscoped buffer at `E2`, left at `E3`. Its arrays are
    split out of the unscoped buffers and put back at the exit contents; the generator register and the scoped buffers go
    into the invariant before the first point and come back from the one after the last; nothing is owed; the kernel
    has no semaphore of its own. -/
def reg1 : Pipeline.RegionSeg (pcfgs (F := F)) padm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (T2 m) c).loose
  hwaits := Pipeline.hwaits_of_owed_zero _ _ _ _ Lh lvh 1 fun _ _ => rfl
  pre c := iprop(StableHlo.held (c : Thread nD τ) (Pipeline.ucRefs τ sig) (E2 m c) ∗ Rh c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (T2 m c)
  hentry c := by
    rw [Pipeline.ownSems0_none]
    have hsplit := Pipeline.arrays_of_unscopedBufs (p := 1) (pcfgs (F := F)) padm (pdats m) launch1.win launch1.arr_whole c
      ((pdats m 1 c).share_full fun _ => rfl) (T2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ Pipeline.ΦA spec1 c by
      unfold Pipeline.ΦA
      iintro ⟨Hp, -, Hr⟩
      isplitl [Hr]; · iexact Hr
      iexact Hp).trans (hin1 (T2 m) c)
  hout c := by
    exact (hout1 (T2 m) c).trans (by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) padm (Ix := Unit) (Name := ℕ) (U := UR sig nD τ) (Lvl := ℕ)
      launch1.win launch1.arr_whole c (pdats m) ((pdats m 1 c).share_full fun _ => rfl)
      (T2 m c) (T3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev psegs : List (Pipeline.Seg (pcfgs (F := F)) padm (pdats m) () defs₀ 𝒱h Lh lvh) :=
  [ .host (hseg hostOps0 hostOps0_sub hostOps0_fresh' (E0 m)),
    .region (reg0 m),
    .region (reg1 m) ]
theorem main_run (c : Dev nD) : main (F := F) c = Pipeline.Seg.run (psegs m) := (main_chain c).trans (by chain_rfl)

set_option backward.isDefEq.respectTransparency.types false in
/-- From any memory with zero counters every weakly fair execution of @main terminates, nothing faulting, and every
    final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E3 m c b) :=
  Pipeline.θ_run_regions_kit (pcfgs (F := F)) padm (pdats m) () cellOf_inj emb₁ defs₀ 𝒱h Lh lvh m ρ main (psegs m)
    (fun c Q => by rw [main_run m c])
    (by simp only [psegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m c) ∗ Rh c)) (Tₙ := Tend m)
    (hch := ⟨fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E3 m c b)
    (hfin := fun c s' => by
      iintro ⟨⟨Hh, -⟩, HSI⟩
      unfold StableHlo.held
      imodintro
      iapply (pointsTo_read_all (Pipeline.ucRefs τ sig) (fun b => (((c : Thread nD τ)).1, b)) (E3 m c) s')
      isplitl [Hh] <;> iassumption)
    (hQ := fun s h c => h c)

end Cert.KernelIdeal.Hand

end
-- ==== Proof.KI.Args.lean ====
/-
  What the frame claims read off the run: every argument array ends as launched. No reshape writes an argument, and a
  region either stages it through an input window (whose array the pipeline leaves as it found it) or bypasses it. The
  three results of the first kernel pass through the second region unchanged as well.
-/
import proofs.«119333_j60842506715793_2_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem E3_main_arg0 (c : Dev nD) : E3 m c (Proc.devRef .tc main_arg0) = m ((c : Thread nD τ).loc main_arg0) :=
  calc E3 m c (Proc.devRef .tc main_arg0)
    _ = E2 m c (Proc.devRef .tc main_arg0) := E3_of_ne m c main_arg0 (by decide)
    _ = E1 m c (Proc.devRef .tc main_arg0) := (E2_arr m c 0).trans (((dat0 (T1 m) c).arrAt_in 0 rfl _).trans (A_eq0 (T1 m) c 0))
    _ = E0 m c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl

theorem E3_main_arg1 (c : Dev nD) : E3 m c (Proc.devRef .tc main_arg1) = m ((c : Thread nD τ).loc main_arg1) :=
  calc E3 m c (Proc.devRef .tc main_arg1)
    _ = E2 m c (Proc.devRef .tc main_arg1) := E3_of_ne m c main_arg1 (by decide)
    _ = E1 m c (Proc.devRef .tc main_arg1) := (E2_arr m c 1).trans (((dat0 (T1 m) c).arrAt_in 1 rfl _).trans (A_eq0 (T1 m) c 1))
    _ = E0 m c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

theorem E3_main_arg2 (c : Dev nD) : E3 m c (Proc.devRef .tc main_arg2) = m ((c : Thread nD τ).loc main_arg2) :=
  calc E3 m c (Proc.devRef .tc main_arg2)
    _ = E2 m c (Proc.devRef .tc main_arg2) := E3_of_ne m c main_arg2 (by decide)
    _ = E1 m c (Proc.devRef .tc main_arg2) := (E2_arr m c 10).trans (((dat0 (T1 m) c).arrAt_in 10 rfl _).trans (A_eq0 (T1 m) c 10))
    _ = E0 m c (Proc.devRef .tc main_arg2) := StableHlo.after_of_forall_not_mem (b := Proc.devRef .tc main_arg2) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg2) := rfl

theorem E3_main_arg3 (c : Dev nD) : E3 m c (Proc.devRef .tc main_arg3) = m ((c : Thread nD τ).loc main_arg3) :=
  calc E3 m c (Proc.devRef .tc main_arg3)
    _ = E2 m c (Proc.devRef .tc main_arg3) := E3_of_ne m c main_arg3 (by decide)
    _ = E1 m c (Proc.devRef .tc main_arg3) := (E2_arr m c 2).trans (((dat0 (T1 m) c).arrAt_in 2 rfl _).trans (A_eq0 (T1 m) c 2))
    _ = E0 m c (Proc.devRef .tc main_arg3) := StableHlo.after_of_forall_not_mem (b := Proc.devRef .tc main_arg3) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg3) := rfl

theorem E3_main_arg4 (c : Dev nD) : E3 m c (Proc.devRef .tc main_arg4) = m ((c : Thread nD τ).loc main_arg4) :=
  calc E3 m c (Proc.devRef .tc main_arg4)
    _ = E2 m c (Proc.devRef .tc main_arg4) := E3_of_ne m c main_arg4 (by decide)
    _ = E1 m c (Proc.devRef .tc main_arg4) := E2_of_ne m c main_arg4 (by decide)
    _ = E0 m c (Proc.devRef .tc main_arg4) := StableHlo.after_of_forall_not_mem (b := Proc.devRef .tc main_arg4) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg4) := rfl

theorem E3_main_arg5 (c : Dev nD) : E3 m c (Proc.devRef .tc main_arg5) = m ((c : Thread nD τ).loc main_arg5) :=
  calc E3 m c (Proc.devRef .tc main_arg5)
    _ = E2 m c (Proc.devRef .tc main_arg5) := E3_of_ne m c main_arg5 (by decide)
    _ = E1 m c (Proc.devRef .tc main_arg5) := (E2_arr m c 3).trans (((dat0 (T1 m) c).arrAt_in 3 rfl _).trans (A_eq0 (T1 m) c 3))
    _ = E0 m c (Proc.devRef .tc main_arg5) := StableHlo.after_of_forall_not_mem (b := Proc.devRef .tc main_arg5) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg5) := rfl

theorem E3_main_arg6 (c : Dev nD) : E3 m c (Proc.devRef .tc main_arg6) = m ((c : Thread nD τ).loc main_arg6) :=
  calc E3 m c (Proc.devRef .tc main_arg6)
    _ = E2 m c (Proc.devRef .tc main_arg6) := E3_of_ne m c main_arg6 (by decide)
    _ = E1 m c (Proc.devRef .tc main_arg6) := E2_of_ne m c main_arg6 (by decide)
    _ = E0 m c (Proc.devRef .tc main_arg6) := StableHlo.after_of_forall_not_mem (b := Proc.devRef .tc main_arg6) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg6) := rfl

theorem E3_main_arg7 (c : Dev nD) : E3 m c (Proc.devRef .tc main_arg7) = m ((c : Thread nD τ).loc main_arg7) :=
  calc E3 m c (Proc.devRef .tc main_arg7)
    _ = E2 m c (Proc.devRef .tc main_arg7) := E3_of_ne m c main_arg7 (by decide)
    _ = E1 m c (Proc.devRef .tc main_arg7) := (E2_arr m c 4).trans (((dat0 (T1 m) c).arrAt_in 4 rfl _).trans (A_eq0 (T1 m) c 4))
    _ = E0 m c (Proc.devRef .tc main_arg7) := StableHlo.after_of_forall_not_mem (b := Proc.devRef .tc main_arg7) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg7) := rfl

theorem E3_main_arg8 (c : Dev nD) : E3 m c (Proc.devRef .tc main_arg8) = m ((c : Thread nD τ).loc main_arg8) :=
  calc E3 m c (Proc.devRef .tc main_arg8)
    _ = E2 m c (Proc.devRef .tc main_arg8) := E3_of_ne m c main_arg8 (by decide)
    _ = E1 m c (Proc.devRef .tc main_arg8) := E2_of_ne m c main_arg8 (by decide)
    _ = E0 m c (Proc.devRef .tc main_arg8) := StableHlo.after_of_forall_not_mem (b := Proc.devRef .tc main_arg8) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg8) := rfl

theorem E3_main_arg9 (c : Dev nD) : E3 m c (Proc.devRef .tc main_arg9) = m ((c : Thread nD τ).loc main_arg9) :=
  calc E3 m c (Proc.devRef .tc main_arg9)
    _ = E2 m c (Proc.devRef .tc main_arg9) := E3_of_ne m c main_arg9 (by decide)
    _ = E1 m c (Proc.devRef .tc main_arg9) := (E2_arr m c 5).trans (((dat0 (T1 m) c).arrAt_in 5 rfl _).trans (A_eq0 (T1 m) c 5))
    _ = E0 m c (Proc.devRef .tc main_arg9) := StableHlo.after_of_forall_not_mem (b := Proc.devRef .tc main_arg9) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg9) := rfl

theorem E3_main_arg10 (c : Dev nD) : E3 m c (Proc.devRef .tc main_arg10) = m ((c : Thread nD τ).loc main_arg10) :=
  calc E3 m c (Proc.devRef .tc main_arg10)
    _ = E2 m c (Proc.devRef .tc main_arg10) := E3_of_ne m c main_arg10 (by decide)
    _ = E1 m c (Proc.devRef .tc main_arg10) := E2_of_ne m c main_arg10 (by decide)
    _ = E0 m c (Proc.devRef .tc main_arg10) := StableHlo.after_of_forall_not_mem (b := Proc.devRef .tc main_arg10) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg10) := rfl

theorem E3_main_arg11 (c : Dev nD) : E3 m c (Proc.devRef .tc main_arg11) = m ((c : Thread nD τ).loc main_arg11) :=
  calc E3 m c (Proc.devRef .tc main_arg11)
    _ = E2 m c (Proc.devRef .tc main_arg11) := (E3_arr m c 1).trans (((dat1 (T2 m) c).arrAt_in 1 rfl _).trans (A_eq1 (T2 m) c 1))
    _ = E1 m c (Proc.devRef .tc main_arg11) := E2_of_ne m c main_arg11 (by decide)
    _ = E0 m c (Proc.devRef .tc main_arg11) := StableHlo.after_of_forall_not_mem (b := Proc.devRef .tc main_arg11) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg11) := rfl

theorem E3_main_arg12 (c : Dev nD) : E3 m c (Proc.devRef .tc main_arg12) = m ((c : Thread nD τ).loc main_arg12) :=
  calc E3 m c (Proc.devRef .tc main_arg12)
    _ = E2 m c (Proc.devRef .tc main_arg12) := E3_of_ne m c main_arg12 (by decide)
    _ = E1 m c (Proc.devRef .tc main_arg12) := E2_of_ne m c main_arg12 (by decide)
    _ = E0 m c (Proc.devRef .tc main_arg12) := StableHlo.after_of_forall_not_mem (b := Proc.devRef .tc main_arg12) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg12) := rfl

/-- The first kernel's results as the second region leaves them: the input gate and the cell state bypass it; the hidden
    state is its first input window's array, which the pipeline leaves as found. -/
theorem E3_main_v5_0 (c : Dev nD) : E3 m c (Proc.devRef .tc main_v5_0) = E2 m c (Proc.devRef .tc main_v5_0) := E3_of_ne m c main_v5_0 (by decide)
theorem E3_main_v5_2 (c : Dev nD) : E3 m c (Proc.devRef .tc main_v5_2) = E2 m c (Proc.devRef .tc main_v5_2) := E3_of_ne m c main_v5_2 (by decide)
theorem E3_main_v5_1 (c : Dev nD) : E3 m c (Proc.devRef .tc main_v5_1) = E2 m c (Proc.devRef .tc main_v5_1) :=
  (E3_arr m c 0).trans (((dat1 (T2 m) c).arrAt_in 0 rfl _).trans (A_eq1 (T2 m) c 0))

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: from any memory with zero counters every weakly fair execution of @main terminates, nothing faulting, and
    every final state has the thirteen argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (E3_main_arg0 m c),
     (h c _ (mem_uc main_arg1 (by decide))).trans (E3_main_arg1 m c),
     (h c _ (mem_uc main_arg2 (by decide))).trans (E3_main_arg2 m c),
     (h c _ (mem_uc main_arg3 (by decide))).trans (E3_main_arg3 m c),
     (h c _ (mem_uc main_arg4 (by decide))).trans (E3_main_arg4 m c),
     (h c _ (mem_uc main_arg5 (by decide))).trans (E3_main_arg5 m c),
     (h c _ (mem_uc main_arg6 (by decide))).trans (E3_main_arg6 m c),
     (h c _ (mem_uc main_arg7 (by decide))).trans (E3_main_arg7 m c),
     (h c _ (mem_uc main_arg8 (by decide))).trans (E3_main_arg8 m c),
     (h c _ (mem_uc main_arg9 (by decide))).trans (E3_main_arg9 m c),
     (h c _ (mem_uc main_arg10 (by decide))).trans (E3_main_arg10 m c),
     (h c _ (mem_uc main_arg11 (by decide))).trans (E3_main_arg11 m c),
     (h c _ (mem_uc main_arg12 (by decide))).trans (E3_main_arg12 m c)⟩)
    (run_all m ρ)

end Cert.KernelIdeal.Hand

end
-- ==== Proof.Spec.lean ====
/-
  What one step of the cell computes, as plain functions of the thirteen argument arrays over the
  extended reals, index by index.

  A batch row `b` of the concatenation `[i | h]` is `xcat i h b`: its first 1024 columns are row `b` of
  `i`, its last 4096 columns row `b` of `h`. Each of the four gates has the pre-activation
  `gatePre W bias` at `(b, n)`: the sum over the 5120 columns of the row times row `n` of the gate's
  weight matrix, plus the bias. From these: `it = σ(pre_i)`, `ct = σ(pre_f) · c + it · tanh(pre_c)`,
  `ht = σ(pre_o) · tanh(ct)`; the logits are `ht` against the rows of `Wout` plus `bout`, and the fourth
  result is their log-softmax along the row: the logit less the row's maximum, less the logarithm of the
  sum of the exponentials of those differences.
-/
import Idealize.ShloMosaic.PureOps.Ideal
import Idealize.ShloMosaic.Lib.ValueIdx

noncomputable section

namespace Cert.Lstm

open Idealize.ShloMosaic Idealize.ShloMosaic.ValueIdx

/-- A rank-2 array of extended reals of the given extents, and a rank-1 one. -/
abbrev A2 (a b : Nat) : Type := (⟨2, ![a, b]⟩ : Shape).Idx → EReal
abbrev A1 (a : Nat) : Type := (⟨1, ![a]⟩ : Shape).Idx → EReal

/-- Row `b`, column `j` of the concatenation `[i | h]` along the columns. -/
def xcat (i : A2 1024 1024) (h : A2 1024 4096) (b : Fin 1024) (j : Fin 5120) : EReal :=
  if hj : j.val < 1024 then i (ix2 b ⟨j.val, hj⟩) else h (ix2 b ⟨j.val - 1024, by omega⟩)

/-- A gate's pre-activation at batch row `b` and hidden unit `n`. -/
def gatePre (W : A2 4096 5120) (bias : A1 4096) (i : A2 1024 1024) (h : A2 1024 4096) (b : Fin 1024) (n : Fin 4096) : EReal :=
  (∑ j : Fin 5120, xcat i h b j * W (ix2 n j)) + bias (ix1 n)

/-- The input gate. -/
def itS (i : A2 1024 1024) (h : A2 1024 4096) (Wi : A2 4096 5120) (bi : A1 4096) (b : Fin 1024) (n : Fin 4096) : EReal :=
  Ideal.logistic (gatePre Wi bi i h b n)

/-- The new cell state. -/
def ctS (i : A2 1024 1024) (h c : A2 1024 4096) (Wf : A2 4096 5120) (bf : A1 4096) (Wi : A2 4096 5120) (bi : A1 4096)
    (Wc : A2 4096 5120) (bc : A1 4096) (b : Fin 1024) (n : Fin 4096) : EReal :=
  Ideal.logistic (gatePre Wf bf i h b n) * c (ix2 b n) + itS i h Wi bi b n * Ideal.tanh (gatePre Wc bc i h b n)

/-- The new hidden state. -/
def htS (i : A2 1024 1024) (h c : A2 1024 4096) (Wf : A2 4096 5120) (bf : A1 4096) (Wi : A2 4096 5120) (bi : A1 4096)
    (Wc : A2 4096 5120) (bc : A1 4096) (Wo : A2 4096 5120) (bo : A1 4096) (b : Fin 1024) (n : Fin 4096) : EReal :=
  Ideal.logistic (gatePre Wo bo i h b n) * Ideal.tanh (ctS i h c Wf bf Wi bi Wc bc b n)

/-- The logits of a hidden state `ht` (given as a function of row and unit). -/
def logitS (ht : Fin 1024 → Fin 4096 → EReal) (Wout : A2 4096 4096) (bout : A1 4096) (b : Fin 1024) (o : Fin 4096) : EReal :=
  (∑ j : Fin 4096, ht b j * Wout (ix2 o j)) + bout (ix1 o)

/-- The maximum of a row of 4096 extended reals, folded from `⊥`. -/
def rowMax (z : Fin 4096 → EReal) : EReal := (Finset.univ : Finset (Fin 4096)).fold max ⊥ z

/-- The log-softmax of a row at column `o`. -/
def lsmS (z : Fin 4096 → EReal) (o : Fin 4096) : EReal :=
  (z o - rowMax z) - Ideal.log (∑ o' : Fin 4096, Ideal.exp (z o' - rowMax z))

/-- The fourth result: the log-softmax of the logits of the new hidden state. -/
def outS (i : A2 1024 1024) (h c : A2 1024 4096) (Wf : A2 4096 5120) (bf : A1 4096) (Wi : A2 4096 5120) (bi : A1 4096)
    (Wc : A2 4096 5120) (bc : A1 4096) (Wo : A2 4096 5120) (bo : A1 4096) (Wout : A2 4096 4096) (bout : A1 4096)
    (b : Fin 1024) (o : Fin 4096) : EReal :=
  lsmS (logitS (htS i h c Wf bf Wi bi Wc bc Wo bo) Wout bout b) o

end Cert.Lstm

end
-- ==== Proof.KI.Pay.lean ====
/-
  The two kernels' payloads read at an index, at the ideal values: a change of float format is the identity; a
  product into the zero accumulator is the sum over the contracted axis of the operands' products; the bias row is
  broadcast along the rows; the gates are the logistic and the hyperbolic tangent of the pre-activations; the last
  payload of the output kernel is the row-wise log-softmax.
-/
import proofs.«119333_j60842506715793_2_alg».proof.Proof.Gen.KernelIdeal.Skeleton
import proofs.«119333_j60842506715793_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand.Pay

open Idealize.ShloMosaic Idealize.ShloMosaic.ValueIdx
open Cert.KernelIdeal Cert.KernelIdeal.Gen Cert.Lstm

/-! ## Readings used below -/

section Readings
variable {s : Shape} {φ : FTy}

/-- The pointwise transcendental operations at an index. -/
theorem logistic_apply (a : FVec Ideal s φ) (i : s.Idx) : logistic a i = Ideal.logistic (a i) := rfl
theorem tanh_apply (a : FVec Ideal s φ) (i : s.Idx) : tanh a i = Ideal.tanh (a i) := rfl
theorem exp_apply (a : FVec Ideal s φ) (i : s.Idx) : exp a i = Ideal.exp (a i) := rfl
theorem log_apply (a : FVec Ideal s φ) (i : s.Idx) : log a i = Ideal.log (a i) := rfl

end Readings

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The f32 word of minus infinity is the bottom of the extended reals. -/
theorem ofBits_ninf : Ideal.ofBits .f32 0xFF800000#32 = (⊥ : EReal) := by simp [Ideal.ofBits, Ideal.ieee]

/-- A row index of a `[256, 4096]` array with the column `k` put back is `(r, k)`. -/
theorem lift_row (h : S256x4096.Reduces [1] S256) (r : Fin 256) (k : Fin (S256x4096.size 1)) :
    h.lift (ix1 r) k = ix2 r (⟨k.val, k.isLt⟩ : Fin 4096) := by
  funext c; apply Fin.ext
  fin_cases c <;> rfl

/-- The lane maximum from minus infinity: the row's maximum. -/
theorem rowmax_apply (v : FVec Ideal S256x4096 .f32) (h : S256x4096.Reduces [1] S256) (hφ : FKind.Formats .f32)
    (hm : (0xFF800000#32 : BitVec 32) = FKind.maximumf.neutral .f32 hφ) (r : Fin 256) :
    multiReduction .maximumf [1] S256 v 0xFF800000#32 h hφ hm (ix1 r) = rowMax fun o' => v (ix2 r o') := by
  refine (Ideal.multiReduction_maximumf_single v _ h hφ hm (ix1 r)).trans ?_
  have hf : (v ∘ h.lift (ix1 r)) = fun k : Fin 4096 => v (ix2 r k) := funext fun k => congrArg v (lift_row h r k)
  rw [hf]
  show Finset.fold max (Ideal.ofBits .f32 0xFF800000#32) _ _ = _
  rw [ofBits_ninf]
  rfl

/-- The lane sum from zero: the row's sum. -/
theorem rowsum_apply (v : FVec Ideal S256x4096 .f32) (h : S256x4096.Reduces [1] S256) (hφ : FKind.Formats .f32)
    (ha : (0x00000000#32 : BitVec 32) = FKind.add.neutral .f32 hφ) (r : Fin 256) :
    multiReduction .add [1] S256 v 0x00000000#32 h hφ ha (ix1 r) = ∑ o' : Fin 4096, v (ix2 r o') := by
  refine (Ideal.multiReduction_add_single v _ h hφ ha (ix1 r)).trans ?_
  exact Finset.sum_congr rfl fun k _ => congrArg v (lift_row h r k)

/-- The row-wise log-softmax as the output kernel spells it: the row less its maximum, less the logarithm of the sum of
    the exponentials of those differences, the maximum and the sum each cast to a column and broadcast along the row. -/
theorem lsm_core (v : FVec Ideal S256x4096 .f32) (h : S256x4096.Reduces [1] S256) (hφ : FKind.Formats .f32)
    (hm : (0xFF800000#32 : BitVec 32) = FKind.maximumf.neutral .f32 hφ)
    (ha : (0x00000000#32 : BitVec 32) = FKind.add.neutral .f32 hφ)
    (hc : S256.ShapeCasts S256x1) (hb : S256x1.Broadcasts S256x4096) (r : Fin 256) (o : Fin 4096) :
    subf (subf v (broadcastTo S256x4096 (shapeCast S256x1 (multiReduction .maximumf [1] S256 v 0xFF800000#32 h hφ hm) hc) hb))
      (broadcastTo S256x4096 (log (shapeCast S256x1 (multiReduction .add [1] S256
        (exp (subf v (broadcastTo S256x4096 (shapeCast S256x1 (multiReduction .maximumf [1] S256 v 0xFF800000#32 h hφ hm) hc) hb)))
        0x00000000#32 h hφ ha) hc)) hb) (ix2 r o)
      = lsmS (fun o' => v (ix2 r o')) o := by
  have hsub : ∀ o' : Fin 4096,
      subf v (broadcastTo S256x4096 (shapeCast S256x1 (multiReduction .maximumf [1] S256 v 0xFF800000#32 h hφ hm) hc) hb) (ix2 r o')
        = v (ix2 r o') - rowMax fun o' => v (ix2 r o') := fun o' => by
    rw [subf_apply, broadcastTo_a1_ab_apply, shapeCast_a_a1_apply, rowmax_apply]
  rw [subf_apply, hsub, broadcastTo_a1_ab_apply, log_apply, shapeCast_a_a1_apply, rowsum_apply]
  simp only [exp_apply, hsub]
  rfl

theorem dotG_lhs0 (i : S1024x256.Idx) (q : dot_S1024x1024_S256x1024_S1024x256_1_1_0_0_n_n.contr.Idx) : (dot_S1024x1024_S256x1024_S1024x256_1_1_0_0_n_n.lhsIdx i q 0).val = (i 0).val := by
  unfold DotDims.lhsIdx
  rw [dif_neg (show ¬(0 : Fin S1024x1024.rank) ∈ dot_S1024x1024_S256x1024_S1024x256_1_1_0_0_n_n.lhsBatch by decide),
    dif_pos (show (0 : Fin S1024x1024.rank) ∈ dot_S1024x1024_S256x1024_S1024x256_1_1_0_0_n_n.lhsNonContracting by decide)]
  rfl
theorem dotG_lhs1 (i : S1024x256.Idx) (q : dot_S1024x1024_S256x1024_S1024x256_1_1_0_0_n_n.contr.Idx) : (dot_S1024x1024_S256x1024_S1024x256_1_1_0_0_n_n.lhsIdx i q 1).val = (q ⟨0, by decide⟩).val :=
  dot_S1024x1024_S256x1024_S1024x256_1_1_0_0_n_n.lhsIdx_val_of_single rfl i q
theorem dotG_rhs0 (i : S1024x256.Idx) (q : dot_S1024x1024_S256x1024_S1024x256_1_1_0_0_n_n.contr.Idx) : (dot_S1024x1024_S256x1024_S1024x256_1_1_0_0_n_n.rhsIdx i q 0).val = (i 1).val := by
  unfold DotDims.rhsIdx
  rw [dif_neg (show ¬(0 : Fin S256x1024.rank) ∈ dot_S1024x1024_S256x1024_S1024x256_1_1_0_0_n_n.rhsBatch by decide),
    dif_pos (show (0 : Fin S256x1024.rank) ∈ dot_S1024x1024_S256x1024_S1024x256_1_1_0_0_n_n.rhsNonContracting by decide)]
  rfl
theorem dotG_rhs1 (i : S1024x256.Idx) (q : dot_S1024x1024_S256x1024_S1024x256_1_1_0_0_n_n.contr.Idx) : (dot_S1024x1024_S256x1024_S1024x256_1_1_0_0_n_n.rhsIdx i q 1).val = (q ⟨0, by decide⟩).val :=
  dot_S1024x1024_S256x1024_S1024x256_1_1_0_0_n_n.rhsIdx_val_of_single rfl i q

/-- Both operands contracted along their columns, into the zero accumulator: at `(r, n)` the sum over the 1024 columns
    of the left operand's row `r` times the right operand's row `n`. -/
theorem dotG_zero_apply {φ₁ φ₂ : FTy} (x : FVec Ideal S1024x1024 φ₁) (w : FVec Ideal S256x1024 φ₂) (r : Fin 1024) (n : Fin 256) :
    matmul dot_S1024x1024_S256x1024_S1024x256_1_1_0_0_n_n none x w (constant (F := Ideal) S1024x256 .f32 0x00000000#32) (ix2 r n)
      = ∑ j : Fin 1024, x (ix2 r j) * w (ix2 n j) := by
  simp only [matmul]
  rw [Ideal.matmul_constant_zero_apply, ← Equiv.sum_comp (contrEquiv1 dot_S1024x1024_S256x1024_S1024x256_1_1_0_0_n_n 1024 rfl rfl).symm]
  refine Finset.sum_congr rfl fun k _ => ?_
  have hk := contrEquiv1_symm_val dot_S1024x1024_S256x1024_S1024x256_1_1_0_0_n_n 1024 rfl rfl k
  have el : dot_S1024x1024_S256x1024_S1024x256_1_1_0_0_n_n.lhsIdx (ix2 r n) ((contrEquiv1 dot_S1024x1024_S256x1024_S1024x256_1_1_0_0_n_n 1024 rfl rfl).symm k) = ix2 r k :=
    funext fun a => Fin.ext (by
      match a with
      | ⟨0, _⟩ => exact dotG_lhs0 _ _
      | ⟨1, _⟩ => exact (dotG_lhs1 _ _).trans hk)
  have er : dot_S1024x1024_S256x1024_S1024x256_1_1_0_0_n_n.rhsIdx (ix2 r n) ((contrEquiv1 dot_S1024x1024_S256x1024_S1024x256_1_1_0_0_n_n 1024 rfl rfl).symm k) = ix2 n k :=
    funext fun a => Fin.ext (by
      match a with
      | ⟨0, _⟩ => exact dotG_rhs0 _ _
      | ⟨1, _⟩ => exact (dotG_rhs1 _ _).trans hk)
  rw [el, er]

theorem dotO_lhs0 (i : S256x4096.Idx) (q : dot_S256x256_S4096x256_S256x4096_1_1_0_0_n_n.contr.Idx) : (dot_S256x256_S4096x256_S256x4096_1_1_0_0_n_n.lhsIdx i q 0).val = (i 0).val := by
  unfold DotDims.lhsIdx
  rw [dif_neg (show ¬(0 : Fin S256x256.rank) ∈ dot_S256x256_S4096x256_S256x4096_1_1_0_0_n_n.lhsBatch by decide),
    dif_pos (show (0 : Fin S256x256.rank) ∈ dot_S256x256_S4096x256_S256x4096_1_1_0_0_n_n.lhsNonContracting by decide)]
  rfl
theorem dotO_lhs1 (i : S256x4096.Idx) (q : dot_S256x256_S4096x256_S256x4096_1_1_0_0_n_n.contr.Idx) : (dot_S256x256_S4096x256_S256x4096_1_1_0_0_n_n.lhsIdx i q 1).val = (q ⟨0, by decide⟩).val :=
  dot_S256x256_S4096x256_S256x4096_1_1_0_0_n_n.lhsIdx_val_of_single rfl i q
theorem dotO_rhs0 (i : S256x4096.Idx) (q : dot_S256x256_S4096x256_S256x4096_1_1_0_0_n_n.contr.Idx) : (dot_S256x256_S4096x256_S256x4096_1_1_0_0_n_n.rhsIdx i q 0).val = (i 1).val := by
  unfold DotDims.rhsIdx
  rw [dif_neg (show ¬(0 : Fin S4096x256.rank) ∈ dot_S256x256_S4096x256_S256x4096_1_1_0_0_n_n.rhsBatch by decide),
    dif_pos (show (0 : Fin S4096x256.rank) ∈ dot_S256x256_S4096x256_S256x4096_1_1_0_0_n_n.rhsNonContracting by decide)]
  rfl
theorem dotO_rhs1 (i : S256x4096.Idx) (q : dot_S256x256_S4096x256_S256x4096_1_1_0_0_n_n.contr.Idx) : (dot_S256x256_S4096x256_S256x4096_1_1_0_0_n_n.rhsIdx i q 1).val = (q ⟨0, by decide⟩).val :=
  dot_S256x256_S4096x256_S256x4096_1_1_0_0_n_n.rhsIdx_val_of_single rfl i q

/-- Both operands contracted along their columns, into the zero accumulator: at `(r, n)` the sum over the 256 columns
    of the left operand's row `r` times the right operand's row `n`. -/
theorem dotO_zero_apply {φ₁ φ₂ : FTy} (x : FVec Ideal S256x256 φ₁) (w : FVec Ideal S4096x256 φ₂) (r : Fin 256) (n : Fin 4096) :
    matmul dot_S256x256_S4096x256_S256x4096_1_1_0_0_n_n none x w (constant (F := Ideal) S256x4096 .f32 0x00000000#32) (ix2 r n)
      = ∑ j : Fin 256, x (ix2 r j) * w (ix2 n j) := by
  simp only [matmul]
  rw [Ideal.matmul_constant_zero_apply, ← Equiv.sum_comp (contrEquiv1 dot_S256x256_S4096x256_S256x4096_1_1_0_0_n_n 256 rfl rfl).symm]
  refine Finset.sum_congr rfl fun k _ => ?_
  have hk := contrEquiv1_symm_val dot_S256x256_S4096x256_S256x4096_1_1_0_0_n_n 256 rfl rfl k
  have el : dot_S256x256_S4096x256_S256x4096_1_1_0_0_n_n.lhsIdx (ix2 r n) ((contrEquiv1 dot_S256x256_S4096x256_S256x4096_1_1_0_0_n_n 256 rfl rfl).symm k) = ix2 r k :=
    funext fun a => Fin.ext (by
      match a with
      | ⟨0, _⟩ => exact dotO_lhs0 _ _
      | ⟨1, _⟩ => exact (dotO_lhs1 _ _).trans hk)
  have er : dot_S256x256_S4096x256_S256x4096_1_1_0_0_n_n.rhsIdx (ix2 r n) ((contrEquiv1 dot_S256x256_S4096x256_S256x4096_1_1_0_0_n_n 256 rfl rfl).symm k) = ix2 n k :=
    funext fun a => Fin.ext (by
      match a with
      | ⟨0, _⟩ => exact dotO_rhs0 _ _
      | ⟨1, _⟩ => exact (dotO_rhs1 _ _).trans hk)
  rw [el, er]

/-! ## The gate kernel -/

/-- The zero splats the accumulators restart from. -/
theorem pay6_apply (y : S1024x256.Idx) : k0_pay6 (F := Ideal) y = 0 := by
  unfold k0_pay6
  simp only [shapeCast_self, broadcast_apply]
  exact Ideal.ofBits_zero_f32
theorem pay7_apply (y : S1024x256.Idx) : k0_pay7 (F := Ideal) y = 0 := by
  unfold k0_pay7
  simp only [shapeCast_self, broadcast_apply]
  exact Ideal.ofBits_zero_f32
theorem pay8_apply (y : S1024x256.Idx) : k0_pay8 (F := Ideal) y = 0 := by
  unfold k0_pay8
  simp only [shapeCast_self, broadcast_apply]
  exact Ideal.ofBits_zero_f32
theorem pay9_apply (y : S1024x256.Idx) : k0_pay9 (F := Ideal) y = 0 := by
  unfold k0_pay9
  simp only [shapeCast_self, broadcast_apply]
  exact Ideal.ofBits_zero_f32

/-- The staged row block: the block of `i` where the select's condition holds, the block of `h` where it does not. -/
theorem pay10_first (i : grid0.Coords) (xi xh : Vec Ideal S1024x1024 .f32)
    (hsel : Scalar.cmpi .eq (BitVec.ofNat 32 (i 1).val) 0#32 = 1#1) (y : S1024x1024.Idx) :
    k0_pay10 (F := Ideal) i xi xh y = xi y := by
  show truncf (F := Ideal) .bf16 (Scalar.select (Scalar.cmpi .eq (BitVec.ofNat 32 (i 1).val) 0#32) xi xh) _ y = xi y
  rw [hsel, select_one]
  rfl
theorem pay10_later (i : grid0.Coords) (xi xh : Vec Ideal S1024x1024 .f32)
    (hsel : Scalar.cmpi .eq (BitVec.ofNat 32 (i 1).val) 0#32 = 0#1) (y : S1024x1024.Idx) :
    k0_pay10 (F := Ideal) i xi xh y = xh y := by
  show truncf (F := Ideal) .bf16 (Scalar.select (Scalar.cmpi .eq (BitVec.ofNat 32 (i 1).val) 0#32) xi xh) _ y = xh y
  rw [hsel, select_zero]
  rfl

/-- The weight blocks pass through the change of format unchanged. -/
theorem pay11_apply (w : Vec Ideal S256x1024 .f32) (y : S256x1024.Idx) : k0_pay11 (F := Ideal) w y = w y := rfl
theorem pay12_apply (w : Vec Ideal S256x1024 .f32) (y : S256x1024.Idx) : k0_pay12 (F := Ideal) w y = w y := rfl

/-- One accumulation step: the accumulator plus the sum over the 1024 staged columns of row times weight row. -/
theorem pay13_apply (i : grid0.Coords) (xi xh : Vec Ideal S1024x1024 .f32) (w : Vec Ideal S256x1024 .f32) (s : Vec Ideal S1024x256 .f32)
    (r : Fin 1024) (n : Fin 256) :
    k0_pay13 (F := Ideal) i xi xh w s (ix2 r n) = s (ix2 r n) + ∑ j : Fin 1024, k0_pay10 (F := Ideal) i xi xh (ix2 r j) * w (ix2 n j) := by
  unfold k0_pay13
  simp only [shapeCast_self]
  rw [addf_apply, dotG_zero_apply]
  rfl
theorem pay14_apply (i : grid0.Coords) (xi xh : Vec Ideal S1024x1024 .f32) (w : Vec Ideal S256x1024 .f32) (s : Vec Ideal S1024x256 .f32)
    (r : Fin 1024) (n : Fin 256) :
    k0_pay14 (F := Ideal) i xi xh w s (ix2 r n) = s (ix2 r n) + ∑ j : Fin 1024, k0_pay10 (F := Ideal) i xi xh (ix2 r j) * w (ix2 n j) := by
  unfold k0_pay14
  simp only [shapeCast_self]
  rw [addf_apply, dotG_zero_apply]
  rfl
theorem pay1_apply (x : FVec Ideal S1024x1024 .bf16) (w : FVec Ideal S256x1024 .bf16) (s : Vec Ideal S1024x256 .f32)
    (r : Fin 1024) (n : Fin 256) :
    k0_pay1 (F := Ideal) x w s (ix2 r n) = s (ix2 r n) + ∑ j : Fin 1024, x (ix2 r j) * w (ix2 n j) := by
  unfold k0_pay1
  simp only [shapeCast_self]
  rw [addf_apply, dotG_zero_apply]
theorem pay2_apply (x : FVec Ideal S1024x1024 .bf16) (w : FVec Ideal S256x1024 .bf16) (s : Vec Ideal S1024x256 .f32)
    (r : Fin 1024) (n : Fin 256) :
    k0_pay2 (F := Ideal) x w s (ix2 r n) = s (ix2 r n) + ∑ j : Fin 1024, x (ix2 r j) * w (ix2 n j) := by
  unfold k0_pay2
  simp only [shapeCast_self]
  rw [addf_apply, dotG_zero_apply]

/-- The input gate from its accumulator and bias row. -/
theorem pay3_apply (s17 : Vec Ideal S1024x256 .f32) (b9 : Vec Ideal S1x256 .f32) (r : Fin 1024) (n : Fin 256) :
    k0_pay3 (F := Ideal) s17 b9 (ix2 r n) = Ideal.logistic (s17 (ix2 r n) + b9 (ix2 0 n)) := by
  unfold k0_pay3
  simp only [shapeCast_self]
  rw [logistic_apply, addf_apply, broadcastTo_1b_ab_apply]
/-- The new cell state. -/
theorem pay4_apply (s16 : Vec Ideal S1024x256 .f32) (b8 : Vec Ideal S1x256 .f32) (s17 : Vec Ideal S1024x256 .f32) (b9 : Vec Ideal S1x256 .f32)
    (s18 : Vec Ideal S1024x256 .f32) (b10 : Vec Ideal S1x256 .f32) (cb : Vec Ideal S1024x256 .f32) (r : Fin 1024) (n : Fin 256) :
    k0_pay4 (F := Ideal) s16 b8 s17 b9 s18 b10 cb (ix2 r n)
      = Ideal.logistic (s16 (ix2 r n) + b8 (ix2 0 n)) * cb (ix2 r n)
        + Ideal.logistic (s17 (ix2 r n) + b9 (ix2 0 n)) * Ideal.tanh (s18 (ix2 r n) + b10 (ix2 0 n)) := by
  unfold k0_pay4
  simp only [shapeCast_self]
  simp only [addf_apply, mulf_apply, logistic_apply, tanh_apply, broadcastTo_1b_ab_apply, pay3_apply]
/-- The new hidden state. -/
theorem pay5_apply (s16 : Vec Ideal S1024x256 .f32) (b8 : Vec Ideal S1x256 .f32) (s17 : Vec Ideal S1024x256 .f32) (b9 : Vec Ideal S1x256 .f32)
    (s18 : Vec Ideal S1024x256 .f32) (b10 : Vec Ideal S1x256 .f32) (s19 : Vec Ideal S1024x256 .f32) (b11 : Vec Ideal S1x256 .f32)
    (cb : Vec Ideal S1024x256 .f32) (r : Fin 1024) (n : Fin 256) :
    k0_pay5 (F := Ideal) s16 b8 s17 b9 s18 b10 s19 b11 cb (ix2 r n)
      = Ideal.logistic (s19 (ix2 r n) + b11 (ix2 0 n)) * Ideal.tanh (k0_pay4 (F := Ideal) s16 b8 s17 b9 s18 b10 cb (ix2 r n)) := by
  unfold k0_pay5
  simp only [shapeCast_self]
  simp only [addf_apply, mulf_apply, logistic_apply, tanh_apply, broadcastTo_1b_ab_apply]

/-! ## The output kernel -/

theorem k1pay1_apply (y : S256x4096.Idx) : k1_pay1 (F := Ideal) y = 0 := by
  unfold k1_pay1
  simp only [shapeCast_self, broadcast_apply]
  exact Ideal.ofBits_zero_f32
/-- One accumulation step of the logits. -/
theorem k1pay2_apply (x0 : Vec Ideal S256x256 .f32) (x1 : Vec Ideal S4096x256 .f32) (s : Vec Ideal S256x4096 .f32) (r : Fin 256) (o : Fin 4096) :
    k1_pay2 (F := Ideal) x0 x1 s (ix2 r o) = s (ix2 r o) + ∑ j : Fin 256, x0 (ix2 r j) * x1 (ix2 o j) := by
  unfold k1_pay2
  simp only [shapeCast_self]
  rw [addf_apply, dotO_zero_apply]
  rfl
/-- The log-softmax of the accumulator plus the bias row, along the row. -/
theorem k1pay3_apply (s : Vec Ideal S256x4096 .f32) (b : Vec Ideal S1x4096 .f32) (r : Fin 256) (o : Fin 4096) :
    k1_pay3 (F := Ideal) s b (ix2 r o) = lsmS (fun o' => s (ix2 r o') + b (ix2 0 o')) o := by
  unfold k1_pay3
  refine (lsm_core _ _ _ _ _ _ _ r o).trans ?_
  exact congrArg (fun z => lsmS z o) (funext fun o' => by
    rw [addf_apply, shapeCast_self, broadcastTo_1b_ab_apply])

end Cert.KernelIdeal.Hand.Pay

end
-- ==== Proof.KI.GateSum.lean ====
/-
  The arithmetic of a gate's pre-activation cut into five blocks of 1024 columns: the sum over the 5120 columns of the
  concatenated row times a weight row is the sum over the five blocks of the blocks' sums, and the running sums over the
  first blocks, started from zero and extended a block at a time, end at the whole sum.
-/
import proofs.«119333_j60842506715793_2_alg».proof.Proof.Spec
import Mathlib.Algebra.BigOperators.Fin
import Mathlib.Logic.Equiv.Fin.Basic

noncomputable section

namespace Cert.Lstm

open Idealize.ShloMosaic Idealize.ShloMosaic.ValueIdx

/-- A sum over `K * N` indices is the sum over `K` blocks of the sums over the `N` indices of each block. -/
theorem sum_blocks {M : Type} [AddCommMonoid M] (K N : ℕ) (f : Fin (K * N) → M)
    (hlt : ∀ (k : Fin K) (j : Fin N), k.val * N + j.val < K * N) :
    ∑ k : Fin K, ∑ j : Fin N, f ⟨k.val * N + j.val, hlt k j⟩ = ∑ J : Fin (K * N), f J := by
  rw [← Equiv.sum_comp finProdFinEquiv f, Fintype.sum_prod_type]
  refine Finset.sum_congr rfl fun k _ => Finset.sum_congr rfl fun j _ => congrArg f (Fin.ext ?_)
  show k.val * N + j.val = j.val + N * k.val
  rw [Nat.mul_comm, Nat.add_comm]

/-- Block `k`'s share of a row of 5120 products. -/
def blockTerm (x w : Fin 5120 → EReal) (k : Fin 5) : EReal :=
  ∑ j : Fin 1024, x ⟨k.val * 1024 + j.val, by omega⟩ * w ⟨k.val * 1024 + j.val, by omega⟩

/-- The five blocks' shares add up to the row's sum. -/
theorem sum_blockTerm (x w : Fin 5120 → EReal) : ∑ k : Fin 5, blockTerm x w k = ∑ J : Fin 5120, x J * w J :=
  sum_blocks 5 1024 (fun J => x J * w J) fun k j => by omega

/-- The running sum of the first `k + 1` of five terms. -/
def psum (g : Fin 5 → EReal) (k : ℕ) : EReal :=
  ∑ k' ∈ Finset.range (k + 1), if h : k' < 5 then g ⟨k', h⟩ else 0

theorem psum_zero (g : Fin 5 → EReal) : 0 + g 0 = psum g 0 := by
  unfold psum
  rw [Finset.sum_range_one, dif_pos (by omega : 0 < 5), zero_add]
  rfl

theorem psum_succ (g : Fin 5 → EReal) (k : ℕ) (hk : k + 1 < 5) : psum g k + g ⟨k + 1, hk⟩ = psum g (k + 1) := by
  unfold psum
  rw [Finset.sum_range_succ _ (k + 1), dif_pos hk]

theorem psum_four (g : Fin 5 → EReal) : psum g 4 = ∑ k : Fin 5, g k := by
  unfold psum
  rw [Finset.sum_range]
  exact Finset.sum_congr rfl fun k _ => dif_pos k.isLt

/-- A gate's share of block `k`: row `b` of the concatenation against row `u` of the weights, over block `k`'s columns. -/
def gterm (i : A2 1024 1024) (h : A2 1024 4096) (W : A2 4096 5120) (b : Fin 1024) (u : Fin 4096) (k : Fin 5) : EReal :=
  blockTerm (xcat i h b) (fun J => W (ix2 u J)) k

/-- The running sum over all five blocks plus the bias is the gate's pre-activation. -/
theorem psum_gterm (i : A2 1024 1024) (h : A2 1024 4096) (W : A2 4096 5120) (bias : A1 4096) (b : Fin 1024) (u : Fin 4096) :
    psum (gterm i h W b u) 4 + bias (ix1 u) = gatePre W bias i h b u := by
  unfold gatePre
  rw [psum_four]
  exact congrArg (· + bias (ix1 u)) (sum_blockTerm (xcat i h b) fun J => W (ix2 u J))

end Cert.Lstm

end
-- ==== Proof.KI.Val0.lean ====
/-
  The first kernel's three result arrays as the specification's functions. Its grid is sixteen tiles of 256 hidden
  units by five steps over the columns of the concatenated row `[i | h]`, 1024 columns a step. At a point each gate's
  accumulator takes the product of the staged row block (the block of `i` at the first step, block `k - 1` of `h` at step
  `k`) with the gate's weight block; so after step `k` of a tile it holds, at `(r, n')`, the sum over the blocks up to
  `k` of row `r` of the concatenation against the weight row of hidden unit `256 · tile + n'` — by induction on the
  point, restarting from zero at every tile's first step. After the last step the sum is over all 5120 columns; with
  the bias block (a block of the bias vector reshaped to one row) it is the gate's pre-activation, and the three blocks
  stored there are the blocks of the input gate, the new cell state and the new hidden state. The tiles' last steps
  write back blocks that cover the arrays.
-/
import proofs.«119333_j60842506715793_2_alg».proof.Proof.KI.Run
import proofs.«119333_j60842506715793_2_alg».proof.Proof.KI.Pay
import proofs.«119333_j60842506715793_2_alg».proof.Proof.KI.GateSum
import proofs.«119333_j60842506715793_2_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Lstm

local notation "𝕄" => MT nD τ sig Unit (Elt Ideal) ℕ (UR sig nD τ) ℕ

/-! ## The grid's arithmetic -/

theorem lt80 (t : Fin cfg0.N) : t.val < 80 := Nat.lt_of_lt_of_eq t.isLt N_0

/-- The hidden unit that column `n'` of point `t`'s tile is: the tile index `t / 5` times 256 plus the column. -/
def hu (t : Fin cfg0.N) (n' : Fin 256) : Fin 4096 := ⟨t.val / 5 * 256 + n'.val, by have := lt80 t; omega⟩
/-- The column of the concatenated row that staged column `j` at point `t` is: the step `t % 5` times 1024 plus the column. -/
def kc (t : Fin cfg0.N) (j : Fin 1024) : Fin 5120 := ⟨t.val % 5 * 1024 + j.val, by omega⟩

/-- The windows' index maps over the grid. -/
theorem idx0_0 : ∀ t : Fin cfg0.N, win0_0.index t 0 = 0 ∧ win0_0.index t 1 = 0 :=
  (by decide +kernel : ∀ t : Fin grid0.N, _)
theorem idx0_1 : ∀ t : Fin cfg0.N, win0_1.index t 0 = 0 ∧ win0_1.index t 1 = t.val % 5 - 1 :=
  (by decide +kernel : ∀ t : Fin grid0.N, _)
theorem idx0_2 : ∀ t : Fin cfg0.N, win0_2.index t 0 = t.val / 5 ∧ win0_2.index t 1 = t.val % 5 :=
  (by decide +kernel : ∀ t : Fin grid0.N, _)
theorem idx0_3 : ∀ t : Fin cfg0.N, win0_3.index t 0 = t.val / 5 ∧ win0_3.index t 1 = t.val % 5 :=
  (by decide +kernel : ∀ t : Fin grid0.N, _)
theorem idx0_4 : ∀ t : Fin cfg0.N, win0_4.index t 0 = t.val / 5 ∧ win0_4.index t 1 = t.val % 5 :=
  (by decide +kernel : ∀ t : Fin grid0.N, _)
theorem idx0_5 : ∀ t : Fin cfg0.N, win0_5.index t 0 = t.val / 5 ∧ win0_5.index t 1 = t.val % 5 :=
  (by decide +kernel : ∀ t : Fin grid0.N, _)
theorem idx0_6 : ∀ t : Fin cfg0.N, win0_6.index t 0 = 0 ∧ win0_6.index t 1 = t.val / 5 :=
  (by decide +kernel : ∀ t : Fin grid0.N, _)
theorem idx0_7 : ∀ t : Fin cfg0.N, win0_7.index t 0 = 0 ∧ win0_7.index t 1 = t.val / 5 :=
  (by decide +kernel : ∀ t : Fin grid0.N, _)
theorem idx0_8 : ∀ t : Fin cfg0.N, win0_8.index t 0 = 0 ∧ win0_8.index t 1 = t.val / 5 :=
  (by decide +kernel : ∀ t : Fin grid0.N, _)
theorem idx0_9 : ∀ t : Fin cfg0.N, win0_9.index t 0 = 0 ∧ win0_9.index t 1 = t.val / 5 :=
  (by decide +kernel : ∀ t : Fin grid0.N, _)
theorem idx0_10 : ∀ t : Fin cfg0.N, win0_10.index t 0 = 0 ∧ win0_10.index t 1 = t.val / 5 :=
  (by decide +kernel : ∀ t : Fin grid0.N, _)
theorem idx0_11 : ∀ t : Fin cfg0.N, win0_11.index t 0 = 0 ∧ win0_11.index t 1 = t.val / 5 :=
  (by decide +kernel : ∀ t : Fin grid0.N, _)
theorem idx0_12 : ∀ t : Fin cfg0.N, win0_12.index t 0 = 0 ∧ win0_12.index t 1 = t.val / 5 :=
  (by decide +kernel : ∀ t : Fin grid0.N, _)
theorem idx0_13 : ∀ t : Fin cfg0.N, win0_13.index t 0 = 0 ∧ win0_13.index t 1 = t.val / 5 :=
  (by decide +kernel : ∀ t : Fin grid0.N, _)

/-- The select of the staged row block is on the step being the first. -/
theorem sel_first : ∀ t : Fin cfg0.N, t.val % 5 = 0 → Scalar.cmpi .eq (BitVec.ofNat 32 ((grid0.coords t) 1).val) 0#32 = 1#1 :=
  (by decide +kernel : ∀ t : Fin grid0.N, _)
theorem sel_later : ∀ t : Fin cfg0.N, ¬t.val % 5 = 0 → Scalar.cmpi .eq (BitVec.ofNat 32 ((grid0.coords t) 1).val) 0#32 = 0#1 :=
  (by decide +kernel : ∀ t : Fin grid0.N, _)

/-! ## The running sums as values -/

theorem first_val (g : Fin 5 → EReal) (k : ℕ) (hk : k < 5) (h0 : k = 0) (s v : EReal) (hs : s = 0) (hv : v = g ⟨k, hk⟩) :
    s + v = psum g k := by
  subst h0 hs hv; exact psum_zero g
theorem next_val (g : Fin 5 → EReal) (k : ℕ) (hk : k < 5) (h0 : ¬k = 0) (s v : EReal) (hs : s = psum g (k - 1)) (hv : v = g ⟨k, hk⟩) :
    s + v = psum g k := by
  obtain ⟨k', rfl⟩ : ∃ k', k = k' + 1 := ⟨k - 1, by omega⟩
  rw [Nat.add_sub_cancel] at hs
  subst hs hv
  exact psum_succ g k' hk

/-! ## The blocks read at a coordinate -/

section Blocks

variable (V : (c : Dev nD) → (b : Ref sig .tc) → Buf (Elt Ideal) ((c : Thread nD τ).loc b))

theorem blk0_0 (c : Dev nD) (t : Fin cfg0.N) (r j : Fin 1024) :
    (iblk0 V c 0 t : Vec Ideal S1024x1024 .f32) (ix2 r j) = (V c main_arg0 : S1024x1024.Idx → EReal) (ix2 r j) := by
  obtain ⟨e0, e1⟩ := idx0_0 t
  unfold iblk0
  rw [View.read_apply]
  show V c main_arg0 _ = V c main_arg0 _
  congr 1
  funext a; apply Fin.ext
  match a with
  | ⟨0, _⟩ => show win0_0.index t 0 * 1024 + 1 * r.val = r.val; rw [e0]; omega
  | ⟨1, _⟩ => show win0_0.index t 1 * 1024 + 1 * j.val = j.val; rw [e1]; omega

theorem blk0_1 (c : Dev nD) (t : Fin cfg0.N) (h0 : ¬t.val % 5 = 0) (r j : Fin 1024) :
    (iblk0 V c 1 t : Vec Ideal S1024x1024 .f32) (ix2 r j)
      = (V c main_arg1 : S1024x4096.Idx → EReal) (ix2 r ⟨(t.val % 5 - 1) * 1024 + j.val, by omega⟩) := by
  obtain ⟨e0, e1⟩ := idx0_1 t
  unfold iblk0
  rw [View.read_apply]
  show V c main_arg1 _ = V c main_arg1 _
  congr 1
  funext a; apply Fin.ext
  match a with
  | ⟨0, _⟩ => show win0_1.index t 0 * 1024 + 1 * r.val = r.val; rw [e0]; omega
  | ⟨1, _⟩ => show win0_1.index t 1 * 1024 + 1 * j.val = (t.val % 5 - 1) * 1024 + j.val; rw [e1]; omega

theorem blk0_2 (c : Dev nD) (t : Fin cfg0.N) (n' : Fin 256) (j : Fin 1024) :
    (iblk0 V c 2 t : Vec Ideal S256x1024 .f32) (ix2 n' j) = (V c main_arg3 : S4096x5120.Idx → EReal) (ix2 (hu t n') (kc t j)) := by
  obtain ⟨e0, e1⟩ := idx0_2 t
  unfold iblk0
  rw [View.read_apply]
  show V c main_arg3 _ = V c main_arg3 _
  congr 1
  funext a; apply Fin.ext
  match a with
  | ⟨0, _⟩ => show win0_2.index t 0 * 256 + 1 * n'.val = t.val / 5 * 256 + n'.val; rw [e0]; omega
  | ⟨1, _⟩ => show win0_2.index t 1 * 1024 + 1 * j.val = t.val % 5 * 1024 + j.val; rw [e1]; omega

theorem blk0_3 (c : Dev nD) (t : Fin cfg0.N) (n' : Fin 256) (j : Fin 1024) :
    (iblk0 V c 3 t : Vec Ideal S256x1024 .f32) (ix2 n' j) = (V c main_arg5 : S4096x5120.Idx → EReal) (ix2 (hu t n') (kc t j)) := by
  obtain ⟨e0, e1⟩ := idx0_3 t
  unfold iblk0
  rw [View.read_apply]
  show V c main_arg5 _ = V c main_arg5 _
  congr 1
  funext a; apply Fin.ext
  match a with
  | ⟨0, _⟩ => show win0_3.index t 0 * 256 + 1 * n'.val = t.val / 5 * 256 + n'.val; rw [e0]; omega
  | ⟨1, _⟩ => show win0_3.index t 1 * 1024 + 1 * j.val = t.val % 5 * 1024 + j.val; rw [e1]; omega

theorem blk0_4 (c : Dev nD) (t : Fin cfg0.N) (n' : Fin 256) (j : Fin 1024) :
    (iblk0 V c 4 t : Vec Ideal S256x1024 .f32) (ix2 n' j) = (V c main_arg7 : S4096x5120.Idx → EReal) (ix2 (hu t n') (kc t j)) := by
  obtain ⟨e0, e1⟩ := idx0_4 t
  unfold iblk0
  rw [View.read_apply]
  show V c main_arg7 _ = V c main_arg7 _
  congr 1
  funext a; apply Fin.ext
  match a with
  | ⟨0, _⟩ => show win0_4.index t 0 * 256 + 1 * n'.val = t.val / 5 * 256 + n'.val; rw [e0]; omega
  | ⟨1, _⟩ => show win0_4.index t 1 * 1024 + 1 * j.val = t.val % 5 * 1024 + j.val; rw [e1]; omega

theorem blk0_5 (c : Dev nD) (t : Fin cfg0.N) (n' : Fin 256) (j : Fin 1024) :
    (iblk0 V c 5 t : Vec Ideal S256x1024 .f32) (ix2 n' j) = (V c main_arg9 : S4096x5120.Idx → EReal) (ix2 (hu t n') (kc t j)) := by
  obtain ⟨e0, e1⟩ := idx0_5 t
  unfold iblk0
  rw [View.read_apply]
  show V c main_arg9 _ = V c main_arg9 _
  congr 1
  funext a; apply Fin.ext
  match a with
  | ⟨0, _⟩ => show win0_5.index t 0 * 256 + 1 * n'.val = t.val / 5 * 256 + n'.val; rw [e0]; omega
  | ⟨1, _⟩ => show win0_5.index t 1 * 1024 + 1 * j.val = t.val % 5 * 1024 + j.val; rw [e1]; omega

theorem blk0_6 (c : Dev nD) (t : Fin cfg0.N) (n' : Fin 256) :
    (iblk0 V c 6 t : Vec Ideal S1x256 .f32) (ix2 (0 : Fin 1) n') = (V c main_v0 : S1x4096.Idx → EReal) (ix2 (0 : Fin 1) (hu t n')) := by
  obtain ⟨e0, e1⟩ := idx0_6 t
  unfold iblk0
  rw [View.read_apply]
  show V c main_v0 _ = V c main_v0 _
  congr 1
  funext a; apply Fin.ext
  match a with
  | ⟨0, _⟩ => show win0_6.index t 0 * 1 + 1 * 0 = 0; rw [e0]
  | ⟨1, _⟩ => show win0_6.index t 1 * 256 + 1 * n'.val = t.val / 5 * 256 + n'.val; rw [e1]; omega

theorem blk0_7 (c : Dev nD) (t : Fin cfg0.N) (n' : Fin 256) :
    (iblk0 V c 7 t : Vec Ideal S1x256 .f32) (ix2 (0 : Fin 1) n') = (V c main_v1 : S1x4096.Idx → EReal) (ix2 (0 : Fin 1) (hu t n')) := by
  obtain ⟨e0, e1⟩ := idx0_7 t
  unfold iblk0
  rw [View.read_apply]
  show V c main_v1 _ = V c main_v1 _
  congr 1
  funext a; apply Fin.ext
  match a with
  | ⟨0, _⟩ => show win0_7.index t 0 * 1 + 1 * 0 = 0; rw [e0]
  | ⟨1, _⟩ => show win0_7.index t 1 * 256 + 1 * n'.val = t.val / 5 * 256 + n'.val; rw [e1]; omega

theorem blk0_8 (c : Dev nD) (t : Fin cfg0.N) (n' : Fin 256) :
    (iblk0 V c 8 t : Vec Ideal S1x256 .f32) (ix2 (0 : Fin 1) n') = (V c main_v2 : S1x4096.Idx → EReal) (ix2 (0 : Fin 1) (hu t n')) := by
  obtain ⟨e0, e1⟩ := idx0_8 t
  unfold iblk0
  rw [View.read_apply]
  show V c main_v2 _ = V c main_v2 _
  congr 1
  funext a; apply Fin.ext
  match a with
  | ⟨0, _⟩ => show win0_8.index t 0 * 1 + 1 * 0 = 0; rw [e0]
  | ⟨1, _⟩ => show win0_8.index t 1 * 256 + 1 * n'.val = t.val / 5 * 256 + n'.val; rw [e1]; omega

theorem blk0_9 (c : Dev nD) (t : Fin cfg0.N) (n' : Fin 256) :
    (iblk0 V c 9 t : Vec Ideal S1x256 .f32) (ix2 (0 : Fin 1) n') = (V c main_v3 : S1x4096.Idx → EReal) (ix2 (0 : Fin 1) (hu t n')) := by
  obtain ⟨e0, e1⟩ := idx0_9 t
  unfold iblk0
  rw [View.read_apply]
  show V c main_v3 _ = V c main_v3 _
  congr 1
  funext a; apply Fin.ext
  match a with
  | ⟨0, _⟩ => show win0_9.index t 0 * 1 + 1 * 0 = 0; rw [e0]
  | ⟨1, _⟩ => show win0_9.index t 1 * 256 + 1 * n'.val = t.val / 5 * 256 + n'.val; rw [e1]; omega

theorem blk0_10 (c : Dev nD) (t : Fin cfg0.N) (r : Fin 1024) (n' : Fin 256) :
    (iblk0 V c 10 t : Vec Ideal S1024x256 .f32) (ix2 r n') = (V c main_arg2 : S1024x4096.Idx → EReal) (ix2 r (hu t n')) := by
  obtain ⟨e0, e1⟩ := idx0_10 t
  unfold iblk0
  rw [View.read_apply]
  show V c main_arg2 _ = V c main_arg2 _
  congr 1
  funext a; apply Fin.ext
  match a with
  | ⟨0, _⟩ => show win0_10.index t 0 * 1024 + 1 * r.val = r.val; rw [e0]; omega
  | ⟨1, _⟩ => show win0_10.index t 1 * 256 + 1 * n'.val = t.val / 5 * 256 + n'.val; rw [e1]; omega

/-- A whole array read through output window 11's block at point `t`. -/
theorem rd0_11 (G : S1024x4096.Idx → EReal) (t : Fin cfg0.N) (r : Fin 1024) (n' : Fin 256) :
    (((cfg0.win 11).blk t).view.read (Elt Ideal) G : Vec Ideal S1024x256 .f32) (ix2 r n') = G (ix2 r (hu t n')) := by
  obtain ⟨e0, e1⟩ := idx0_11 t
  rw [View.read_apply]
  show G _ = G _
  congr 1
  funext a; apply Fin.ext
  match a with
  | ⟨0, _⟩ => show win0_11.index t 0 * 1024 + 1 * r.val = r.val; rw [e0]; omega
  | ⟨1, _⟩ => show win0_11.index t 1 * 256 + 1 * n'.val = t.val / 5 * 256 + n'.val; rw [e1]; omega

/-- A whole array read through output window 12's block at point `t`. -/
theorem rd0_12 (G : S1024x4096.Idx → EReal) (t : Fin cfg0.N) (r : Fin 1024) (n' : Fin 256) :
    (((cfg0.win 12).blk t).view.read (Elt Ideal) G : Vec Ideal S1024x256 .f32) (ix2 r n') = G (ix2 r (hu t n')) := by
  obtain ⟨e0, e1⟩ := idx0_12 t
  rw [View.read_apply]
  show G _ = G _
  congr 1
  funext a; apply Fin.ext
  match a with
  | ⟨0, _⟩ => show win0_12.index t 0 * 1024 + 1 * r.val = r.val; rw [e0]; omega
  | ⟨1, _⟩ => show win0_12.index t 1 * 256 + 1 * n'.val = t.val / 5 * 256 + n'.val; rw [e1]; omega

/-- A whole array read through output window 13's block at point `t`. -/
theorem rd0_13 (G : S1024x4096.Idx → EReal) (t : Fin cfg0.N) (r : Fin 1024) (n' : Fin 256) :
    (((cfg0.win 13).blk t).view.read (Elt Ideal) G : Vec Ideal S1024x256 .f32) (ix2 r n') = G (ix2 r (hu t n')) := by
  obtain ⟨e0, e1⟩ := idx0_13 t
  rw [View.read_apply]
  show G _ = G _
  congr 1
  funext a; apply Fin.ext
  match a with
  | ⟨0, _⟩ => show win0_13.index t 0 * 1024 + 1 * r.val = r.val; rw [e0]; omega
  | ⟨1, _⟩ => show win0_13.index t 1 * 256 + 1 * n'.val = t.val / 5 * 256 + n'.val; rw [e1]; omega

/-- The staged row block at point `t` is the concatenated row's columns of step `t % 5`. -/
theorem staged (c : Dev nD) (t : Fin cfg0.N) (r j : Fin 1024) :
    k0_pay10 (F := Ideal) (grid0.coords t) (iblk0 V c 0 t) (iblk0 V c 1 t) (ix2 r j)
      = xcat (V c main_arg0) (V c main_arg1) r (kc t j) := by
  by_cases h0 : t.val % 5 = 0
  · refine (Pay.pay10_first (grid0.coords t) (iblk0 V c 0 t) (iblk0 V c 1 t) (sel_first t h0) (ix2 r j)).trans ?_
    refine (blk0_0 V c t r j).trans ?_
    unfold xcat
    have hlt : (kc t j).val < 1024 := by show t.val % 5 * 1024 + j.val < 1024; omega
    rw [dif_pos hlt]
    exact congrArg (fun q => (V c main_arg0 : S1024x1024.Idx → EReal) (ix2 r q))
      (Fin.ext (by show j.val = t.val % 5 * 1024 + j.val; omega))
  · refine (Pay.pay10_later (grid0.coords t) (iblk0 V c 0 t) (iblk0 V c 1 t) (sel_later t h0) (ix2 r j)).trans ?_
    refine (blk0_1 V c t h0 r j).trans ?_
    unfold xcat
    have hlt : ¬(kc t j).val < 1024 := by show ¬t.val % 5 * 1024 + j.val < 1024; omega
    rw [dif_neg hlt]
    exact congrArg (fun q => (V c main_arg1 : S1024x4096.Idx → EReal) (ix2 r q))
      (Fin.ext (by show (t.val % 5 - 1) * 1024 + j.val = t.val % 5 * 1024 + j.val - 1024; omega))

/-- One step's products at `(r, n')`: the gate's share of block `t % 5`. -/
theorem term_eq (c : Dev nD) (t : Fin cfg0.N) (r : Fin 1024) (n' : Fin 256) (wb : S256x1024.Idx → EReal) (W : A2 4096 5120)
    (hw : ∀ j : Fin 1024, wb (ix2 n' j) = W (ix2 (hu t n') (kc t j))) :
    (∑ j : Fin 1024, k0_pay10 (F := Ideal) (grid0.coords t) (iblk0 V c 0 t) (iblk0 V c 1 t) (ix2 r j) * wb (ix2 n' j) : EReal)
      = gterm (V c main_arg0) (V c main_arg1) W r (hu t n') ⟨t.val % 5, by omega⟩ := by
  unfold gterm blockTerm
  exact Finset.sum_congr rfl fun j _ => by rw [staged V c t r j, hw j]; rfl

end Blocks

/-! ## The accumulators after each point -/

section Acc

variable (V : (c : Dev nD) → (b : Ref sig .tc) → Buf (Elt Ideal) ((c : Thread nD τ).loc b))

/-- A `[1, 4096]` row as a vector. -/
def rowOf (b2 : S1x4096.Idx → EReal) : A1 4096 := fun i => b2 (ix2 (0 : Fin 1) (i 0))

/-- After position `n` each gate's accumulator holds, at `(r, n')`, the running sum over the steps up to `n % 5` of the
    gate's shares of the concatenated row `r` against the weight row of the hidden unit the column is. -/
def AccOK (c : Dev nD) (n : ℕ) (hn : n < cfg0.N) : Prop :=
  ∀ (r : Fin 1024) (n' : Fin 256),
    (acc0 V c n hn).1 (ix2 r n') = psum (gterm (V c main_arg0) (V c main_arg1) (V c main_arg3) r (hu ⟨n, hn⟩ n')) (n % 5)
    ∧ (acc0 V c n hn).2.1 (ix2 r n') = psum (gterm (V c main_arg0) (V c main_arg1) (V c main_arg5) r (hu ⟨n, hn⟩ n')) (n % 5)
    ∧ (acc0 V c n hn).2.2.1 (ix2 r n') = psum (gterm (V c main_arg0) (V c main_arg1) (V c main_arg7) r (hu ⟨n, hn⟩ n')) (n % 5)
    ∧ (acc0 V c n hn).2.2.2 (ix2 r n') = psum (gterm (V c main_arg0) (V c main_arg1) (V c main_arg9) r (hu ⟨n, hn⟩ n')) (n % 5)

theorem accOK_first (c : Dev nD) (t : Fin cfg0.N) (h0 : t.val % 5 = 0) : AccOK V c t.val t.isLt := by
  intro r n'
  have hk : t.val % 5 < 5 := by omega
  rw [acc0_first V c t h0]
  refine ⟨?_, ?_, ?_, ?_⟩
  · refine (Pay.pay13_apply (grid0.coords t) (iblk0 V c 0 t) (iblk0 V c 1 t) (iblk0 V c 2 t) (k0_pay6 (F := Ideal)) r n').trans ?_
    exact first_val _ (t.val % 5) hk h0 _ _ (Pay.pay6_apply _)
      (term_eq V c t r n' (iblk0 V c 2 t) (V c main_arg3) fun j => blk0_2 V c t n' j)
  · refine (Pay.pay14_apply (grid0.coords t) (iblk0 V c 0 t) (iblk0 V c 1 t) (iblk0 V c 3 t) (k0_pay7 (F := Ideal)) r n').trans ?_
    exact first_val _ (t.val % 5) hk h0 _ _ (Pay.pay7_apply _)
      (term_eq V c t r n' (iblk0 V c 3 t) (V c main_arg5) fun j => blk0_3 V c t n' j)
  · refine (Pay.pay1_apply (k0_pay10 (F := Ideal) (grid0.coords t) (iblk0 V c 0 t) (iblk0 V c 1 t)) (k0_pay11 (F := Ideal) (iblk0 V c 4 t)) (k0_pay8 (F := Ideal)) r n').trans ?_
    exact first_val _ (t.val % 5) hk h0 _ _ (Pay.pay8_apply _)
      (term_eq V c t r n' (k0_pay11 (F := Ideal) (iblk0 V c 4 t)) (V c main_arg7) fun j => blk0_4 V c t n' j)
  · refine (Pay.pay2_apply (k0_pay10 (F := Ideal) (grid0.coords t) (iblk0 V c 0 t) (iblk0 V c 1 t)) (k0_pay12 (F := Ideal) (iblk0 V c 5 t)) (k0_pay9 (F := Ideal)) r n').trans ?_
    exact first_val _ (t.val % 5) hk h0 _ _ (Pay.pay9_apply _)
      (term_eq V c t r n' (k0_pay12 (F := Ideal) (iblk0 V c 5 t)) (V c main_arg9) fun j => blk0_5 V c t n' j)

theorem accOK_next (c : Dev nD) (t : Fin cfg0.N) (h0 : ¬t.val % 5 = 0)
    (ih : AccOK V c (t.val - 1) (Nat.lt_of_le_of_lt (Nat.sub_le _ _) t.isLt)) : AccOK V c t.val t.isLt := by
  intro r n'
  have hk : t.val % 5 < 5 := by omega
  obtain ⟨i1, i2, i3, i4⟩ := ih r n'
  have e1 : hu ⟨t.val - 1, Nat.lt_of_le_of_lt (Nat.sub_le _ _) t.isLt⟩ n' = hu t n' :=
    Fin.ext (by show (t.val - 1) / 5 * 256 + n'.val = t.val / 5 * 256 + n'.val; omega)
  have e2 : (t.val - 1) % 5 = t.val % 5 - 1 := by omega
  rw [e1, e2] at i1 i2 i3 i4
  rw [acc0_next V c t h0]
  refine ⟨?_, ?_, ?_, ?_⟩
  · refine (Pay.pay13_apply (grid0.coords t) (iblk0 V c 0 t) (iblk0 V c 1 t) (iblk0 V c 2 t) _ r n').trans ?_
    exact next_val _ (t.val % 5) hk h0 _ _ i1
      (term_eq V c t r n' (iblk0 V c 2 t) (V c main_arg3) fun j => blk0_2 V c t n' j)
  · refine (Pay.pay14_apply (grid0.coords t) (iblk0 V c 0 t) (iblk0 V c 1 t) (iblk0 V c 3 t) _ r n').trans ?_
    exact next_val _ (t.val % 5) hk h0 _ _ i2
      (term_eq V c t r n' (iblk0 V c 3 t) (V c main_arg5) fun j => blk0_3 V c t n' j)
  · refine (Pay.pay1_apply (k0_pay10 (F := Ideal) (grid0.coords t) (iblk0 V c 0 t) (iblk0 V c 1 t)) (k0_pay11 (F := Ideal) (iblk0 V c 4 t)) _ r n').trans ?_
    exact next_val _ (t.val % 5) hk h0 _ _ i3
      (term_eq V c t r n' (k0_pay11 (F := Ideal) (iblk0 V c 4 t)) (V c main_arg7) fun j => blk0_4 V c t n' j)
  · refine (Pay.pay2_apply (k0_pay10 (F := Ideal) (grid0.coords t) (iblk0 V c 0 t) (iblk0 V c 1 t)) (k0_pay12 (F := Ideal) (iblk0 V c 5 t)) _ r n').trans ?_
    exact next_val _ (t.val % 5) hk h0 _ _ i4
      (term_eq V c t r n' (k0_pay12 (F := Ideal) (iblk0 V c 5 t)) (V c main_arg9) fun j => blk0_5 V c t n' j)

theorem accOK (c : Dev nD) : ∀ (n : ℕ) (hn : n < cfg0.N), AccOK V c n hn
  | 0, hn => accOK_first V c ⟨0, hn⟩ rfl
  | n + 1, hn => by
    by_cases h0 : (n + 1) % 5 = 0
    · exact accOK_first V c ⟨n + 1, hn⟩ h0
    · exact accOK_next V c ⟨n + 1, hn⟩ h0 (accOK c n (Nat.lt_of_succ_lt hn))

/-- At the last step the four accumulators plus their bias blocks are the four pre-activations. -/
theorem pre_val (c : Dev nD) (t : Fin cfg0.N) (h4 : t.val % 5 = 4) (r : Fin 1024) (n' : Fin 256) :
    (acc0 V c t.val t.isLt).1 (ix2 r n') + (iblk0 V c 6 t : Vec Ideal S1x256 .f32) (ix2 (0 : Fin 1) n')
        = gatePre (V c main_arg3) (rowOf (V c main_v0)) (V c main_arg0) (V c main_arg1) r (hu t n')
    ∧ (acc0 V c t.val t.isLt).2.1 (ix2 r n') + (iblk0 V c 7 t : Vec Ideal S1x256 .f32) (ix2 (0 : Fin 1) n')
        = gatePre (V c main_arg5) (rowOf (V c main_v1)) (V c main_arg0) (V c main_arg1) r (hu t n')
    ∧ (acc0 V c t.val t.isLt).2.2.1 (ix2 r n') + (iblk0 V c 8 t : Vec Ideal S1x256 .f32) (ix2 (0 : Fin 1) n')
        = gatePre (V c main_arg7) (rowOf (V c main_v2)) (V c main_arg0) (V c main_arg1) r (hu t n')
    ∧ (acc0 V c t.val t.isLt).2.2.2 (ix2 r n') + (iblk0 V c 9 t : Vec Ideal S1x256 .f32) (ix2 (0 : Fin 1) n')
        = gatePre (V c main_arg9) (rowOf (V c main_v3)) (V c main_arg0) (V c main_arg1) r (hu t n') := by
  obtain ⟨a1, a2, a3, a4⟩ := accOK V c t.val t.isLt r n'
  rw [h4] at a1 a2 a3 a4
  refine ⟨?_, ?_, ?_, ?_⟩
  · rw [a1, blk0_6 V c t n']
    exact psum_gterm (V c main_arg0) (V c main_arg1) (V c main_arg3) (rowOf (V c main_v0)) r (hu t n')
  · rw [a2, blk0_7 V c t n']
    exact psum_gterm (V c main_arg0) (V c main_arg1) (V c main_arg5) (rowOf (V c main_v1)) r (hu t n')
  · rw [a3, blk0_8 V c t n']
    exact psum_gterm (V c main_arg0) (V c main_arg1) (V c main_arg7) (rowOf (V c main_v2)) r (hu t n')
  · rw [a4, blk0_9 V c t n']
    exact psum_gterm (V c main_arg0) (V c main_arg1) (V c main_arg9) (rowOf (V c main_v3)) r (hu t n')

/-- The three results as whole arrays, of the buffers' contents at the kernel's entry. -/
def Git (c : Dev nD) : S1024x4096.Idx → EReal := fun i =>
  itS (V c main_arg0) (V c main_arg1) (V c main_arg5) (rowOf (V c main_v1)) (i 0) (i 1)
def Gct (c : Dev nD) : S1024x4096.Idx → EReal := fun i =>
  ctS (V c main_arg0) (V c main_arg1) (V c main_arg2) (V c main_arg3) (rowOf (V c main_v0)) (V c main_arg5) (rowOf (V c main_v1))
    (V c main_arg7) (rowOf (V c main_v2)) (i 0) (i 1)
def Ght (c : Dev nD) : S1024x4096.Idx → EReal := fun i =>
  htS (V c main_arg0) (V c main_arg1) (V c main_arg2) (V c main_arg3) (rowOf (V c main_v0)) (V c main_arg5) (rowOf (V c main_v1))
    (V c main_arg7) (rowOf (V c main_v2)) (V c main_arg9) (rowOf (V c main_v3)) (i 0) (i 1)

/-- What the last step of a tile stores into the three output blocks. -/
theorem out11_val (c : Dev nD) (t : Fin cfg0.N) (h4 : t.val % 5 = 4) (r : Fin 1024) (n' : Fin 256) :
    k0_pay3 (F := Ideal) (acc0 V c t.val t.isLt).2.1 (iblk0 V c 7 t) (ix2 r n') = Git V c (ix2 r (hu t n')) := by
  obtain ⟨-, p2, -, -⟩ := pre_val V c t h4 r n'
  refine (Pay.pay3_apply (acc0 V c t.val t.isLt).2.1 (iblk0 V c 7 t) r n').trans ?_
  rw [p2]
  rfl

theorem out13_val (c : Dev nD) (t : Fin cfg0.N) (h4 : t.val % 5 = 4) (r : Fin 1024) (n' : Fin 256) :
    k0_pay4 (F := Ideal) (acc0 V c t.val t.isLt).1 (iblk0 V c 6 t) (acc0 V c t.val t.isLt).2.1 (iblk0 V c 7 t)
      (acc0 V c t.val t.isLt).2.2.1 (iblk0 V c 8 t) (iblk0 V c 10 t) (ix2 r n') = Gct V c (ix2 r (hu t n')) := by
  obtain ⟨p1, p2, p3, -⟩ := pre_val V c t h4 r n'
  refine (Pay.pay4_apply (acc0 V c t.val t.isLt).1 (iblk0 V c 6 t) (acc0 V c t.val t.isLt).2.1 (iblk0 V c 7 t)
      (acc0 V c t.val t.isLt).2.2.1 (iblk0 V c 8 t) (iblk0 V c 10 t) r n').trans ?_
  rw [p1, p2, p3, blk0_10 V c t r n']
  rfl

theorem out12_val (c : Dev nD) (t : Fin cfg0.N) (h4 : t.val % 5 = 4) (r : Fin 1024) (n' : Fin 256) :
    k0_pay5 (F := Ideal) (acc0 V c t.val t.isLt).1 (iblk0 V c 6 t) (acc0 V c t.val t.isLt).2.1 (iblk0 V c 7 t)
      (acc0 V c t.val t.isLt).2.2.1 (iblk0 V c 8 t) (acc0 V c t.val t.isLt).2.2.2 (iblk0 V c 9 t) (iblk0 V c 10 t) (ix2 r n')
      = Ght V c (ix2 r (hu t n')) := by
  obtain ⟨-, -, -, p4⟩ := pre_val V c t h4 r n'
  refine (Pay.pay5_apply (acc0 V c t.val t.isLt).1 (iblk0 V c 6 t) (acc0 V c t.val t.isLt).2.1 (iblk0 V c 7 t)
      (acc0 V c t.val t.isLt).2.2.1 (iblk0 V c 8 t) (acc0 V c t.val t.isLt).2.2.2 (iblk0 V c 9 t) (iblk0 V c 10 t) r n').trans ?_
  rw [p4, out13_val V c t h4 r n']
  rfl

end Acc

/-! ## The three result arrays after the kernel -/

section Final

variable (m : (ℓ : Loc nD τ sig) → Buf (Elt Ideal) ℓ)

/-- No reshape writes an argument: the kernel finds it as launched. -/
theorem T1_main_arg0 (c : Dev nD) : T1 m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem T1_main_arg1 (c : Dev nD) : T1 m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))
theorem T1_main_arg2 (c : Dev nD) : T1 m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))
theorem T1_main_arg3 (c : Dev nD) : T1 m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))
theorem T1_main_arg5 (c : Dev nD) : T1 m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))
theorem T1_main_arg7 (c : Dev nD) : T1 m c main_arg7 = m ((c : Thread nD τ).loc main_arg7) :=
  StableHlo.after_of_forall_not_mem (b := Proc.devRef .tc main_arg7) _ _ (List.forall_iff_forall_mem.mp (by
    simp only [hostOps0, List.Forall, StableHlo.reshape_writes, Finset.mem_singleton]
    repeat' apply And.intro
    all_goals exact StableHlo.devRef_ne_of_ne (by decide)))
theorem T1_main_arg9 (c : Dev nD) : T1 m c main_arg9 = m ((c : Thread nD τ).loc main_arg9) :=
  StableHlo.after_of_forall_not_mem (b := Proc.devRef .tc main_arg9) _ _ (List.forall_iff_forall_mem.mp (by
    simp only [hostOps0, List.Forall, StableHlo.reshape_writes, Finset.mem_singleton]
    repeat' apply And.intro
    all_goals exact StableHlo.devRef_ne_of_ne (by decide)))

/-- A reshaped bias is its vector: the row `(0, u)` of the `[1, 4096]` array is the vector at `u`. -/
theorem T1_main_v0 (c : Dev nD) : (T1 m c main_v0 : S1x4096.Idx → EReal)
    = shapeCast S1x4096 (m ((c : Thread nD τ).loc main_arg4) : S4096.Idx → EReal) shapeCasts_S4096_S1x4096 := by
  show StableHlo.after hostOps0 (E0 m c) (Proc.devRef .tc main_v0) = _
  after_results
  rfl
theorem rowOf_main_v0 (c : Dev nD) : rowOf (T1 m c main_v0) = m ((c : Thread nD τ).loc main_arg4) := by
  funext i
  obtain ⟨u, rfl⟩ : ∃ u : Fin 4096, i = ix1 u := ⟨i 0, eq_ix1 i⟩
  show (T1 m c main_v0 : S1x4096.Idx → EReal) (ix2 (0 : Fin 1) u) = _
  rw [T1_main_v0]
  exact shapeCast_a_1a_apply _ _ 0 u
theorem T1_main_v1 (c : Dev nD) : (T1 m c main_v1 : S1x4096.Idx → EReal)
    = shapeCast S1x4096 (m ((c : Thread nD τ).loc main_arg6) : S4096.Idx → EReal) shapeCasts_S4096_S1x4096 := by
  show StableHlo.after hostOps0 (E0 m c) (Proc.devRef .tc main_v1) = _
  after_results
  rfl
theorem rowOf_main_v1 (c : Dev nD) : rowOf (T1 m c main_v1) = m ((c : Thread nD τ).loc main_arg6) := by
  funext i
  obtain ⟨u, rfl⟩ : ∃ u : Fin 4096, i = ix1 u := ⟨i 0, eq_ix1 i⟩
  show (T1 m c main_v1 : S1x4096.Idx → EReal) (ix2 (0 : Fin 1) u) = _
  rw [T1_main_v1]
  exact shapeCast_a_1a_apply _ _ 0 u
theorem T1_main_v2 (c : Dev nD) : (T1 m c main_v2 : S1x4096.Idx → EReal)
    = shapeCast S1x4096 (m ((c : Thread nD τ).loc main_arg8) : S4096.Idx → EReal) shapeCasts_S4096_S1x4096 := by
  show StableHlo.after hostOps0 (E0 m c) (Proc.devRef .tc main_v2) = _
  after_results
  rfl
theorem rowOf_main_v2 (c : Dev nD) : rowOf (T1 m c main_v2) = m ((c : Thread nD τ).loc main_arg8) := by
  funext i
  obtain ⟨u, rfl⟩ : ∃ u : Fin 4096, i = ix1 u := ⟨i 0, eq_ix1 i⟩
  show (T1 m c main_v2 : S1x4096.Idx → EReal) (ix2 (0 : Fin 1) u) = _
  rw [T1_main_v2]
  exact shapeCast_a_1a_apply _ _ 0 u
theorem T1_main_v3 (c : Dev nD) : (T1 m c main_v3 : S1x4096.Idx → EReal)
    = shapeCast S1x4096 (m ((c : Thread nD τ).loc main_arg10) : S4096.Idx → EReal) shapeCasts_S4096_S1x4096 := by
  show StableHlo.after hostOps0 (E0 m c) (Proc.devRef .tc main_v3) = _
  after_results
  rfl
theorem rowOf_main_v3 (c : Dev nD) : rowOf (T1 m c main_v3) = m ((c : Thread nD τ).loc main_arg10) := by
  funext i
  obtain ⟨u, rfl⟩ : ∃ u : Fin 4096, i = ix1 u := ⟨i 0, eq_ix1 i⟩
  show (T1 m c main_v3 : S1x4096.Idx → EReal) (ix2 (0 : Fin 1) u) = _
  rw [T1_main_v3]
  exact shapeCast_a_1a_apply _ _ 0 u

/-- What a write-back of output window 11 writes is its block of the whole result. -/
theorem flushed0_11 (c : Dev nD) (t : Fin cfg0.N) (hf : (cfg0.win 11).flush t = true) :
    (dat0 (T1 m) c).flushed 11 t = ((cfg0.win 11).blk t).view.read (Elt Ideal) (Git (T1 m) c) := by
  have h4 : t.val % 5 = 4 := (flush0_11 t).mp hf
  show (cfg0.win 11).cut (grid0.coords t) ((dat0 (T1 m) c).after 11 t) = _
  rw [after0_11]
  funext y
  obtain ⟨r, n', rfl⟩ : ∃ (r : Fin 1024) (n' : Fin 256), y = ix2 r n' := ⟨y 0, y 1, eq_ix2 y⟩
  exact (out11_val (T1 m) c t h4 r n').trans (rd0_11 (Git (T1 m) c) t r n').symm

/-- Every index of the result lies in the block written back at the last step of its column's tile. -/
theorem cover0_11 (i : S1024x4096.Idx) :
    ∃ t : Fin cfg0.N, (cfg0.win 11).flush t = true ∧ i ∈ ((cfg0.win 11).blk t).view.set := by
  have h0 : (i 0).val < 1024 := (i 0).isLt
  have h1 : (i 1).val < 4096 := (i 1).isLt
  have hlt : 5 * ((i 1).val / 256) + 4 < cfg0.N := by rw [show cfg0.N = 80 from N_0]; omega
  refine ⟨⟨5 * ((i 1).val / 256) + 4, hlt⟩, (flush0_11 _).mpr (by show (5 * ((i 1).val / 256) + 4) % 5 = 4; omega), ?_⟩
  obtain ⟨e0, e1⟩ := idx0_11 ⟨5 * ((i 1).val / 256) + 4, hlt⟩
  show i ∈ ((View.whole main_v5_0).slice (win0_11.rect ⟨5 * ((i 1).val / 256) + 4, hlt⟩)).set
  rw [View.set_slice_whole, Rect.mem_set_unit]
  intro a
  match a with
  | ⟨0, _⟩ =>
    show win0_11.index ⟨5 * ((i 1).val / 256) + 4, hlt⟩ 0 * 1024 ≤ (i 0).val
      ∧ (i 0).val < win0_11.index ⟨5 * ((i 1).val / 256) + 4, hlt⟩ 0 * 1024 + 1024
    rw [e0]; omega
  | ⟨1, _⟩ =>
    show win0_11.index ⟨5 * ((i 1).val / 256) + 4, hlt⟩ 1 * 256 ≤ (i 1).val
      ∧ (i 1).val < win0_11.index ⟨5 * ((i 1).val / 256) + 4, hlt⟩ 1 * 256 + 256
    rw [e1]
    show (5 * ((i 1).val / 256) + 4) / 5 * 256 ≤ (i 1).val ∧ (i 1).val < (5 * ((i 1).val / 256) + 4) / 5 * 256 + 256
    omega

theorem E2_main_v5_0 (c : Dev nD) : E2 m c (Proc.devRef .tc main_v5_0) = Git (T1 m) c :=
  (E2_arr m c 11).trans ((dat0 (T1 m) c).arrAt_eq_of_cover 11 (Git (T1 m) c) (flushed0_11 m c) cover0_11)

/-- What a write-back of output window 12 writes is its block of the whole result. -/
theorem flushed0_12 (c : Dev nD) (t : Fin cfg0.N) (hf : (cfg0.win 12).flush t = true) :
    (dat0 (T1 m) c).flushed 12 t = ((cfg0.win 12).blk t).view.read (Elt Ideal) (Ght (T1 m) c) := by
  have h4 : t.val % 5 = 4 := (flush0_12 t).mp hf
  show (cfg0.win 12).cut (grid0.coords t) ((dat0 (T1 m) c).after 12 t) = _
  rw [after0_12]
  funext y
  obtain ⟨r, n', rfl⟩ : ∃ (r : Fin 1024) (n' : Fin 256), y = ix2 r n' := ⟨y 0, y 1, eq_ix2 y⟩
  exact (out12_val (T1 m) c t h4 r n').trans (rd0_12 (Ght (T1 m) c) t r n').symm

/-- Every index of the result lies in the block written back at the last step of its column's tile. -/
theorem cover0_12 (i : S1024x4096.Idx) :
    ∃ t : Fin cfg0.N, (cfg0.win 12).flush t = true ∧ i ∈ ((cfg0.win 12).blk t).view.set := by
  have h0 : (i 0).val < 1024 := (i 0).isLt
  have h1 : (i 1).val < 4096 := (i 1).isLt
  have hlt : 5 * ((i 1).val / 256) + 4 < cfg0.N := by rw [show cfg0.N = 80 from N_0]; omega
  refine ⟨⟨5 * ((i 1).val / 256) + 4, hlt⟩, (flush0_12 _).mpr (by show (5 * ((i 1).val / 256) + 4) % 5 = 4; omega), ?_⟩
  obtain ⟨e0, e1⟩ := idx0_12 ⟨5 * ((i 1).val / 256) + 4, hlt⟩
  show i ∈ ((View.whole main_v5_1).slice (win0_12.rect ⟨5 * ((i 1).val / 256) + 4, hlt⟩)).set
  rw [View.set_slice_whole, Rect.mem_set_unit]
  intro a
  match a with
  | ⟨0, _⟩ =>
    show win0_12.index ⟨5 * ((i 1).val / 256) + 4, hlt⟩ 0 * 1024 ≤ (i 0).val
      ∧ (i 0).val < win0_12.index ⟨5 * ((i 1).val / 256) + 4, hlt⟩ 0 * 1024 + 1024
    rw [e0]; omega
  | ⟨1, _⟩ =>
    show win0_12.index ⟨5 * ((i 1).val / 256) + 4, hlt⟩ 1 * 256 ≤ (i 1).val
      ∧ (i 1).val < win0_12.index ⟨5 * ((i 1).val / 256) + 4, hlt⟩ 1 * 256 + 256
    rw [e1]
    show (5 * ((i 1).val / 256) + 4) / 5 * 256 ≤ (i 1).val ∧ (i 1).val < (5 * ((i 1).val / 256) + 4) / 5 * 256 + 256
    omega

theorem E2_main_v5_1 (c : Dev nD) : E2 m c (Proc.devRef .tc main_v5_1) = Ght (T1 m) c :=
  (E2_arr m c 12).trans ((dat0 (T1 m) c).arrAt_eq_of_cover 12 (Ght (T1 m) c) (flushed0_12 m c) cover0_12)

/-- What a write-back of output window 13 writes is its block of the whole result. -/
theorem flushed0_13 (c : Dev nD) (t : Fin cfg0.N) (hf : (cfg0.win 13).flush t = true) :
    (dat0 (T1 m) c).flushed 13 t = ((cfg0.win 13).blk t).view.read (Elt Ideal) (Gct (T1 m) c) := by
  have h4 : t.val % 5 = 4 := (flush0_13 t).mp hf
  show (cfg0.win 13).cut (grid0.coords t) ((dat0 (T1 m) c).after 13 t) = _
  rw [after0_13]
  funext y
  obtain ⟨r, n', rfl⟩ : ∃ (r : Fin 1024) (n' : Fin 256), y = ix2 r n' := ⟨y 0, y 1, eq_ix2 y⟩
  exact (out13_val (T1 m) c t h4 r n').trans (rd0_13 (Gct (T1 m) c) t r n').symm

/-- Every index of the result lies in the block written back at the last step of its column's tile. -/
theorem cover0_13 (i : S1024x4096.Idx) :
    ∃ t : Fin cfg0.N, (cfg0.win 13).flush t = true ∧ i ∈ ((cfg0.win 13).blk t).view.set := by
  have h0 : (i 0).val < 1024 := (i 0).isLt
  have h1 : (i 1).val < 4096 := (i 1).isLt
  have hlt : 5 * ((i 1).val / 256) + 4 < cfg0.N := by rw [show cfg0.N = 80 from N_0]; omega
  refine ⟨⟨5 * ((i 1).val / 256) + 4, hlt⟩, (flush0_13 _).mpr (by show (5 * ((i 1).val / 256) + 4) % 5 = 4; omega), ?_⟩
  obtain ⟨e0, e1⟩ := idx0_13 ⟨5 * ((i 1).val / 256) + 4, hlt⟩
  show i ∈ ((View.whole main_v5_2).slice (win0_13.rect ⟨5 * ((i 1).val / 256) + 4, hlt⟩)).set
  rw [View.set_slice_whole, Rect.mem_set_unit]
  intro a
  match a with
  | ⟨0, _⟩ =>
    show win0_13.index ⟨5 * ((i 1).val / 256) + 4, hlt⟩ 0 * 1024 ≤ (i 0).val
      ∧ (i 0).val < win0_13.index ⟨5 * ((i 1).val / 256) + 4, hlt⟩ 0 * 1024 + 1024
    rw [e0]; omega
  | ⟨1, _⟩ =>
    show win0_13.index ⟨5 * ((i 1).val / 256) + 4, hlt⟩ 1 * 256 ≤ (i 1).val
      ∧ (i 1).val < win0_13.index ⟨5 * ((i 1).val / 256) + 4, hlt⟩ 1 * 256 + 256
    rw [e1]
    show (5 * ((i 1).val / 256) + 4) / 5 * 256 ≤ (i 1).val ∧ (i 1).val < (5 * ((i 1).val / 256) + 4) / 5 * 256 + 256
    omega

theorem E2_main_v5_2 (c : Dev nD) : E2 m c (Proc.devRef .tc main_v5_2) = Gct (T1 m) c :=
  (E2_arr m c 13).trans ((dat0 (T1 m) c).arrAt_eq_of_cover 13 (Gct (T1 m) c) (flushed0_13 m c) cover0_13)

/-- The input gate the first kernel leaves. -/
theorem val0_it (c : Dev nD) (b : Fin 1024) (n : Fin 4096) :
    (E2 m c (Proc.devRef .tc main_v5_0) : S1024x4096.Idx → EReal) (ix2 b n)
      = itS (m ((c : Thread nD τ).loc main_arg0)) (m ((c : Thread nD τ).loc main_arg1)) (m ((c : Thread nD τ).loc main_arg5))
          (m ((c : Thread nD τ).loc main_arg6)) b n := by
  rw [E2_main_v5_0]
  show itS (T1 m c main_arg0) (T1 m c main_arg1) (T1 m c main_arg5) (rowOf (T1 m c main_v1)) b n = _
  rw [T1_main_arg0, T1_main_arg1, T1_main_arg5, rowOf_main_v1]

/-- The new hidden state the first kernel leaves. -/
theorem val0_ht (c : Dev nD) (b : Fin 1024) (n : Fin 4096) :
    (E2 m c (Proc.devRef .tc main_v5_1) : S1024x4096.Idx → EReal) (ix2 b n)
      = htS (m ((c : Thread nD τ).loc main_arg0)) (m ((c : Thread nD τ).loc main_arg1)) (m ((c : Thread nD τ).loc main_arg2))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8))
          (m ((c : Thread nD τ).loc main_arg9)) (m ((c : Thread nD τ).loc main_arg10)) b n := by
  rw [E2_main_v5_1]
  show htS (T1 m c main_arg0) (T1 m c main_arg1) (T1 m c main_arg2) (T1 m c main_arg3) (rowOf (T1 m c main_v0))
    (T1 m c main_arg5) (rowOf (T1 m c main_v1)) (T1 m c main_arg7) (rowOf (T1 m c main_v2))
    (T1 m c main_arg9) (rowOf (T1 m c main_v3)) b n = _
  rw [T1_main_arg0, T1_main_arg1, T1_main_arg2, T1_main_arg3, T1_main_arg5, T1_main_arg7, T1_main_arg9,
    rowOf_main_v0, rowOf_main_v1, rowOf_main_v2, rowOf_main_v3]

/-- The new cell state the first kernel leaves. -/
theorem val0_ct (c : Dev nD) (b : Fin 1024) (n : Fin 4096) :
    (E2 m c (Proc.devRef .tc main_v5_2) : S1024x4096.Idx → EReal) (ix2 b n)
      = ctS (m ((c : Thread nD τ).loc main_arg0)) (m ((c : Thread nD τ).loc main_arg1)) (m ((c : Thread nD τ).loc main_arg2))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8)) b n := by
  rw [E2_main_v5_2]
  show ctS (T1 m c main_arg0) (T1 m c main_arg1) (T1 m c main_arg2) (T1 m c main_arg3) (rowOf (T1 m c main_v0))
    (T1 m c main_arg5) (rowOf (T1 m c main_v1)) (T1 m c main_arg7) (rowOf (T1 m c main_v2)) b n = _
  rw [T1_main_arg0, T1_main_arg1, T1_main_arg2, T1_main_arg3, T1_main_arg5, T1_main_arg7,
    rowOf_main_v0, rowOf_main_v1, rowOf_main_v2]

end Final

end Cert.KernelIdeal.Hand

end
-- ==== Proof.KI.Val1.lean ====
/-
  The output kernel's result at the ideal values. Its grid is four row tiles of 256 rows by sixteen steps; at step k
  of row tile mt the accumulator gains, at (r, o), the sum over 256 columns of the hidden state's row 256 mt + r
  (columns 256 k …) against row o of the output weights. By induction on the point the accumulator after step k holds
  the shares of the steps up to k (0 + x = x at the restart); sixteen steps of 256 columns are the 4096 columns;
  at the last step the row-wise log-softmax of the accumulator plus the bias row is written to the row tile's block
  of the result, and the four row tiles' blocks cover the result array.
-/
import proofs.«119333_j60842506715793_2_alg».proof.Proof.KI.Run
import proofs.«119333_j60842506715793_2_alg».proof.Proof.KI.Pay
import proofs.«119333_j60842506715793_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

local notation "𝕄" => MT nD τ sig Unit (Elt Ideal) ℕ (UR sig nD τ) ℕ

open Idealize.ShloMosaic.WholeBlock

section Region
variable (V : (c : Dev nD) → (b : Ref sig .tc) → Buf (Elt Ideal) ((c : Thread nD τ).loc b))

/-! ## Arrays read at natural-number coordinates -/

/-- A rank-2 array read at natural-number coordinates: zero outside its extents. -/
def at2 {a b : ℕ} (X : (⟨2, ![a, b]⟩ : Shape).Idx → EReal) (R C : ℕ) : EReal :=
  if h : R < a ∧ C < b then X (ix2 ⟨R, h.1⟩ ⟨C, h.2⟩) else 0

theorem at2_of_lt {a b : ℕ} (X : (⟨2, ![a, b]⟩ : Shape).Idx → EReal) (R C : ℕ) (hR : R < a) (hC : C < b) :
    at2 X R C = X (ix2 ⟨R, hR⟩ ⟨C, hC⟩) := dif_pos ⟨hR, hC⟩

/-! ## The output kernel's index maps over its grid -/

/-- Point `t` is row tile `t / 16`, step `t % 16`: the hidden-state block is `(t / 16, t % 16)`, the weight block
    `(0, t % 16)`, the bias block `(0, 0)`, the output block `(t / 16, 0)`. -/
theorem idx_facts1 : ∀ t : Fin cfg1.N,
    win1_0.index t (0 : Fin 2) = t.val / 16 ∧ win1_0.index t (1 : Fin 2) = t.val % 16
    ∧ win1_1.index t (0 : Fin 2) = 0 ∧ win1_1.index t (1 : Fin 2) = t.val % 16
    ∧ win1_2.index t (0 : Fin 2) = 0 ∧ win1_2.index t (1 : Fin 2) = 0
    ∧ win1_3.index t (0 : Fin 2) = t.val / 16 ∧ win1_3.index t (1 : Fin 2) = 0 :=
  (by decide +kernel : ∀ t : Fin grid1.N, _)

/-! ## The blocks at a coordinate -/

/-- The hidden-state block at point `t`, at `(r, j)`. -/
theorem blk0_read (c : Dev nD) (t : Fin cfg1.N) (r j : Fin 256) :
    (iblk1 V c 0 t : Vec Ideal S256x256 .f32) (ix2 r j)
      = at2 (V c main_v5_1 : S1024x4096.Idx → EReal) (t.val / 16 * 256 + r.val) (t.val % 16 * 256 + j.val) := by
  have hN : t.val < 64 := lt_of_lt_of_eq t.isLt (show cfg1.N = 64 from N_1)
  obtain ⟨e0, e1, -⟩ := idx_facts1 t
  rw [at2_of_lt _ _ _ (by omega) (by omega)]
  unfold iblk1
  rw [View.read_apply]
  show V c main_v5_1 (((cfg1.win 0).blk t).view.emb (ix2 r j)) = V c main_v5_1 _
  congr 1
  funext a; apply Fin.ext
  match a with
  | ⟨0, _⟩ => show win1_0.index t (0 : Fin 2) * 256 + 1 * r.val = t.val / 16 * 256 + r.val; rw [e0]; omega
  | ⟨1, _⟩ => show win1_0.index t (1 : Fin 2) * 256 + 1 * j.val = t.val % 16 * 256 + j.val; rw [e1]; omega

/-- The weight block at point `t`, at `(o, j)`. -/
theorem blk1_read (c : Dev nD) (t : Fin cfg1.N) (o : Fin 4096) (j : Fin 256) :
    (iblk1 V c 1 t : Vec Ideal S4096x256 .f32) (ix2 o j)
      = at2 (V c main_arg11 : S4096x4096.Idx → EReal) o.val (t.val % 16 * 256 + j.val) := by
  have hN : t.val < 64 := lt_of_lt_of_eq t.isLt (show cfg1.N = 64 from N_1)
  obtain ⟨-, -, e0, e1, -⟩ := idx_facts1 t
  rw [at2_of_lt _ _ _ o.isLt (by omega)]
  unfold iblk1
  rw [View.read_apply]
  show V c main_arg11 (((cfg1.win 1).blk t).view.emb (ix2 o j)) = V c main_arg11 _
  congr 1
  funext a; apply Fin.ext
  match a with
  | ⟨0, _⟩ => show win1_1.index t (0 : Fin 2) * 4096 + 1 * o.val = o.val; rw [e0]; omega
  | ⟨1, _⟩ => show win1_1.index t (1 : Fin 2) * 256 + 1 * j.val = t.val % 16 * 256 + j.val; rw [e1]; omega

/-- The bias block at any point is the whole bias row. -/
theorem blk2_read (c : Dev nD) (t : Fin cfg1.N) (o : Fin 4096) :
    (iblk1 V c 2 t : Vec Ideal S1x4096 .f32) (ix2 (0 : Fin 1) o) = (V c main_v4 : S1x4096.Idx → EReal) (ix2 (0 : Fin 1) o) := by
  obtain ⟨-, -, -, -, e0, e1, -⟩ := idx_facts1 t
  unfold iblk1
  rw [View.read_apply]
  show V c main_v4 (((cfg1.win 2).blk t).view.emb (ix2 (0 : Fin 1) o)) = V c main_v4 _
  congr 1
  funext a; apply Fin.ext
  match a with
  | ⟨0, _⟩ => show win1_2.index t (0 : Fin 2) * 1 + 1 * 0 = 0; rw [e0]
  | ⟨1, _⟩ => show win1_2.index t (1 : Fin 2) * 4096 + 1 * o.val = o.val; rw [e1]; omega

/-! ## The accumulator after each point -/

/-- Step `k`'s share of the logit at row `R`, column `O`: the 256 columns `256 k …` of the hidden state's row against
    the weight row's. -/
def part (A0 : S1024x4096.Idx → EReal) (A1 : S4096x4096.Idx → EReal) (R O k : ℕ) : EReal :=
  ∑ j : Fin 256, at2 A0 R (k * 256 + j.val) * at2 A1 O (k * 256 + j.val)

/-- After point `n` the accumulator holds, at `(r, o)`, the shares of the steps up to `n % 16` of row tile `n / 16`. -/
theorem acc1_eq (c : Dev nD) : ∀ (n : ℕ) (hn : n < cfg1.N) (r : Fin 256) (o : Fin 4096),
    acc1 V c n hn (ix2 r o)
      = ∑ k ∈ Finset.range (n % 16 + 1), part (V c main_v5_1) (V c main_arg11) (n / 16 * 256 + r.val) o.val k := by
  intro n
  induction n with
  | zero =>
    intro hn r o
    rw [show acc1 V c 0 hn = k1_pay2 (iblk1 V c 0 ⟨0, hn⟩) (iblk1 V c 1 ⟨0, hn⟩) (k1_pay1 (F := Ideal)) from rfl,
      Pay.k1pay2_apply, Pay.k1pay1_apply, zero_add]
    simp only [blk0_read, blk1_read]
    rw [show (0 : ℕ) % 16 + 1 = 1 from rfl, Finset.sum_range_one]
    rfl
  | succ n ih =>
    intro hn r o
    by_cases h0 : (n + 1) % 16 = 0
    · rw [acc1_first V c ⟨n + 1, hn⟩ h0, Pay.k1pay2_apply, Pay.k1pay1_apply, zero_add]
      simp only [blk0_read, blk1_read]
      rw [h0, Finset.sum_range_one]
      rfl
    · rw [acc1_next V c ⟨n + 1, hn⟩ h0, Pay.k1pay2_apply]
      rw [show acc1 V c ((⟨n + 1, hn⟩ : Fin cfg1.N).val - 1) _ (ix2 r o)
          = ∑ k ∈ Finset.range (n % 16 + 1), part (V c main_v5_1) (V c main_arg11) (n / 16 * 256 + r.val) o.val k from
        ih (Nat.lt_of_succ_lt hn) r o]
      simp only [blk0_read, blk1_read]
      have e1 : (n + 1) % 16 = n % 16 + 1 := by omega
      have e2 : (n + 1) / 16 = n / 16 := by omega
      rw [e1, e2, Finset.sum_range_succ _ (n % 16 + 1)]
      rfl

/-! ## Sixteen steps of 256 columns are the 4096 columns -/

theorem sum_blocks (g : ℕ → EReal) :
    ∑ k ∈ Finset.range 16, ∑ j : Fin 256, g (k * 256 + j.val) = ∑ J : Fin 4096, g J.val := by
  have h : ∑ J : Fin (16 * 256), g J.val = ∑ k : Fin 16, ∑ j : Fin 256, g (k.val * 256 + j.val) := by
    rw [← Equiv.sum_comp finProdFinEquiv, Fintype.sum_prod_type]
    refine Finset.sum_congr rfl fun k _ => Finset.sum_congr rfl fun j _ => ?_
    exact congrArg g (by rw [finProdFinEquiv_apply_val]; show j.val + 256 * k.val = k.val * 256 + j.val; omega)
  rw [← Fin.sum_univ_eq_sum_range (fun k => ∑ j : Fin 256, g (k * 256 + j.val)) 16]
  exact h.symm

/-! ## The output array -/

/-- The logit at row `R`, column `o`, as the sixteen steps leave it, plus the bias. -/
def logitN (A0 : S1024x4096.Idx → EReal) (A1 : S4096x4096.Idx → EReal) (Bv : S1x4096.Idx → EReal) (R : ℕ) (o : Fin 4096) : EReal :=
  (∑ k ∈ Finset.range 16, part A0 A1 R o.val k) + Bv (ix2 (0 : Fin 1) o)

/-- What the output array ends holding: row by row the log-softmax of those logits. -/
def G1 (c : Dev nD) : S1024x4096.Idx → EReal := fun i =>
  Cert.Lstm.lsmS (logitN (V c main_v5_1) (V c main_arg11) (V c main_v4) (i 0).val) (⟨(i 1).val, idx2_lt1 i⟩ : Fin 4096)

/-- What a flushing point writes back is its block of that array. -/
theorem flushed3_eq (c : Dev nD) (t : Fin cfg1.N) (hf : (cfg1.win 3).flush t = true) :
    (dat1 V c).flushed 3 t = ((cfg1.win 3).blk t).view.read (Elt Ideal) (G1 V c) := by
  have hN : t.val < 64 := lt_of_lt_of_eq t.isLt (show cfg1.N = 64 from N_1)
  have h15 : t.val % 16 = 15 := (flush1_3 t).mp hf
  obtain ⟨-, -, -, -, -, -, e0, e1⟩ := idx_facts1 t
  show (cfg1.win 3).cut (grid1.coords t) ((dat1 V c).after 3 t) = _
  rw [after1_3]
  funext y
  obtain ⟨r, o, rfl⟩ : ∃ (r : Fin 256) (o : Fin 4096), y = (ix2 r o : S256x4096.Idx) :=
    ⟨⟨(y 0).val, (y 0).isLt⟩, ⟨(y 1).val, (y 1).isLt⟩, funext fun a => by match a with | ⟨0, _⟩ => rfl | ⟨1, _⟩ => rfl⟩
  rw [View.read_apply]
  show k1_pay3 (acc1 V c t.val t.isLt) (iblk1 V c 2 t) (ix2 r o) = G1 V c (((cfg1.win 3).blk t).view.emb (ix2 r o))
  rw [Pay.k1pay3_apply]
  have hemb : ((cfg1.win 3).blk t).view.emb (ix2 r o) = (ix2 (⟨t.val / 16 * 256 + r.val, by omega⟩ : Fin 1024) o : S1024x4096.Idx) := by
    funext a; apply Fin.ext
    match a with
    | ⟨0, _⟩ => show win1_3.index t (0 : Fin 2) * 256 + 1 * r.val = t.val / 16 * 256 + r.val; rw [e0]; omega
    | ⟨1, _⟩ => show win1_3.index t (1 : Fin 2) * 4096 + 1 * o.val = o.val; rw [e1]; omega
  rw [hemb]
  show Cert.Lstm.lsmS _ o = Cert.Lstm.lsmS _ o
  congr 1
  funext o'
  rw [acc1_eq V c t.val t.isLt r o', blk2_read, h15]
  rfl

/-- Every index of the output array is in the block of its row tile's last point. -/
theorem cover3 (i : S1024x4096.Idx) :
    ∃ t : Fin cfg1.N, (cfg1.win 3).flush t = true ∧ i ∈ ((cfg1.win 3).blk t).view.set := by
  have hi0 : (i 0).val < 1024 := (i 0).isLt
  have hi1 : (i 1).val < 4096 := (i 1).isLt
  have hN : cfg1.N = 64 := N_1
  have ht : 16 * ((i 0).val / 256) + 15 < cfg1.N := by omega
  have hv : (⟨16 * ((i 0).val / 256) + 15, ht⟩ : Fin cfg1.N).val = 16 * ((i 0).val / 256) + 15 := rfl
  generalize (⟨16 * ((i 0).val / 256) + 15, ht⟩ : Fin cfg1.N) = t at hv
  refine ⟨t, (flush1_3 t).mpr (by omega), ?_⟩
  obtain ⟨-, -, -, -, -, -, e0, e1⟩ := idx_facts1 t
  show i ∈ ((View.whole main_v6).slice (win1_3.rect t)).set
  rw [View.set_slice_whole, Rect.mem_set_unit]
  intro a
  match a with
  | ⟨0, _⟩ =>
    show win1_3.index t (0 : Fin 2) * 256 ≤ (i 0).val ∧ (i 0).val < win1_3.index t (0 : Fin 2) * 256 + 256
    rw [e0]; omega
  | ⟨1, _⟩ =>
    show win1_3.index t (1 : Fin 2) * 4096 ≤ (i 1).val ∧ (i 1).val < win1_3.index t (1 : Fin 2) * 4096 + 4096
    rw [e1]; omega

/-- The output array after the region. -/
theorem arr3_eq (c : Dev nD) : (dat1 V c).arrAt 3 cfg1.N = G1 V c :=
  (dat1 V c).arrAt_eq_of_cover 3 (G1 V c) (flushed3_eq V c) (cover3)

/-- Entry by entry it is the log-softmax of the logits of the hidden state against the output weights. -/
theorem G1_apply (c : Dev nD) (b : Fin 1024) (o : Fin 4096) :
    G1 V c (ix2 b o)
      = Cert.Lstm.lsmS (Cert.Lstm.logitS (fun b' n' => (V c main_v5_1 : S1024x4096.Idx → EReal) (ix2 b' n'))
          (V c main_arg11) (fun i => (V c main_v4 : S1x4096.Idx → EReal) (ix2 (0 : Fin 1) (i 0))) b) o := by
  show Cert.Lstm.lsmS _ o = Cert.Lstm.lsmS _ o
  congr 1
  funext o'
  unfold logitN Cert.Lstm.logitS
  congr 1
  refine (sum_blocks fun J : ℕ =>
    at2 (V c main_v5_1 : S1024x4096.Idx → EReal) b.val J * at2 (V c main_arg11 : S4096x4096.Idx → EReal) o'.val J).trans ?_
  refine Finset.sum_congr rfl fun J _ => ?_
  show at2 _ b.val J.val * at2 _ o'.val J.val = _
  rw [at2_of_lt _ _ _ b.isLt J.isLt, at2_of_lt _ _ _ o'.isLt J.isLt]

/-- The output array entry by entry, from what the region's three input arrays hold at its entry. -/
theorem out1_of (c : Dev nD) (Wout : S4096x4096.Idx → EReal) (bout : S4096.Idx → EReal)
    (hW : (V c main_arg11 : S4096x4096.Idx → EReal) = Wout)
    (hB : ∀ o : Fin 4096, (V c main_v4 : S1x4096.Idx → EReal) (ix2 (0 : Fin 1) o) = bout (ix1 o))
    (b : Fin 1024) (o : Fin 4096) :
    ((dat1 V c).arrAt 3 cfg1.N : S1024x4096.Idx → EReal) (ix2 b o)
      = Cert.Lstm.lsmS (Cert.Lstm.logitS (fun b' n' => (V c main_v5_1 : S1024x4096.Idx → EReal) (ix2 b' n')) Wout bout b) o := by
  rw [arr3_eq, G1_apply, hW]
  refine congrArg (fun z => Cert.Lstm.lsmS z o) (funext fun o' => ?_)
  unfold Cert.Lstm.logitS
  exact congrArg (_ + ·) (hB o')

end Region

/-! ## The second kernel's result in the run -/

section InRun
variable (m : (ℓ : Loc nD τ sig) → Buf (Elt Ideal) ℓ)

/-- The output weights reach the second kernel as launched: neither the reshapes nor the first kernel write them. -/
theorem E2_main_arg11 (c : Dev nD) : E2 m c (Proc.devRef .tc main_arg11) = m ((c : Thread nD τ).loc main_arg11) :=
  calc E2 m c (Proc.devRef .tc main_arg11)
    _ = E1 m c (Proc.devRef .tc main_arg11) := E2_of_ne m c main_arg11 (by decide)
    _ = E0 m c (Proc.devRef .tc main_arg11) := StableHlo.after_of_forall_not_mem (b := Proc.devRef .tc main_arg11) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg11) := rfl

/-- The bias row the second kernel reads is the output bias, entry by entry: the reshape's one row. -/
theorem E2_main_v4_apply (c : Dev nD) (o : Fin 4096) :
    (E2 m c (Proc.devRef .tc main_v4) : S1x4096.Idx → EReal) (ix2 (0 : Fin 1) o) = m ((c : Thread nD τ).loc main_arg12) (ix1 o) := by
  have e : (E1 m c (Proc.devRef .tc main_v4) : S1x4096.Idx → EReal)
      = shapeCast S1x4096 (m ((c : Thread nD τ).loc main_arg12)) shapeCasts_S4096_S1x4096 := by
    show StableHlo.after hostOps0 (E0 m c) (Proc.devRef .tc main_v4) = _
    after_results; rfl
  rw [show E2 m c (Proc.devRef .tc main_v4) = E1 m c (Proc.devRef .tc main_v4) from E2_of_ne m c main_v4 (by decide), e]
  exact shapeCast_a_1a_apply _ _ 0 o

/-- The second kernel's result array after the run, entry by entry: the row-wise log-softmax of the logits of the
    first kernel's hidden state against the output weights and bias. -/
theorem val1 (c : Dev nD) (b : Fin 1024) (o : Fin 4096) :
    (E3 m c (Proc.devRef .tc main_v6) : S1024x4096.Idx → EReal) (ix2 b o)
      = Cert.Lstm.lsmS (Cert.Lstm.logitS
          (fun b' n' => (E2 m c (Proc.devRef .tc main_v5_1) : S1024x4096.Idx → EReal) (ix2 b' n'))
          (m ((c : Thread nD τ).loc main_arg11)) (m ((c : Thread nD τ).loc main_arg12)) b) o := by
  rw [show E3 m c (Proc.devRef .tc main_v6) = (dat1 (T2 m) c).arrAt 3 cfg1.N from E3_arr m c 3]
  exact out1_of (T2 m) c _ _ (E2_main_arg11 m c) (E2_main_v4_apply m c) b o

end InRun

end Cert.KernelIdeal.Hand

end
-- ==== Proof.RefValue.lean ====
/-
  The reference's four results, read index by index, are the functions of `Spec.lean`.
-/
import proofs.«119333_j60842506715793_2_alg».proof.Proof.RefRead
import proofs.«119333_j60842506715793_2_alg».proof.Proof.Spec
import Idealize.ShloMosaic.Lib.IdealHost

noncomputable section

namespace Cert.Lstm.Ref

open Cert.ReferenceIdeal Cert.ReferenceIdeal.Gen Cert.ReferenceIdeal.ReadP Idealize.ShloMosaic Idealize.ShloMosaic.ValueIdx
  Idealize.ShloMosaic.StableHlo

/-- An f32 array of shape `s` over the extended reals, as the reference's stages type their arguments. -/
abbrev T (s : Shape) : Type := (⟨s, .f32⟩ : BufTy).Contents (Elt Ideal)

/-! ## The concatenations at an index -/

/-- The concatenation `[i | h]` at row `b`, column `j`. -/
theorem xcat_read (x0 : T S1024x1024) (x1 : T S1024x4096) (b : Fin 1024) (j : Fin 5120) :
    val_main_v0 (F := Ideal) x0 x1 (ix2 b j) = xcat x0 x1 b j := by
  unfold val_main_v0 xcat
  by_cases hj : j.val < 1024
  · rw [dif_pos hj]
    exact concatenate_pair_apply_left 1 x0 x1 _ (ix2 b j) rfl (ix2 b ⟨j.val, hj⟩)
      (fun a => by match a with | ⟨0, _⟩ => rfl | ⟨1, _⟩ => rfl)
  · rw [dif_neg hj]
    exact concatenate_pair_apply_right 1 x0 x1 _ (ix2 b j) rfl rfl (ix2 b ⟨j.val - 1024, by omega⟩)
      (fun a ha => by match a, ha with | ⟨0, _⟩, _ => rfl | ⟨1, _⟩, ha => exact absurd rfl ha)
      (by show (j.val - 1024) + 1024 = j.val; omega)

/-- Row `0 + n` of the four weight matrices stacked along the rows is row `n` of the forget gate's. -/
theorem wcat_read_f (x3 x5 x7 x9 : T S4096x5120) (c : Fin 16384) (n : Fin 4096) (hc : c.val = 0 + n.val)
    (j : Fin 5120) : val_main_v1 (F := Ideal) x3 x5 x7 x9 (ix2 c j) = x3 (ix2 n j) := by
  unfold val_main_v1
  exact concatenate_apply_piece 0 _ _ (ix2 c j) 0 (by simp) S4096x5120 x3 rfl rfl 0 rfl (ix2 n j)
    (fun a ha => by match a, ha with | ⟨0, _⟩, ha => exact absurd rfl ha | ⟨1, _⟩, _ => rfl)
    (by show 0 + n.val = c.val; omega)

/-- Entry `0 + n` of the four biases laid end to end is entry `n` of the forget gate's. -/
theorem bcat_read_f (x4 x6 x8 x10 : T S4096) (c : Fin 16384) (n : Fin 4096) (hc : c.val = 0 + n.val) :
    val_main_v2 (F := Ideal) x4 x6 x8 x10 (ix1 c) = x4 (ix1 n) := by
  unfold val_main_v2
  exact concatenate_apply_piece 0 _ _ (ix1 c) 0 (by simp) S4096 x4 rfl rfl 0 rfl (ix1 n)
    (fun a ha => by match a, ha with | ⟨0, _⟩, ha => exact absurd rfl ha)
    (by show 0 + n.val = c.val; omega)

/-- Row `4096 + n` of the four weight matrices stacked along the rows is row `n` of the input gate's. -/
theorem wcat_read_i (x3 x5 x7 x9 : T S4096x5120) (c : Fin 16384) (n : Fin 4096) (hc : c.val = 4096 + n.val)
    (j : Fin 5120) : val_main_v1 (F := Ideal) x3 x5 x7 x9 (ix2 c j) = x5 (ix2 n j) := by
  unfold val_main_v1
  exact concatenate_apply_piece 0 _ _ (ix2 c j) 1 (by simp) S4096x5120 x5 rfl rfl 4096 rfl (ix2 n j)
    (fun a ha => by match a, ha with | ⟨0, _⟩, ha => exact absurd rfl ha | ⟨1, _⟩, _ => rfl)
    (by show 4096 + n.val = c.val; omega)

/-- Entry `4096 + n` of the four biases laid end to end is entry `n` of the input gate's. -/
theorem bcat_read_i (x4 x6 x8 x10 : T S4096) (c : Fin 16384) (n : Fin 4096) (hc : c.val = 4096 + n.val) :
    val_main_v2 (F := Ideal) x4 x6 x8 x10 (ix1 c) = x6 (ix1 n) := by
  unfold val_main_v2
  exact concatenate_apply_piece 0 _ _ (ix1 c) 1 (by simp) S4096 x6 rfl rfl 4096 rfl (ix1 n)
    (fun a ha => by match a, ha with | ⟨0, _⟩, ha => exact absurd rfl ha)
    (by show 4096 + n.val = c.val; omega)

/-- Row `8192 + n` of the four weight matrices stacked along the rows is row `n` of the candidate gate's. -/
theorem wcat_read_c (x3 x5 x7 x9 : T S4096x5120) (c : Fin 16384) (n : Fin 4096) (hc : c.val = 8192 + n.val)
    (j : Fin 5120) : val_main_v1 (F := Ideal) x3 x5 x7 x9 (ix2 c j) = x7 (ix2 n j) := by
  unfold val_main_v1
  exact concatenate_apply_piece 0 _ _ (ix2 c j) 2 (by simp) S4096x5120 x7 rfl rfl 8192 rfl (ix2 n j)
    (fun a ha => by match a, ha with | ⟨0, _⟩, ha => exact absurd rfl ha | ⟨1, _⟩, _ => rfl)
    (by show 8192 + n.val = c.val; omega)

/-- Entry `8192 + n` of the four biases laid end to end is entry `n` of the candidate gate's. -/
theorem bcat_read_c (x4 x6 x8 x10 : T S4096) (c : Fin 16384) (n : Fin 4096) (hc : c.val = 8192 + n.val) :
    val_main_v2 (F := Ideal) x4 x6 x8 x10 (ix1 c) = x8 (ix1 n) := by
  unfold val_main_v2
  exact concatenate_apply_piece 0 _ _ (ix1 c) 2 (by simp) S4096 x8 rfl rfl 8192 rfl (ix1 n)
    (fun a ha => by match a, ha with | ⟨0, _⟩, ha => exact absurd rfl ha)
    (by show 8192 + n.val = c.val; omega)

/-- Row `12288 + n` of the four weight matrices stacked along the rows is row `n` of the output gate's. -/
theorem wcat_read_o (x3 x5 x7 x9 : T S4096x5120) (c : Fin 16384) (n : Fin 4096) (hc : c.val = 12288 + n.val)
    (j : Fin 5120) : val_main_v1 (F := Ideal) x3 x5 x7 x9 (ix2 c j) = x9 (ix2 n j) := by
  unfold val_main_v1
  exact concatenate_apply_piece 0 _ _ (ix2 c j) 3 (by simp) S4096x5120 x9 rfl rfl 12288 rfl (ix2 n j)
    (fun a ha => by match a, ha with | ⟨0, _⟩, ha => exact absurd rfl ha | ⟨1, _⟩, _ => rfl)
    (by show 12288 + n.val = c.val; omega)

/-- Entry `12288 + n` of the four biases laid end to end is entry `n` of the output gate's. -/
theorem bcat_read_o (x4 x6 x8 x10 : T S4096) (c : Fin 16384) (n : Fin 4096) (hc : c.val = 12288 + n.val) :
    val_main_v2 (F := Ideal) x4 x6 x8 x10 (ix1 c) = x10 (ix1 n) := by
  unfold val_main_v2
  exact concatenate_apply_piece 0 _ _ (ix1 c) 3 (by simp) S4096 x10 rfl rfl 12288 rfl (ix1 n)
    (fun a ha => by match a, ha with | ⟨0, _⟩, ha => exact absurd rfl ha)
    (by show 12288 + n.val = c.val; omega)

/-! ## The four pre-activations -/

/-- The stacked pre-activations at `(b, c)`: row `b` of `[i | h]` against row `c` of the stacked weights, plus
    entry `c` of the stacked biases. -/
theorem pre_read (x0 : T S1024x1024) (x1 : T S1024x4096) (x3 : T S4096x5120) (x4 : T S4096) (x5 : T S4096x5120) (x6 : T S4096)
    (x7 : T S4096x5120) (x8 : T S4096) (x9 : T S4096x5120) (x10 : T S4096) (b : Fin 1024) (c : Fin 16384) :
    val_main_v7 (F := Ideal) x0 x1 x3 x4 x5 x6 x7 x8 x9 x10 (ix2 b c)
      = (∑ j : Fin 5120, xcat x0 x1 b j * val_main_v1 (F := Ideal) x3 x5 x7 x9 (ix2 c j))
        + val_main_v2 (F := Ideal) x4 x6 x8 x10 (ix1 c) := by
  have e1 : ∀ j : Fin 5120, lidx_main_v4 (ix2 b c) j = ix2 b j := fun j =>
    funext fun a => Fin.ext (by match a with | ⟨0, _⟩ => rfl | ⟨1, _⟩ => rfl)
  have e2 : ∀ j : Fin 5120, idx_main_v3 (ridx_main_v4 (ix2 b c) j) = ix2 c j := fun j =>
    funext fun a => Fin.ext (by match a with | ⟨0, _⟩ => rfl | ⟨1, _⟩ => rfl)
  have e3 : idx_main_v5 (idx_main_v6 (ix2 b c)) = ix1 c :=
    funext fun a => Fin.ext (by match a with | ⟨0, _⟩ => rfl)
  rw [val_main_v7_apply, val_main_v4_apply, val_main_v6_apply, val_main_v5_apply, e3]
  simp only [val_main_v3_apply, e1, e2, xcat_read, Ideal.addf_def]

/-- The forget gate's slice of the stacked pre-activations is its pre-activation. -/
theorem gate_f_read (x0 : T S1024x1024) (x1 : T S1024x4096) (x3 : T S4096x5120) (x4 : T S4096) (x5 : T S4096x5120) (x6 : T S4096)
    (x7 : T S4096x5120) (x8 : T S4096) (x9 : T S4096x5120) (x10 : T S4096) (b : Fin 1024) (n : Fin 4096) :
    val_main_v8 (F := Ideal) x0 x1 x3 x4 x5 x6 x7 x8 x9 x10 (ix2 b n) = gatePre x3 x4 x0 x1 b n := by
  have e : idx_main_v8 (ix2 b n) = ix2 b (⟨0 + n.val, by have := n.isLt; omega⟩ : Fin 16384) :=
    funext fun a => Fin.ext (by match a with | ⟨0, _⟩ => rfl | ⟨1, _⟩ => exact (Nat.zero_add _).symm)
  rw [val_main_v8_apply, e, pre_read, bcat_read_f x4 x6 x8 x10 _ n rfl]
  unfold gatePre
  congr 1
  exact Finset.sum_congr rfl fun j _ => by rw [wcat_read_f x3 x5 x7 x9 _ n rfl j]

/-- The input gate's slice of the stacked pre-activations is its pre-activation. -/
theorem gate_i_read (x0 : T S1024x1024) (x1 : T S1024x4096) (x3 : T S4096x5120) (x4 : T S4096) (x5 : T S4096x5120) (x6 : T S4096)
    (x7 : T S4096x5120) (x8 : T S4096) (x9 : T S4096x5120) (x10 : T S4096) (b : Fin 1024) (n : Fin 4096) :
    val_main_v9 (F := Ideal) x0 x1 x3 x4 x5 x6 x7 x8 x9 x10 (ix2 b n) = gatePre x5 x6 x0 x1 b n := by
  have e : idx_main_v9 (ix2 b n) = ix2 b (⟨4096 + n.val, by have := n.isLt; omega⟩ : Fin 16384) :=
    funext fun a => Fin.ext (by match a with | ⟨0, _⟩ => rfl | ⟨1, _⟩ => rfl)
  rw [val_main_v9_apply, e, pre_read, bcat_read_i x4 x6 x8 x10 _ n rfl]
  unfold gatePre
  congr 1
  exact Finset.sum_congr rfl fun j _ => by rw [wcat_read_i x3 x5 x7 x9 _ n rfl j]

/-- The candidate gate's slice of the stacked pre-activations is its pre-activation. -/
theorem gate_c_read (x0 : T S1024x1024) (x1 : T S1024x4096) (x3 : T S4096x5120) (x4 : T S4096) (x5 : T S4096x5120) (x6 : T S4096)
    (x7 : T S4096x5120) (x8 : T S4096) (x9 : T S4096x5120) (x10 : T S4096) (b : Fin 1024) (n : Fin 4096) :
    val_main_v10 (F := Ideal) x0 x1 x3 x4 x5 x6 x7 x8 x9 x10 (ix2 b n) = gatePre x7 x8 x0 x1 b n := by
  have e : idx_main_v10 (ix2 b n) = ix2 b (⟨8192 + n.val, by have := n.isLt; omega⟩ : Fin 16384) :=
    funext fun a => Fin.ext (by match a with | ⟨0, _⟩ => rfl | ⟨1, _⟩ => rfl)
  rw [val_main_v10_apply, e, pre_read, bcat_read_c x4 x6 x8 x10 _ n rfl]
  unfold gatePre
  congr 1
  exact Finset.sum_congr rfl fun j _ => by rw [wcat_read_c x3 x5 x7 x9 _ n rfl j]

/-- The output gate's slice of the stacked pre-activations is its pre-activation. -/
theorem gate_o_read (x0 : T S1024x1024) (x1 : T S1024x4096) (x3 : T S4096x5120) (x4 : T S4096) (x5 : T S4096x5120) (x6 : T S4096)
    (x7 : T S4096x5120) (x8 : T S4096) (x9 : T S4096x5120) (x10 : T S4096) (b : Fin 1024) (n : Fin 4096) :
    val_main_v11 (F := Ideal) x0 x1 x3 x4 x5 x6 x7 x8 x9 x10 (ix2 b n) = gatePre x9 x10 x0 x1 b n := by
  have e : idx_main_v11 (ix2 b n) = ix2 b (⟨12288 + n.val, by have := n.isLt; omega⟩ : Fin 16384) :=
    funext fun a => Fin.ext (by match a with | ⟨0, _⟩ => rfl | ⟨1, _⟩ => rfl)
  rw [val_main_v11_apply, e, pre_read, bcat_read_o x4 x6 x8 x10 _ n rfl]
  unfold gatePre
  congr 1
  exact Finset.sum_congr rfl fun j _ => by rw [wcat_read_o x3 x5 x7 x9 _ n rfl j]

/-! ## The gates and the two states -/

/-- The forget gate: one over one plus the exponential of the negated pre-activation is its logistic function. -/
theorem sig_f_read (x0 : T S1024x1024) (x1 : T S1024x4096) (x3 : T S4096x5120) (x4 : T S4096) (x5 : T S4096x5120) (x6 : T S4096)
    (x7 : T S4096x5120) (x8 : T S4096) (x9 : T S4096x5120) (x10 : T S4096) (b : Fin 1024) (n : Fin 4096) :
    val_main_v17 (F := Ideal) x0 x1 x3 x4 x5 x6 x7 x8 x9 x10 (ix2 b n) = Ideal.logistic (gatePre x3 x4 x0 x1 b n) := by
  rw [val_main_v17_apply, val_main_v16_apply, val_main_cst_0_apply, val_main_v15_apply, val_main_v14_apply,
    val_main_cst_apply, val_main_v13_apply, val_main_v12_apply, gate_f_read]
  simp only [Ideal.hostDivf_def, Ideal.addf_def, Ideal.hostUnary_exp_def, Ideal.hostNegf_def, Ideal.ofBits_def,
    Ideal.ofBits_one_f32]
  rfl

/-- The input gate: one over one plus the exponential of the negated pre-activation is its logistic function. -/
theorem sig_i_read (x0 : T S1024x1024) (x1 : T S1024x4096) (x3 : T S4096x5120) (x4 : T S4096) (x5 : T S4096x5120) (x6 : T S4096)
    (x7 : T S4096x5120) (x8 : T S4096) (x9 : T S4096x5120) (x10 : T S4096) (b : Fin 1024) (n : Fin 4096) :
    val_main_v23 (F := Ideal) x0 x1 x3 x4 x5 x6 x7 x8 x9 x10 (ix2 b n) = Ideal.logistic (gatePre x5 x6 x0 x1 b n) := by
  rw [val_main_v23_apply, val_main_v22_apply, val_main_cst_2_apply, val_main_v21_apply, val_main_v20_apply,
    val_main_cst_1_apply, val_main_v19_apply, val_main_v18_apply, gate_i_read]
  simp only [Ideal.hostDivf_def, Ideal.addf_def, Ideal.hostUnary_exp_def, Ideal.hostNegf_def, Ideal.ofBits_def,
    Ideal.ofBits_one_f32]
  rfl

/-- The output gate: one over one plus the exponential of the negated pre-activation is its logistic function. -/
theorem sig_o_read (x0 : T S1024x1024) (x1 : T S1024x4096) (x3 : T S4096x5120) (x4 : T S4096) (x5 : T S4096x5120) (x6 : T S4096)
    (x7 : T S4096x5120) (x8 : T S4096) (x9 : T S4096x5120) (x10 : T S4096) (b : Fin 1024) (n : Fin 4096) :
    val_main_v33 (F := Ideal) x0 x1 x3 x4 x5 x6 x7 x8 x9 x10 (ix2 b n) = Ideal.logistic (gatePre x9 x10 x0 x1 b n) := by
  rw [val_main_v33_apply, val_main_v32_apply, val_main_cst_4_apply, val_main_v31_apply, val_main_v30_apply,
    val_main_cst_3_apply, val_main_v29_apply, val_main_v28_apply, gate_o_read]
  simp only [Ideal.hostDivf_def, Ideal.addf_def, Ideal.hostUnary_exp_def, Ideal.hostNegf_def, Ideal.ofBits_def,
    Ideal.ofBits_one_f32]
  rfl

/-- The first result: the input gate. -/
theorem ref_it (x0 : T S1024x1024) (x1 : T S1024x4096) (x3 : T S4096x5120) (x4 : T S4096) (x5 : T S4096x5120) (x6 : T S4096)
    (x7 : T S4096x5120) (x8 : T S4096) (x9 : T S4096x5120) (x10 : T S4096) (b : Fin 1024) (n : Fin 4096) :
    val_main_v23 (F := Ideal) x0 x1 x3 x4 x5 x6 x7 x8 x9 x10 (ix2 b n) = Cert.Lstm.itS x0 x1 x5 x6 b n :=
  sig_i_read x0 x1 x3 x4 x5 x6 x7 x8 x9 x10 b n

/-- The third result: the new cell state. -/
theorem ref_ct (x0 : T S1024x1024) (x1 x2 : T S1024x4096) (x3 : T S4096x5120) (x4 : T S4096) (x5 : T S4096x5120) (x6 : T S4096)
    (x7 : T S4096x5120) (x8 : T S4096) (x9 : T S4096x5120) (x10 : T S4096) (b : Fin 1024) (n : Fin 4096) :
    val_main_v27 (F := Ideal) x0 x1 x2 x3 x4 x5 x6 x7 x8 x9 x10 (ix2 b n) = Cert.Lstm.ctS x0 x1 x2 x3 x4 x5 x6 x7 x8 b n := by
  rw [val_main_v27_apply, val_main_v25_apply, val_main_v26_apply, val_main_v24_apply, sig_f_read, ref_it, gate_c_read]
  simp only [Ideal.addf_def, Ideal.mulf_def, Ideal.hostUnary_tanh_def]
  rfl

/-- The second result: the new hidden state. -/
theorem ref_ht (x0 : T S1024x1024) (x1 x2 : T S1024x4096) (x3 : T S4096x5120) (x4 : T S4096) (x5 : T S4096x5120) (x6 : T S4096)
    (x7 : T S4096x5120) (x8 : T S4096) (x9 : T S4096x5120) (x10 : T S4096) (b : Fin 1024) (n : Fin 4096) :
    val_main_v35 (F := Ideal) x0 x1 x2 x3 x4 x5 x6 x7 x8 x9 x10 (ix2 b n) = Cert.Lstm.htS x0 x1 x2 x3 x4 x5 x6 x7 x8 x9 x10 b n := by
  rw [val_main_v35_apply, val_main_v34_apply, sig_o_read, ref_ct]
  simp only [Ideal.mulf_def, Ideal.hostUnary_tanh_def]
  rfl

/-! ## The logits and their log-softmax -/

/-- The logits at `(b, o)`: the new hidden state's row `b` against row `o` of `Wout`, plus `bout` at `o`. -/
theorem logit_read (x0 : T S1024x1024) (x1 x2 : T S1024x4096) (x3 : T S4096x5120) (x4 : T S4096) (x5 : T S4096x5120) (x6 : T S4096)
    (x7 : T S4096x5120) (x8 : T S4096) (x9 : T S4096x5120) (x10 : T S4096) (x11 : T S4096x4096) (x12 : T S4096) (b : Fin 1024) (o : Fin 4096) :
    val_main_v40 (F := Ideal) x0 x1 x2 x3 x4 x5 x6 x7 x8 x9 x10 x11 x12 (ix2 b o)
      = logitS (htS x0 x1 x2 x3 x4 x5 x6 x7 x8 x9 x10) x11 x12 b o := by
  have e1 : ∀ j : Fin 4096, lidx_main_v37 (ix2 b o) j = ix2 b j := fun j =>
    funext fun a => Fin.ext (by match a with | ⟨0, _⟩ => rfl | ⟨1, _⟩ => rfl)
  have e2 : ∀ j : Fin 4096, idx_main_v36 (ridx_main_v37 (ix2 b o) j) = ix2 o j := fun j =>
    funext fun a => Fin.ext (by match a with | ⟨0, _⟩ => rfl | ⟨1, _⟩ => rfl)
  have e3 : idx_main_v38 (idx_main_v39 (ix2 b o)) = ix1 o :=
    funext fun a => Fin.ext (by match a with | ⟨0, _⟩ => rfl)
  rw [val_main_v40_apply, val_main_v37_apply, val_main_v39_apply, val_main_v38_apply, e3]
  simp only [val_main_v36_apply, e1, e2, ref_ht, Ideal.addf_def]
  rfl

/-- The f32 word of minus infinity is the bottom of the extended reals. -/
theorem ofBits_ninf : Ideal.ofBits .f32 0xFF800000#32 = (⊥ : EReal) := by simp [Ideal.ofBits, Ideal.ieee]

/-- A row index with the column `k` put back is `(b, k)`. -/
theorem lift_row (h : S1024x4096.Reduces [1] S1024) (b : Fin 1024) (k : Fin (S1024x4096.size 1)) :
    h.lift (ix1 b) k = ix2 b (⟨k.val, k.isLt⟩ : Fin 4096) := by
  funext c; apply Fin.ext
  fin_cases c <;> rfl

/-- The maximum of the logits' row `b`, as the reference takes it: the fold of `max` from minus infinity along the
    row, then once more against minus infinity. -/
theorem rowmax_read (x0 : T S1024x1024) (x1 x2 : T S1024x4096) (x3 : T S4096x5120) (x4 : T S4096) (x5 : T S4096x5120) (x6 : T S4096)
    (x7 : T S4096x5120) (x8 : T S4096) (x9 : T S4096x5120) (x10 : T S4096) (x11 : T S4096x4096) (x12 : T S4096) (b : Fin 1024) :
    val_main_call0_v2 (F := Ideal) x0 x1 x2 x3 x4 x5 x6 x7 x8 x9 x10 x11 x12 (ix1 b)
      = rowMax (logitS (htS x0 x1 x2 x3 x4 x5 x6 x7 x8 x9 x10) x11 x12 b) := by
  have h : S1024x4096.Reduces [1] S1024 := by decide
  have hf : (val_main_v40 (F := Ideal) x0 x1 x2 x3 x4 x5 x6 x7 x8 x9 x10 x11 x12 ∘ h.lift (ix1 b))
      = logitS (htS x0 x1 x2 x3 x4 x5 x6 x7 x8 x9 x10) x11 x12 b :=
    funext fun k => by rw [Function.comp_apply, lift_row h b k, logit_read]; rfl
  rw [val_main_call0_v2_apply, val_main_call0_v1_apply, val_main_call0_cst_0_apply]
  unfold val_main_call0_v0
  rw [Host.reduce_eq_fold_single (FloatOps.maximumf (F := Ideal) (φ := .f32)) _ _ _ h h_S_, hf, val_main_call0_cst_apply]
  simp only [Ideal.maximumf_def, Ideal.ofBits_def, ofBits_ninf]
  unfold rowMax
  exact max_bot_left _

/-- The fourth result: the log-softmax of the logits along the row. -/
theorem ref_out (x0 : T S1024x1024) (x1 x2 : T S1024x4096) (x3 : T S4096x5120) (x4 : T S4096) (x5 : T S4096x5120) (x6 : T S4096)
    (x7 : T S4096x5120) (x8 : T S4096) (x9 : T S4096x5120) (x10 : T S4096) (x11 : T S4096x4096) (x12 : T S4096) (b : Fin 1024) (o : Fin 4096) :
    val_main_v41 (F := Ideal) x0 x1 x2 x3 x4 x5 x6 x7 x8 x9 x10 x11 x12 (ix2 b o)
      = Cert.Lstm.outS x0 x1 x2 x3 x4 x5 x6 x7 x8 x9 x10 x11 x12 b o := by
  have e4 : ∀ o' : Fin 4096, idx_main_call0_v3 (idx_main_call0_v4 (ix2 b o')) = ix1 b := fun o' =>
    funext fun a => Fin.ext (by match a with | ⟨0, _⟩ => rfl)
  have e7 : ∀ k : Fin 4096, idx_main_call0_v7 (ix1 b) k = ix2 b k := fun k =>
    funext fun a => Fin.ext (by match a with | ⟨0, _⟩ => rfl | ⟨1, _⟩ => rfl)
  have e8 : idx_main_call0_v8 (idx_main_call0_v10 (ix2 b o)) = ix1 b :=
    funext fun a => Fin.ext (by match a with | ⟨0, _⟩ => rfl)
  have sub : ∀ o' : Fin 4096, val_main_call0_v5 (F := Ideal) x0 x1 x2 x3 x4 x5 x6 x7 x8 x9 x10 x11 x12 (ix2 b o')
      = logitS (htS x0 x1 x2 x3 x4 x5 x6 x7 x8 x9 x10) x11 x12 b o'
        - rowMax (logitS (htS x0 x1 x2 x3 x4 x5 x6 x7 x8 x9 x10) x11 x12 b) := fun o' => by
    rw [val_main_call0_v5_apply, val_main_call0_v4_apply, val_main_call0_v3_apply, e4, rowmax_read, logit_read]
    rfl
  rw [val_main_v41_apply, sub, val_main_call0_v10_apply, val_main_call0_v9_apply, val_main_call0_v8_apply, e8,
    val_main_call0_v7_apply, val_main_call0_cst_1_apply]
  simp only [e7, val_main_call0_v6_apply, sub, Ideal.subf_def, Ideal.hostUnary_log_def, Ideal.hostUnary_exp_def,
    Ideal.ofBits_def, Ideal.ofBits_zero_f32, zero_add]
  rfl

end Cert.Lstm.Ref

end
-- ==== Proof.lean ====
/-
  The claim, assembled. The kernel program is five reshapes of the bias vectors and two kernels: the first accumulates,
  over the k axis of its grid, the products of the row block of `[i | h]` with each gate's weight block into four
  scratches and at the last k applies the gates; the second accumulates the hidden state against `Wout` and at its last k
  takes the row-wise log-softmax. The three frames: every weakly fair execution terminates, nothing faults, and the
  thirteen argument arrays end as launched — for the kernel program, at the word level and at the ideal values, from the
  two regions' runs over their carried accumulators; for the reference from the run of its straight line of host
  operations. The ideal pass rewrote nothing, so the idealization is the program's own text. At the ideal values both
  programs' four results are the functions of `Spec.lean`: the kernel's sums over (k, column within the block) are the
  reference's sums over the concatenated axis regrouped, which needs only that addition of extended reals is
  commutative and associative; the logistic is one function on both sides.
-/
import proofs.«119333_j60842506715793_2_alg».proof.Defs
import proofs.«119333_j60842506715793_2_alg».proof.Proof.Gen.Kernel
import proofs.«119333_j60842506715793_2_alg».proof.Proof.Gen.KernelIdeal
import proofs.«119333_j60842506715793_2_alg».proof.Proof.Gen.ReferenceIdeal
import proofs.«119333_j60842506715793_2_alg».proof.Proof.Gen.Pre_finite_inputs
import proofs.«119333_j60842506715793_2_alg».proof.Proof.K.Args
import proofs.«119333_j60842506715793_2_alg».proof.Proof.KI.Args
import proofs.«119333_j60842506715793_2_alg».proof.Proof.KI.Val0
import proofs.«119333_j60842506715793_2_alg».proof.Proof.KI.Val1
import proofs.«119333_j60842506715793_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2.2.2.2) (Cert.ReferenceIdeal.ValueP.run (F := Ideal) m ρ)

theorem preserves : Cert.preserves_Kernel_KernelIdeal := trivial

open Cert.KernelIdeal Cert.KernelIdeal.Gen Cert.KernelIdeal.Hand in
/-- At the ideal values the kernel program's four result arrays end at the last boundary's contents, which are the
    specification's functions of the arguments; the reference's four results are the same functions of arguments that
    agree. -/
theorem algebraic : Cert.algebraic_KernelIdeal_ReferenceIdeal := by
  intro m ρ m' ρ' _ hagree
  refine ⟨fun c => E3 m c (Proc.devRef .tc main_v5_0), fun c => E3 m c (Proc.devRef .tc main_v5_1),
    fun c => E3 m c (Proc.devRef .tc main_v5_2), fun c => E3 m c (Proc.devRef .tc main_v6), ?_, ?_⟩
  · exact (θ_run Cert.KernelIdeal.defs _ _).mono (fun r h c =>
      ⟨h c _ (mem_uc main_v5_0 (by decide)), h c _ (mem_uc main_v5_1 (by decide)), h c _ (mem_uc main_v5_2 (by decide)),
       h c _ (mem_uc main_v6 (by decide)),
       (h c _ (mem_uc main_arg0 (by decide))).trans (E3_main_arg0 m c),
       (h c _ (mem_uc main_arg1 (by decide))).trans (E3_main_arg1 m c),
       (h c _ (mem_uc main_arg2 (by decide))).trans (E3_main_arg2 m c),
       (h c _ (mem_uc main_arg3 (by decide))).trans (E3_main_arg3 m c),
       (h c _ (mem_uc main_arg4 (by decide))).trans (E3_main_arg4 m c),
       (h c _ (mem_uc main_arg5 (by decide))).trans (E3_main_arg5 m c),
       (h c _ (mem_uc main_arg6 (by decide))).trans (E3_main_arg6 m c),
       (h c _ (mem_uc main_arg7 (by decide))).trans (E3_main_arg7 m c),
       (h c _ (mem_uc main_arg8 (by decide))).trans (E3_main_arg8 m c),
       (h c _ (mem_uc main_arg9 (by decide))).trans (E3_main_arg9 m c),
       (h c _ (mem_uc main_arg10 (by decide))).trans (E3_main_arg10 m c),
       (h c _ (mem_uc main_arg11 (by decide))).trans (E3_main_arg11 m c),
       (h c _ (mem_uc main_arg12 (by decide))).trans (E3_main_arg12 m c)⟩)
      (run_all (F := Ideal) m ρ)
  · refine (θ_run Cert.ReferenceIdeal.defs _ _).mono (fun r h c => ⟨(h c).1.trans ?_, (h c).2.1.trans ?_, (h c).2.2.1.trans ?_, (h c).2.2.2.1.trans ?_, (h c).2.2.2.2⟩)
      (Cert.ReferenceIdeal.ValueP.run (F := Ideal) m' ρ')
    · -- the input gate
      refine (Cert.ReferenceIdeal.ReadP.val_main_v23_eq _ _ _ _ _ _ _ _ _ _).trans ?_
      funext j
      obtain ⟨b, n, rfl⟩ : ∃ (b : Fin 1024) (n : Fin 4096), j = ix2 b n := ⟨j 0, j 1, eq_ix2 j⟩
      beta_reduce
      rw [Cert.Lstm.Ref.ref_it, E3_main_v5_0, val0_it]
      simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    · -- the hidden state
      refine (Cert.ReferenceIdeal.ReadP.val_main_v35_eq m' c).trans ?_
      funext j
      obtain ⟨b, n, rfl⟩ : ∃ (b : Fin 1024) (n : Fin 4096), j = ix2 b n := ⟨j 0, j 1, eq_ix2 j⟩
      beta_reduce
      rw [Cert.Lstm.Ref.ref_ht, E3_main_v5_1, val0_ht]
      simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    · -- the cell state
      refine (Cert.ReferenceIdeal.ReadP.val_main_v27_eq _ _ _ _ _ _ _ _ _ _ _).trans ?_
      funext j
      obtain ⟨b, n, rfl⟩ : ∃ (b : Fin 1024) (n : Fin 4096), j = ix2 b n := ⟨j 0, j 1, eq_ix2 j⟩
      beta_reduce
      rw [Cert.Lstm.Ref.ref_ct, E3_main_v5_2, val0_ct]
      simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
    · -- the log-softmax of the logits
      refine (Cert.ReferenceIdeal.ReadP.val_main_v41_eq m' c).trans ?_
      funext j
      obtain ⟨b, o, rfl⟩ : ∃ (b : Fin 1024) (o : Fin 4096), j = ix2 b o := ⟨j 0, j 1, eq_ix2 j⟩
      beta_reduce
      rw [Cert.Lstm.Ref.ref_out, val1]
      simp only [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
      unfold Cert.Lstm.outS
      congr 2
      funext b' n'
      exact (val0_ht m c b' n').symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
